-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S50000x256 : Shape := ⟨2, ![50000, 256]⟩
abbrev S256 : Shape := ⟨1, ![256]⟩
abbrev S128x256 : Shape := ⟨2, ![128, 256]⟩
abbrev S256x256 : Shape := ⟨2, ![256, 256]⟩
abbrev S256x40 : Shape := ⟨2, ![256, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S50000x256 : S_.BroadcastsInDim S50000x256 (![] : Fin 0 → Fin S50000x256.rank)
  reducesTo_S50000x256_S_d0_1 : S50000x256.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S256x256 : S_.BroadcastsInDim S256x256 (![] : Fin 0 → Fin S256x256.rank)
  reducesTo_S256x256_S_d0_1 : S256x256.ReducesTo [0, 1] S_
  bcast_S_S256x40 : S_.BroadcastsInDim S256x40 (![] : Fin 0 → Fin S256x40.rank)
  reducesTo_S256x40_S_d0_1 : S256x40.ReducesTo [0, 1] S_
  bcast_S_S40 : S_.BroadcastsInDim S40 (![] : Fin 0 → Fin S40.rank)
  reducesTo_S40_S_d0 : S40.ReducesTo [0] S_

variable [Facts]

def fn_part4 {F : FTy → Type} [FloatOps F] (main_arg15 : FVec F S256x40 .f32) (main_arg16 : FVec F S40 .f32) (main_v63 : IVec S_ 1) (main_v67 : IVec S_ 1) : IVec S_ 1 :=
  let main_v68 : IVec S_ 1 := andi main_v63 main_v67
  let main_v69 : FVec F S256x40 .f32 := Host.absf main_arg15
  let main_cst_26 : FVec F S_ .f32 := constant S_ .f32 0x7F800000#32
  let main_v70 : FVec F S256x40 .f32 := broadcastInDim S256x40 ![] bcast_S_S256x40 main_cst_26
  let main_v71 : IVec S256x40 1 := cmpf .olt main_v69 main_v70
  let main_c_27 : IVec S_ 1 := constantI S_ 1 1#1
  let main_v72 : IVec S_ 1 := (fun x v => Host.reduce IntOp.andi x v reducesTo_S256x40_S_d0_1 h_S_) main_v71 main_c_27
  let main_v73 : IVec S_ 1 := andi main_v68 main_v72
  let main_v74 : FVec F S40 .f32 := Host.absf main_arg16
  let main_cst_28 : FVec F S_ .f32 := constant S_ .f32 0x7F800000#32
  let main_v75 : FVec F S40 .f32 := broadcastInDim S40 ![] bcast_S_S40 main_cst_28
  let main_v76 : IVec S40 1 := cmpf .olt main_v74 main_v75
  let main_c_29 : IVec S_ 1 := constantI S_ 1 1#1
  let main_v77 : IVec S_ 1 := (fun x v => Host.reduce IntOp.andi x v reducesTo_S40_S_d0 h_S_) main_v76 main_c_29
  let main_v78 : IVec S_ 1 := andi main_v73 main_v77
  main_v78

def fn_part3 {F : FTy → Type} [FloatOps F] (main_arg12 : FVec F S256 .f32) (main_arg13 : FVec F S256 .f32) (main_arg14 : FVec F S256 .f32) (main_arg15 : FVec F S256x40 .f32) (main_arg16 : FVec F S40 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg15 main_arg16 main_v63 main_v67

def fn_part2 {F : FTy → Type} [FloatOps F] (main_arg8 : FVec F S256 .f32) (main_arg9 : FVec F S256x256 .f32) (main_arg10 : FVec F S256 .f32) (main_arg11 : FVec F S256x256 .f32) (main_arg12 : FVec F S256 .f32) (main_arg13 : FVec F S256 .f32) (main_arg14 : FVec F S256 .f32) (main_arg15 : FVec F S256x40 .f32) (main_arg16 : FVec F S40 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg9
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg11
  let main_cst_18 : FVec F S_ .f32 := constant S_ .f32 0x7F800000#32
  let main_v50 : FVec F S256x256 .f32 := broadcastInDim S256x256 ![] bcast_S_S256x256 main_cst_18
  fn_part3 (F := F) main_arg12 main_arg13 main_arg14 main_arg15 main_arg16 main_v48 main_v49 main_v50

def fn_part1 {F : FTy → Type} [FloatOps F] (main_arg5 : FVec F S128x256 .f32) (main_arg6 : FVec F S256 .f32) (main_arg7 : FVec F S256x256 .f32) (main_arg8 : FVec F S256 .f32) (main_arg9 : FVec F S256x256 .f32) (main_arg10 : FVec F S256 .f32) (main_arg11 : FVec F S256x256 .f32) (main_arg12 : FVec F S256 .f32) (main_arg13 : FVec F S256 .f32) (main_arg14 : FVec F S256 .f32) (main_arg15 : FVec F S256x40 .f32) (main_arg16 : FVec F S40 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S128x256 .f32 := Host.absf main_arg5
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S50000x128 .f32) (main_arg1 : IVec S2x800000 32) (main_arg2 : FVec F S800000 .f32) (main_arg3 : FVec F S50000x256 .f32) (main_arg4 : FVec F S256 .f32) (main_arg5 : FVec F S128x256 .f32) (main_arg6 : FVec F S256 .f32) (main_arg7 : FVec F S256x256 .f32) (main_arg8 : FVec F S256 .f32) (main_arg9 : FVec F S256x256 .f32) (main_arg10 : FVec F S256 .f32) (main_arg11 : FVec F S256x256 .f32) (main_arg12 : FVec F S256 .f32) (main_arg13 : FVec F S256 .f32) (main_arg14 : FVec F S256 .f32) (main_arg15 : FVec F S256x40 .f32) (main_arg16 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S50000x256 .f32 := Host.absf main_arg3
  let main_cst_2 : FVec F S_ .f32 := constant S_ .f32 0x7F800000#32
  let main_v10 : FVec F S50000x256 .f32 := broadcastInDim S50000x256 ![] bcast_S_S50000x256 main_cst_2
  let main_v11 : IVec S50000x256 1 := cmpf .olt main_v9 main_v10
  let main_c_3 : IVec S_ 1 := constantI S_ 1 1#1
  let main_v12 : IVec S_ 1 := (fun x v => Host.reduce IntOp.andi x v reducesTo_S50000x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S50000x256 : Shape := ⟨2, ![50000, 256]⟩
abbrev S256 : Shape := ⟨1, ![256]⟩
abbrev S128x256 : Shape := ⟨2, ![128, 256]⟩
abbrev S256x256 : Shape := ⟨2, ![256, 256]⟩
abbrev S256x40 : Shape := ⟨2, ![256, 40]⟩
abbrev S40 : Shape := ⟨1, ![40]⟩
abbrev S1x800000 : Shape := ⟨2, ![1, 800000]⟩
abbrev S800000x1 : Shape := ⟨2, ![800000, 1]⟩
abbrev S_ : Shape := ⟨0, ![]⟩
abbrev S800000x256 : Shape := ⟨2, ![800000, 256]⟩
abbrev S1x256 : Shape := ⟨2, ![1, 256]⟩
abbrev S1000x256 : Shape := ⟨2, ![1000, 256]⟩
abbrev S1000x128 : Shape := ⟨2, ![1000, 128]⟩
abbrev S1x40 : Shape := ⟨2, ![1, 40]⟩
abbrev S50000x40 : Shape := ⟨2, ![50000, 40]⟩
abbrev S1000x40 : Shape := ⟨2, ![1000, 40]⟩

abbrev nBuf : Space → Nat
  | .hbm => 61
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S50000x256, .f32⟩
  | .hbm, ⟨4, _⟩ => ⟨S256, .f32⟩
  | .hbm, ⟨5, _⟩ => ⟨S128x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256, .f32⟩
  | .hbm, ⟨14, _⟩ => ⟨S256, .f32⟩
  | .hbm, ⟨15, _⟩ => ⟨S256x40, .f32⟩
  | .hbm, ⟨16, _⟩ => ⟨S40, .f32⟩
  | .hbm, ⟨17, _⟩ => ⟨S1x800000, .i32⟩
  | .hbm, ⟨18, _⟩ => ⟨S800000, .i32⟩
  | .hbm, ⟨19, _⟩ => ⟨S1x800000, .i32⟩
  | .hbm, ⟨20, _⟩ => ⟨S800000, .i32⟩
  | .hbm, ⟨21, _⟩ => ⟨S800000x1, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x256, .f32⟩
  | .hbm, ⟨31, _⟩ => ⟨S800000x256, .f32⟩
  | .hbm, ⟨32, _⟩ => ⟨S800000x256, .f32⟩
  | .hbm, ⟨33, _⟩ => ⟨S_, .f32⟩
  | .hbm, ⟨34, _⟩ => ⟨S50000x256, .f32⟩
  | .hbm, ⟨35, _⟩ => ⟨S800000x1, .i32⟩
  | .hbm, ⟨36, _⟩ => ⟨S50000x256, .f32⟩
  | .hbm, ⟨37, _⟩ => ⟨S1x256, .f32⟩
  | .hbm, ⟨38, _⟩ => ⟨S1x256, .f32⟩
  | .hbm, ⟨39, _⟩ => ⟨S1x256, .f32⟩
  | .hbm, ⟨40, _⟩ => ⟨S1x256, .f32⟩
  | .hbm, ⟨41, _⟩ => ⟨S1x256, .f32⟩
  | .hbm, ⟨42, _⟩ => ⟨S50000x256, .f32⟩
  | .hbm, ⟨43, _⟩ => ⟨S1x256, .f32⟩
  | .hbm, ⟨44, _⟩ => ⟨S1x256, .f32⟩
  | .hbm, ⟨45, _⟩ => ⟨S_, .f32⟩
  | .hbm, ⟨46, _⟩ => ⟨S1x256, .f32⟩
  | .hbm, ⟨47, _⟩ => ⟨S1x256, .f32⟩
  | .hbm, ⟨48, _⟩ => ⟨S_, .f32⟩
  | .hbm, ⟨49, _⟩ => ⟨S1x256, .f32⟩
  | .hbm, ⟨50, _⟩ => ⟨S1x256, .f32⟩
  | .hbm, ⟨51, _⟩ => ⟨S1x256, .f32⟩
  | .hbm, ⟨52, _⟩ => ⟨S1x256, .f32⟩
  | .hbm, ⟨53, _⟩ => ⟨S_, .f32⟩
  | .hbm, ⟨54, _⟩ => ⟨S1x256, .f32⟩
  | .hbm, ⟨55, _⟩ => ⟨S1x256, .f32⟩
  | .hbm, ⟨56, _⟩ => ⟨S1x256, .f32⟩
  | .hbm, ⟨57, _⟩ => ⟨S1x256, .f32⟩
  | .hbm, ⟨58, _⟩ => ⟨S1x256, .f32⟩
  | .hbm, ⟨59, _⟩ => ⟨S1x40, .f32⟩
  | .hbm, ⟨60, _⟩ => ⟨S50000x40, .f32⟩
  | .local _ .vmem, ⟨0, _⟩ => ⟨S1000x256, .f32⟩
  | .local _ .vmem, ⟨1, _⟩ => ⟨S1000x256, .f32⟩
  | .local _ .vmem, ⟨2, _⟩ => ⟨S1000x128, .f32⟩
  | .local _ .vmem, ⟨3, _⟩ => ⟨S1000x128, .f32⟩
  | .local _ .vmem, ⟨4, _⟩ => ⟨S1x256, .f32⟩
  | .local _ .vmem, ⟨5, _⟩ => ⟨S128x256, .f32⟩
  | .local _ .vmem, ⟨6, _⟩ => ⟨S1x256, .f32⟩
  | .local _ .vmem, ⟨7, _⟩ => ⟨S256x256, .f32⟩
  | .local _ .vmem, ⟨8, _⟩ => ⟨S1x256, .f32⟩
  | .local _ .vmem, ⟨9, _⟩ => ⟨S256x256, .f32⟩
  | .local _ .vmem, ⟨10, _⟩ => ⟨S1x256, .f32⟩
  | .local _ .vmem, ⟨11, _⟩ => ⟨S256x256, .f32⟩
  | .local _ .vmem, ⟨12, _⟩ => ⟨S1x256, .f32⟩
  | .local _ .vmem, ⟨13, _⟩ => ⟨S1000x256, .f32⟩
  | .local _ .vmem, ⟨14, _⟩ => ⟨S1000x256, .f32⟩
  | .local _ .vmem, ⟨15, _⟩ => ⟨S1x256, .f32⟩
  | .local _ .vmem, ⟨16, _⟩ => ⟨S1x256, .f32⟩
  | .local _ .vmem, ⟨17, _⟩ => ⟨S1000x256, .f32⟩
  | .local _ .vmem, ⟨18, _⟩ => ⟨S1000x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S256x40, .f32⟩
  | .local _ .vmem, ⟨24, _⟩ => ⟨S1x40, .f32⟩
  | .local _ .vmem, ⟨25, _⟩ => ⟨S1000x40, .f32⟩
  | .local _ .vmem, ⟨26, _⟩ => ⟨S1000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_c : Ref sig .tc := ⟨.hbm, 22, rfl⟩
abbrev main_v5 : Ref sig .tc := ⟨.hbm, 23, rfl⟩
abbrev main_v6 : Ref sig .tc := ⟨.hbm, 24, rfl⟩
abbrev main_c_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22_0 : Ref sig .tc := ⟨.hbm, 42, rfl⟩
abbrev main_v22_1 : Ref sig .tc := ⟨.hbm, 43, rfl⟩
abbrev main_v22_2 : Ref sig .tc := ⟨.hbm, 44, rfl⟩
abbrev main_cst_1 : Ref sig .tc := ⟨.hbm, 45, rfl⟩
abbrev main_v23 : Ref sig .tc := ⟨.hbm, 46, rfl⟩
abbrev main_v24 : Ref sig .tc := ⟨.hbm, 47, rfl⟩
abbrev main_cst_2 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_3 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg13_0 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg7_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem13_0 : DmaSem sig := 16
abbrev cc1_sem0_0 : DmaSem sig := 17
abbrev cc1_sem0_1 : DmaSem sig := 18
abbrev cc1_sem1_0 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem7_1 : DmaSem sig := 26

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1000x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x40 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x40 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1000x40 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  shapeCasts_S256_S1x256 : S256.ShapeCasts S1x256
  inb_S1x256_S1x256_0_0 : ∀ a, (![0, 0] : Fin 2 → Nat) a + S1x256.size a ≤ S1x256.size a
  h_S1x256 : 0 < S1x256.numel
  inb_S1000x256_S1000x256_0_0 : ∀ a, (![0, 0] : Fin 2 → Nat) a + S1000x256.size a ≤ S1000x256.size a
  h_S1000x256 : 0 < S1000x256.numel
  shapeCasts_S1000x256_S1000x256 : S1000x256.ShapeCasts S1000x256
  shapeCasts_S1x256_S1x256 : S1x256.ShapeCasts S1x256
  broadcasts_S1x256_S1000x256 : S1x256.Broadcasts S1000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1000x128_S1000x128_0_0 : ∀ a, (![0, 0] : Fin 2 → Nat) a + S1000x128.size a ≤ S1000x128.size a
  h_S1000x128 : 0 < S1000x128.numel
  inb_S128x256_S128x256_0_0 : ∀ a, (![0, 0] : Fin 2 → Nat) a + S128x256.size a ≤ S128x256.size a
  h_S128x256 : 0 < S128x256.numel
  reduces_S1000x256_S256 : S1000x256.Reduces [0] S256
  bcast_S_S1x256 : S_.BroadcastsInDim S1x256 (![] : Fin 0 → Fin S1x256.rank)
  shapeCasts_S40_S1x40 : S40.ShapeCasts S1x40
  inb_S256x40_S256x40_0_0 : ∀ a, (![0, 0] : Fin 2 → Nat) a + S256x40.size a ≤ S256x40.size a
  h_S256x40 : 0 < S256x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S1000x40 : S1x40.Broadcasts S1000x40
  inb_S1000x40_S1000x40_0_0 : ∀ a, (![0, 0] : Fin 2 → Nat) a + S1000x40.size a ≤ S1000x40.size a
  h_S1000x40 : 0 < S1000x40.numel
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S1000x256_S256x256_S1000x256_1_0_0_1_n_n_wf : DotDims.WF S1000x256 S256x256 S1000x256 [1] [0] [0] [1] [] []
  dot_S1000x128_S128x256_S1000x256_1_0_0_1_n_n_wf : DotDims.WF S1000x128 S128x256 S1000x256 [1] [0] [0] [1] [] []
  dot_S1000x256_S256x40_S1000x40_1_0_0_1_n_n_wf : DotDims.WF S1000x256 S256x40 S1000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S50000x256.size a
  hwx0_0 : ∀ i : grid0.Coords, EltTy.bits .f32 = 32 ∨ (Rect.block (s := S50000x256) S1000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S50000x128.size a
  hwx0_1 : ∀ i : grid0.Coords, EltTy.bits .f32 = 32 ∨ (Rect.block (s := S50000x128) S1000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .f32 = 32 ∨ (Rect.block (s := S256x256) S256x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S256x256.size a
  hwx0_9 : ∀ i : grid0.Coords, EltTy.bits .f32 = 32 ∨ (Rect.block (s := S256x256) S256x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1000x256.size a ≤ S50000x256.size a
  hwx0_11 : ∀ i : grid0.Coords, EltTy.bits .f32 = 32 ∨ (Rect.block (s := S50000x256) S1000x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x256.size a
  hwx0_12 : ∀ i : grid0.Coords, EltTy.bits .f32 = 32 ∨ (Rect.block (s := S1x256) S1x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x256.size a ≤ S1x256.size a
  hwx0_13 : ∀ i : grid0.Coords, EltTy.bits .f32 = 32 ∨ (Rect.block (s := S1x256) S1x256.size (cc0_transform_13 i) (hinb0_13 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S50000x256.size a
  hwx1_0 : ∀ i : grid1.Coords, EltTy.bits .f32 = 32 ∨ (Rect.block (s := S50000x256) S1000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x40.size a ≤ S256x40.size a
  hwx1_5 : ∀ i : grid1.Coords, EltTy.bits .f32 = 32 ∨ (Rect.block (s := S256x40) S256x40.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x40.size a ≤ S1x40.size a
  hwx1_6 : ∀ i : grid1.Coords, EltTy.bits .f32 = 32 ∨ (Rect.block (s := S1x40) S1x40.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1000x40.size a ≤ S50000x40.size a
  hwx1_7 : ∀ i : grid1.Coords, EltTy.bits .f32 = 32 ∨ (Rect.block (s := S50000x40) S1000x40.size (cc1_transform_7 i) (hinb1_7 i)).WholeWords (EltTy.packing .f32)

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def dot_S1000x128_S128x256_S1000x256_1_0_0_1_n_n : DotDims S1000x128 S128x256 S1000x256 where
  lhsContracting := [1]
  rhsContracting := [0]
  lhsNonContracting := [0]
  rhsNonContracting := [1]
  lhsBatch := []
  rhsBatch := []
  wf := dot_S1000x128_S128x256_S1000x256_1_0_0_1_n_n_wf
def dot_S1000x256_S256x40_S1000x40_1_0_0_1_n_n : DotDims S1000x256 S256x40 S1000x40 where
  lhsContracting := [1]
  rhsContracting := [0]
  lhsNonContracting := [0]
  rhsNonContracting := [1]
  lhsBatch := []
  rhsBatch := []
  wf := dot_S1000x256_S256x40_S1000x40_1_0_0_1_n_n_wf

abbrev win0_0 : Pipeline.Window sig grid0 :=
  Pipeline.Window.ofSpec (Memref.whole main_v16) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v20) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg11) S256x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v21) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v22_0) S1000x256.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v22_1) S1x256.size cc0_transform_12 reads0_12 true true 1 stage0_12 sem0_12
    hrank0 hreads0_12 hinb0_12 nbuf0_12 (Memref.isWhole_whole _) hwx0_12 hstage0_12

abbrev win0_13 : Pipeline.Window sig grid0 :=
  Pipeline.Window.ofSpec (Memref.whole main_v22_2) S1x256.size cc0_transform_13 reads0_13 true true 1 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_v22_0) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v31) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg15) S256x40.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v34) S1x40.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v35) S1000x40.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S50000x256 : Shape := ⟨2, ![50000, 256]⟩
abbrev S256 : Shape := ⟨1, ![256]⟩
abbrev S128x256 : Shape := ⟨2, ![128, 256]⟩
abbrev S256x256 : Shape := ⟨2, ![256, 256]⟩
abbrev S256x40 : Shape := ⟨2, ![256, 40]⟩
abbrev S40 : Shape := ⟨1, ![40]⟩
abbrev S1x800000 : Shape := ⟨2, ![1, 800000]⟩
abbrev S800000x1 : Shape := ⟨2, ![800000, 1]⟩
abbrev S_ : Shape := ⟨0, ![]⟩
abbrev S800000x256 : Shape := ⟨2, ![800000, 256]⟩
abbrev S1x256 : Shape := ⟨2, ![1, 256]⟩
abbrev S50000x40 : Shape := ⟨2, ![50000, 40]⟩
abbrev S1x40 : Shape := ⟨2, ![1, 40]⟩

abbrev nBuf : Space → Nat
  | .hbm => 99
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S50000x256, .f32⟩
  | .hbm, ⟨4, _⟩ => ⟨S256, .f32⟩
  | .hbm, ⟨5, _⟩ => ⟨S128x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256, .f32⟩
  | .hbm, ⟨14, _⟩ => ⟨S256, .f32⟩
  | .hbm, ⟨15, _⟩ => ⟨S256x40, .f32⟩
  | .hbm, ⟨16, _⟩ => ⟨S40, .f32⟩
  | .hbm, ⟨17, _⟩ => ⟨S1x800000, .i32⟩
  | .hbm, ⟨18, _⟩ => ⟨S800000, .i32⟩
  | .hbm, ⟨19, _⟩ => ⟨S1x800000, .i32⟩
  | .hbm, ⟨20, _⟩ => ⟨S800000, .i32⟩
  | .hbm, ⟨21, _⟩ => ⟨S800000x1, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x256, .f32⟩
  | .hbm, ⟨31, _⟩ => ⟨S800000x256, .f32⟩
  | .hbm, ⟨32, _⟩ => ⟨S800000x256, .f32⟩
  | .hbm, ⟨33, _⟩ => ⟨S_, .f32⟩
  | .hbm, ⟨34, _⟩ => ⟨S50000x256, .f32⟩
  | .hbm, ⟨35, _⟩ => ⟨S800000x1, .i32⟩
  | .hbm, ⟨36, _⟩ => ⟨S50000x256, .f32⟩
  | .hbm, ⟨37, _⟩ => ⟨S1x256, .f32⟩
  | .hbm, ⟨38, _⟩ => ⟨S50000x256, .f32⟩
  | .hbm, ⟨39, _⟩ => ⟨S50000x256, .f32⟩
  | .hbm, ⟨40, _⟩ => ⟨S50000x256, .f32⟩
  | .hbm, ⟨41, _⟩ => ⟨S1x256, .f32⟩
  | .hbm, ⟨42, _⟩ => ⟨S50000x256, .f32⟩
  | .hbm, ⟨43, _⟩ => ⟨S50000x256, .f32⟩
  | .hbm, ⟨44, _⟩ => ⟨S50000x256, .f32⟩
  | .hbm, ⟨45, _⟩ => ⟨S50000x256, .f32⟩
  | .hbm, ⟨46, _⟩ => ⟨S1x256, .f32⟩
  | .hbm, ⟨47, _⟩ => ⟨S50000x256, .f32⟩
  | .hbm, ⟨48, _⟩ => ⟨S50000x256, .f32⟩
  | .hbm, ⟨49, _⟩ => ⟨S50000x256, .f32⟩
  | .hbm, ⟨50, _⟩ => ⟨S50000x256, .f32⟩
  | .hbm, ⟨51, _⟩ => ⟨S1x256, .f32⟩
  | .hbm, ⟨52, _⟩ => ⟨S50000x256, .f32⟩
  | .hbm, ⟨53, _⟩ => ⟨S50000x256, .f32⟩
  | .hbm, ⟨54, _⟩ => ⟨S50000x256, .f32⟩
  | .hbm, ⟨55, _⟩ => ⟨S_, .f32⟩
  | .hbm, ⟨56, _⟩ => ⟨S50000x256, .f32⟩
  | .hbm, ⟨57, _⟩ => ⟨S50000x256, .f32⟩
  | .hbm, ⟨58, _⟩ => ⟨S50000x256, .f32⟩
  | .hbm, ⟨59, _⟩ => ⟨S1x256, .f32⟩
  | .hbm, ⟨60, _⟩ => ⟨S50000x256, .f32⟩
  | .hbm, ⟨61, _⟩ => ⟨S50000x256, .f32⟩
  | .hbm, ⟨62, _⟩ => ⟨S_, .f32⟩
  | .hbm, ⟨63, _⟩ => ⟨S50000x256, .f32⟩
  | .hbm, ⟨64, _⟩ => ⟨S50000x256, .f32⟩
  | .hbm, ⟨65, _⟩ => ⟨S_, .f32⟩
  | .hbm, ⟨66, _⟩ => ⟨S256, .f32⟩
  | .hbm, ⟨67, _⟩ => ⟨S_, .f32⟩
  | .hbm, ⟨68, _⟩ => ⟨S256, .f32⟩
  | .hbm, ⟨69, _⟩ => ⟨S256, .f32⟩
  | .hbm, ⟨70, _⟩ => ⟨S1x256, .f32⟩
  | .hbm, ⟨71, _⟩ => ⟨S50000x256, .f32⟩
  | .hbm, ⟨72, _⟩ => ⟨S50000x256, .f32⟩
  | .hbm, ⟨73, _⟩ => ⟨S50000x256, .f32⟩
  | .hbm, ⟨74, _⟩ => ⟨S_, .f32⟩
  | .hbm, ⟨75, _⟩ => ⟨S256, .f32⟩
  | .hbm, ⟨76, _⟩ => ⟨S_, .f32⟩
  | .hbm, ⟨77, _⟩ => ⟨S256, .f32⟩
  | .hbm, ⟨78, _⟩ => ⟨S256, .f32⟩
  | .hbm, ⟨79, _⟩ => ⟨S1x256, .f32⟩
  | .hbm, ⟨80, _⟩ => ⟨S50000x256, .f32⟩
  | .hbm, ⟨81, _⟩ => ⟨S50000x256, .f32⟩
  | .hbm, ⟨82, _⟩ => ⟨S_, .f32⟩
  | .hbm, ⟨83, _⟩ => ⟨S256, .f32⟩
  | .hbm, ⟨84, _⟩ => ⟨S256, .f32⟩
  | .hbm, ⟨85, _⟩ => ⟨S256, .f32⟩
  | .hbm, ⟨86, _⟩ => ⟨S1x256, .f32⟩
  | .hbm, ⟨87, _⟩ => ⟨S50000x256, .f32⟩
  | .hbm, ⟨88, _⟩ => ⟨S50000x256, .f32⟩
  | .hbm, ⟨89, _⟩ => ⟨S1x256, .f32⟩
  | .hbm, ⟨90, _⟩ => ⟨S50000x256, .f32⟩
  | .hbm, ⟨91, _⟩ => ⟨S50000x256, .f32⟩
  | .hbm, ⟨92, _⟩ => ⟨S1x256, .f32⟩
  | .hbm, ⟨93, _⟩ => ⟨S50000x256, .f32⟩
  | .hbm, ⟨94, _⟩ => ⟨S50000x256, .f32⟩
  | .hbm, ⟨95, _⟩ => ⟨S50000x40, .f32⟩
  | .hbm, ⟨96, _⟩ => ⟨S1x40, .f32⟩
  | .hbm, ⟨97, _⟩ => ⟨S50000x40, .f32⟩
  | .hbm, ⟨98, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_c : Ref sig .tc := ⟨.hbm, 22, rfl⟩
abbrev main_v5 : Ref sig .tc := ⟨.hbm, 23, rfl⟩
abbrev main_v6 : Ref sig .tc := ⟨.hbm, 24, rfl⟩
abbrev main_c_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_call0_cst : Ref sig .tc := ⟨.hbm, 55, rfl⟩
abbrev main_call0_v0 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_call1_cst : Ref sig .tc := ⟨.hbm, 62, rfl⟩
abbrev main_call1_v0 : Ref sig .tc := ⟨.hbm, 63, rfl⟩
abbrev main_v40 : Ref sig .tc := ⟨.hbm, 64, rfl⟩
abbrev main_cst_1 : Ref sig .tc := ⟨.hbm, 65, rfl⟩
abbrev main_v41 : Ref sig .tc := ⟨.hbm, 66, rfl⟩
abbrev main_cst_2 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_3 : Ref sig .tc := ⟨.hbm, 74, rfl⟩
abbrev main_v48 : Ref sig .tc := ⟨.hbm, 75, rfl⟩
abbrev main_cst_4 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_5 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  h_S_ : 0 < S_.numel
  bcast_S_S256 : S_.BroadcastsInDim S256 (![] : Fin 0 → Fin S256.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  dot_S50000x128_S128x256_S50000x256_1_0_0_1_n_n_wf : DotDims.WF S50000x128 S128x256 S50000x256 [1] [0] [0] [1] [] []
  dot_S50000x256_S256x40_S50000x40_1_0_0_1_n_n_wf : DotDims.WF S50000x256 S256x40 S50000x40 [1] [0] [0] [1] [] []

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x40_S50000x40_1_0_0_1_n_n : DotDims S50000x256 S256x40 S50000x40 where
  lhsContracting := [1]
  rhsContracting := [0]
  lhsNonContracting := [0]
  rhsNonContracting := [1]
  lhsBatch := []
  rhsBatch := []
  wf := dot_S50000x256_S256x40_S50000x40_1_0_0_1_n_n_wf

class Facts : Prop extends Facts₀ where

variable [Facts]
-- ==== Proof.KernelRun.lean ====
/-
  The idealized kernel's run with its result named.  Every weakly fair execution of the two-region program ends with
  the result buffer at the contents the last boundary valuation assigns to it and with the seventeen argument arrays
  as launched.  The boundary valuations fold the program's segments from the launch memory: the host operations before
  the first region, that region's write-backs, the host operations between the regions, and the second region's
  write-backs.
-/
import proofs.«117861_j9285719294274_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
theorem run_result : θ_run defs (onTc (τ := τ) (main (F := F))) ⟨m, fun _ => 0, ρ⟩ (fun r => ∀ c : Dev nD,
      r.2.mem ((c.tc : Thread nD τ).loc main_v35) = W4 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v35 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c),
       (h c _ (mem_uc main_arg15 (by decide))).trans (W4_main_arg15 m ρ c),
       (h c _ (mem_uc main_arg16 (by decide))).trans (W4_main_arg16 m ρ c)⟩)

end Cert.KernelIdeal.RunValue

end
-- ==== Proof.Spec.lean ====
/-
  The mathematics of the claim, index by index, on the extended reals.

  A node's hidden row is a fixed function of two rows: the row `A r` of the aggregated edge messages and the row
  `X r` of the node features.  With `a = A r + bE`:
    o1 = a + (a · Wc1 + bc1),   hx = X r · Wn + bn,   o2 = (o1 + hx) + (hx · Wc2 + bc2),
    o3 = max o2 0,              h  = max (o3 · Wf1 + bf1) 0,
  every product a sum over the contracted axis.  The result is the batch normalisation of `h` over the 50000 rows
  followed by one more linear map.  The two programs differ only in how they spell the variance of a column:
  the mean of the squares minus the square of the mean (`varK`), against the mean of the squared deviations from
  the mean (`varR`).  On columns of real numbers these agree.
-/
import Idealize.ShloMosaic.PureOps.Ideal.Laws

noncomputable section

namespace Cert.Spec

open Idealize.ShloMosaic

/-- The weights and biases, as functions of coordinates. -/
structure Params where
  bE : Fin 256 → EReal
  Wn : Fin 128 → Fin 256 → EReal
  bn : Fin 256 → EReal
  Wc1 : Fin 256 → Fin 256 → EReal
  bc1 : Fin 256 → EReal
  Wc2 : Fin 256 → Fin 256 → EReal
  bc2 : Fin 256 → EReal
  Wf1 : Fin 256 → Fin 256 → EReal
  bf1 : Fin 256 → EReal
  γ : Fin 256 → EReal
  β : Fin 256 → EReal
  Wf2 : Fin 256 → Fin 40 → EReal
  bf2 : Fin 40 → EReal

/-- The number of rows, 50000, as both programs spell it. -/
def nW : EReal := Ideal.ofBits .f32 0x47435000#32
/-- The variance's regulariser, as both programs spell it. -/
def epsW : EReal := Ideal.ofBits .f32 0x3727C5AC#32

variable (P : Params)

def aRow (A : Fin 256 → EReal) (c : Fin 256) : EReal := A c + P.bE c
def o1 (a : Fin 256 → EReal) (c : Fin 256) : EReal := a c + ((∑ k : Fin 256, a k * P.Wc1 k c) + P.bc1 c)
def hx (x : Fin 128 → EReal) (c : Fin 256) : EReal := (∑ k : Fin 128, x k * P.Wn k c) + P.bn c
def o2 (a : Fin 256 → EReal) (x : Fin 128 → EReal) (c : Fin 256) : EReal :=
  (o1 P a c + hx P x c) + ((∑ k : Fin 256, hx P x k * P.Wc2 k c) + P.bc2 c)
def o3 (a : Fin 256 → EReal) (x : Fin 128 → EReal) (c : Fin 256) : EReal := max (o2 P a x c) 0
/-- The hidden row, from the row `a` of aggregated messages (bias added) and the feature row `x`. -/
def hRow (a : Fin 256 → EReal) (x : Fin 128 → EReal) (c : Fin 256) : EReal :=
  max ((∑ k : Fin 256, o3 P a x k * P.Wf1 k c) + P.bf1 c) 0

/-- The hidden array: row `r` from rows `r` of the aggregated messages and of the features. -/
def H (A : Fin 50000 → Fin 256 → EReal) (X : Fin 50000 → Fin 128 → EReal) (r : Fin 50000) (c : Fin 256) : EReal :=
  hRow P (aRow P (A r)) (X r) c

/-- Normalise with a given mean and inverse deviation per column, scale, shift, and apply the last linear map. -/
def outOf (h : Fin 50000 → Fin 256 → EReal) (mean inv : Fin 256 → EReal) (r : Fin 50000) (j : Fin 40) : EReal :=
  (∑ c : Fin 256, (((h r c - mean c) * inv c) * P.γ c + P.β c) * P.Wf2 c j) + P.bf2 j

/-- Column mean, from the column sum. -/
def meanK (h : Fin 50000 → Fin 256 → EReal) (c : Fin 256) : EReal := Ideal.div (∑ r : Fin 50000, h r c) nW
/-- Column variance as the mean of the squares minus the square of the mean. -/
def varK (h : Fin 50000 → Fin 256 → EReal) (c : Fin 256) : EReal :=
  Ideal.div (∑ r : Fin 50000, h r c * h r c) nW - meanK h c * meanK h c
def invK (h : Fin 50000 → Fin 256 → EReal) (c : Fin 256) : EReal := Ideal.rsqrt (varK h c + epsW)
def outK (h : Fin 50000 → Fin 256 → EReal) : Fin 50000 → Fin 40 → EReal := outOf P h (meanK h) (invK h)

/-- Column mean as a reduction started at zero. -/
def muR (h : Fin 50000 → Fin 256 → EReal) (c : Fin 256) : EReal := Ideal.div (0 + ∑ r : Fin 50000, h r c) nW
/-- Column variance as the mean of the squared deviations from the mean. -/
def varR (h : Fin 50000 → Fin 256 → EReal) (c : Fin 256) : EReal :=
  Ideal.div (0 + ∑ r : Fin 50000, (h r c - muR h c) * (h r c - muR h c)) nW
def invR (h : Fin 50000 → Fin 256 → EReal) (c : Fin 256) : EReal := Ideal.rsqrt (varR h c + epsW)
def outR (h : Fin 50000 → Fin 256 → EReal) : Fin 50000 → Fin 40 → EReal := outOf P h (muR h) (invR h)

/-- An extended real that is a real number. -/
def IsReal (x : EReal) : Prop := ∃ y : ℝ, x = (y : EReal)

end Cert.Spec

end
-- ==== Proof.SpecArrays.lean ====
/-
  The specification read on arrays: a one-axis array as a function of its coordinate, a two-axis array as a function
  of row and column, the parameter record of the thirteen weight and bias arrays, and the result array of the whole
  computation in its two spellings of the variance.
-/
import proofs.«117861_j9285719294274_1_alg».proof.Proof.Spec
import Idealize.ShloMosaic.Lib.ValueIdx

noncomputable section

namespace Cert.Spec

open Idealize.ShloMosaic Idealize.ShloMosaic.ValueIdx

/-- A one-axis array of extended reals. -/
abbrev Arr1 (n : Nat) : Type := (⟨1, ![n]⟩ : Shape).Idx → EReal
/-- A two-axis array of extended reals. -/
abbrev Arr2 (a b : Nat) : Type := (⟨2, ![a, b]⟩ : Shape).Idx → EReal

/-- A one-axis array as a function of its coordinate. -/
def vec {n : Nat} (v : Arr1 n) (c : Fin n) : EReal := v (ix1 c)
/-- A two-axis array as a function of row and column. -/
def mat {a b : Nat} (v : Arr2 a b) (r : Fin a) (c : Fin b) : EReal := v (ix2 r c)

/-- The parameter record of the weight and bias arrays, in the order the programs take them
    (b_edge, W_node, b_node, W_c1, b_c1, W_c2, b_c2, W_f1, b_f1, gamma, beta, W_f2, b_f2). -/
def paramsOf (x4 : Arr1 256) (x5 : Arr2 128 256) (x6 : Arr1 256) (x7 : Arr2 256 256) (x8 : Arr1 256)
    (x9 : Arr2 256 256) (x10 : Arr1 256) (x11 : Arr2 256 256) (x12 : Arr1 256) (x13 : Arr1 256) (x14 : Arr1 256)
    (x15 : Arr2 256 40) (x16 : Arr1 40) : Params where
  bE := vec x4
  Wn := mat x5
  bn := vec x6
  Wc1 := mat x7
  bc1 := vec x8
  Wc2 := mat x9
  bc2 := vec x10
  Wf1 := mat x11
  bf1 := vec x12
  γ := vec x13
  β := vec x14
  Wf2 := mat x15
  bf2 := vec x16

/-- The hidden array from the aggregated messages `A`, the features `x0` and the parameters `P`. -/
def hidden (P : Params) (A : Arr2 50000 256) (x0 : Arr2 50000 128) : Fin 50000 → Fin 256 → EReal :=
  H P (mat A) (mat x0)

/-- The result array, variance as mean of squares minus squared mean. -/
def resultK (P : Params) (A : Arr2 50000 256) (x0 : Arr2 50000 128) : Arr2 50000 40 :=
  fun i => outK P (hidden P A x0) (i 0) (i 1)

/-- The result array, variance as mean of squared deviations. -/
def resultR (P : Params) (A : Arr2 50000 256) (x0 : Arr2 50000 128) : Arr2 50000 40 :=
  fun i => outR P (hidden P A x0) (i 0) (i 1)

end Cert.Spec

end
-- ==== Proof.HostReads.lean ====
/-
  The host operations around the two kernel regions, read at an index.

  Before the first region the host forms the aggregated edge messages (the same gather, product and accumulating scatter
  as the reference, operation for operation) and gives each of five [256] bias vectors a leading unit axis. Between the
  regions it turns the column sums s and the column sums of squares q that the first region leaves into the column mean
  s / n, the variance q / n - (s / n) · (s / n) and the inverse deviation 1 / sqrt (variance + eps), and gives three more
  vectors a leading unit axis. No host operation and no output of the first region touches an argument array.
-/
import proofs.«117861_j9285719294274_1_alg».proof.Proof.Gen.KernelIdeal.Frame
import proofs.«117861_j9285719294274_1_alg».proof.Proof.Gen.ReferenceIdeal.Read
import proofs.«117861_j9285719294274_1_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.HostReads

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg) (c : Dev nD)

/-! ## Region 0's entry contents -/

/-- At launch a buffer of core `c` holds the launch memory's contents. -/
theorem W0_eq (b : Ref sig .tc) : W0 m ρ c (Proc.devRef .tc b) = m ((c : Thread nD τ).loc b) := rfl

/-- Bias row %17 is the [256] argument 4 with a leading unit axis. -/
theorem v17_eq : (V1 m ρ c main_v17 : S1x256.Idx → EReal)
    = shapeCast S1x256 (m ((c : Thread nD τ).loc main_arg4) : S256.Idx → EReal) shapeCasts_S256_S1x256 := by
  show StableHlo.after hostOps0 (W0 m ρ c) (Proc.devRef .tc main_v17) = _
  after_results
  rfl
theorem v17_row (k : Fin 256) :
    (V1 m ρ c main_v17 : S1x256.Idx → EReal) (ix2 (0 : Fin 1) k)
      = (m ((c : Thread nD τ).loc main_arg4) : S256.Idx → EReal) (ix1 k) := by
  rw [v17_eq]
  exact shapeCast_a_1a_apply _ _ _ _

/-- Bias row %18 is the [256] argument 6 with a leading unit axis. -/
theorem v18_eq : (V1 m ρ c main_v18 : S1x256.Idx → EReal)
    = shapeCast S1x256 (m ((c : Thread nD τ).loc main_arg6) : S256.Idx → EReal) shapeCasts_S256_S1x256 := by
  show StableHlo.after hostOps0 (W0 m ρ c) (Proc.devRef .tc main_v18) = _
  after_results
  rfl
theorem v18_row (k : Fin 256) :
    (V1 m ρ c main_v18 : S1x256.Idx → EReal) (ix2 (0 : Fin 1) k)
      = (m ((c : Thread nD τ).loc main_arg6) : S256.Idx → EReal) (ix1 k) := by
  rw [v18_eq]
  exact shapeCast_a_1a_apply _ _ _ _

/-- Bias row %19 is the [256] argument 8 with a leading unit axis. -/
theorem v19_eq : (V1 m ρ c main_v19 : S1x256.Idx → EReal)
    = shapeCast S1x256 (m ((c : Thread nD τ).loc main_arg8) : S256.Idx → EReal) shapeCasts_S256_S1x256 := by
  show StableHlo.after hostOps0 (W0 m ρ c) (Proc.devRef .tc main_v19) = _
  after_results
  rfl
theorem v19_row (k : Fin 256) :
    (V1 m ρ c main_v19 : S1x256.Idx → EReal) (ix2 (0 : Fin 1) k)
      = (m ((c : Thread nD τ).loc main_arg8) : S256.Idx → EReal) (ix1 k) := by
  rw [v19_eq]
  exact shapeCast_a_1a_apply _ _ _ _

/-- Bias row %20 is the [256] argument 10 with a leading unit axis. -/
theorem v20_eq : (V1 m ρ c main_v20 : S1x256.Idx → EReal)
    = shapeCast S1x256 (m ((c : Thread nD τ).loc main_arg10) : S256.Idx → EReal) shapeCasts_S256_S1x256 := by
  show StableHlo.after hostOps0 (W0 m ρ c) (Proc.devRef .tc main_v20) = _
  after_results
  rfl
theorem v20_row (k : Fin 256) :
    (V1 m ρ c main_v20 : S1x256.Idx → EReal) (ix2 (0 : Fin 1) k)
      = (m ((c : Thread nD τ).loc main_arg10) : S256.Idx → EReal) (ix1 k) := by
  rw [v20_eq]
  exact shapeCast_a_1a_apply _ _ _ _

/-- Bias row %21 is the [256] argument 12 with a leading unit axis. -/
theorem v21_eq : (V1 m ρ c main_v21 : S1x256.Idx → EReal)
    = shapeCast S1x256 (m ((c : Thread nD τ).loc main_arg12) : S256.Idx → EReal) shapeCasts_S256_S1x256 := by
  show StableHlo.after hostOps0 (W0 m ρ c) (Proc.devRef .tc main_v21) = _
  after_results
  rfl
theorem v21_row (k : Fin 256) :
    (V1 m ρ c main_v21 : S1x256.Idx → EReal) (ix2 (0 : Fin 1) k)
      = (m ((c : Thread nD τ).loc main_arg12) : S256.Idx → EReal) (ix1 k) := by
  rw [v21_eq]
  exact shapeCast_a_1a_apply _ _ _ _

/-- No host operation before region 0 writes argument 0. -/
theorem V1_arg0 : V1 m ρ c main_arg0 = m ((c : Thread nD τ).loc main_arg0) := by
  show StableHlo.after hostOps0 (W0 m ρ c) (Proc.devRef .tc main_arg0) = _
  after_results

/-- No host operation before region 0 writes argument 5. -/
theorem V1_arg5 : V1 m ρ c main_arg5 = m ((c : Thread nD τ).loc main_arg5) := by
  show StableHlo.after hostOps0 (W0 m ρ c) (Proc.devRef .tc main_arg5) = _
  after_results

/-- No host operation before region 0 writes argument 7. -/
theorem V1_arg7 : V1 m ρ c main_arg7 = m ((c : Thread nD τ).loc main_arg7) := by
  show StableHlo.after hostOps0 (W0 m ρ c) (Proc.devRef .tc main_arg7) = _
  after_results

/-- No host operation before region 0 writes argument 9. -/
theorem V1_arg9 : V1 m ρ c main_arg9 = m ((c : Thread nD τ).loc main_arg9) := by
  show StableHlo.after hostOps0 (W0 m ρ c) (Proc.devRef .tc main_arg9) = _
  after_results

/-- No host operation before region 0 writes argument 11. -/
theorem V1_arg11 : V1 m ρ c main_arg11 = m ((c : Thread nD τ).loc main_arg11) := by
  show StableHlo.after hostOps0 (W0 m ρ c) (Proc.devRef .tc main_arg11) = _
  after_results

/-- The aggregated edge messages the first region reads are the reference's: the same operations of the same arguments. -/
theorem v16_eq : (V1 m ρ c main_v16 : S50000x256.Idx → EReal)
    = Cert.ReferenceIdeal.Read.val_main_v16 (F := Ideal) (m ((c : Thread nD τ).loc main_arg1))
        (m ((c : Thread nD τ).loc main_arg2)) (m ((c : Thread nD τ).loc main_arg3)) := by
  show StableHlo.after hostOps0 (W0 m ρ c) (Proc.devRef .tc main_v16) = _
  after_results_simp
  rfl

/-! ## Region 1's entry contents -/

/-- An argument array that is none of the first region's arrays holds, at that region's exit, the launch contents. -/
theorem W2_arg13 : W2 m ρ c (Proc.devRef .tc main_arg13) = m ((c : Thread nD τ).loc main_arg13) :=
  (W2_of_ne m ρ c main_arg13 (by decide)).trans (by
    show StableHlo.after hostOps0 (W0 m ρ c) (Proc.devRef .tc main_arg13) = _
    after_results)
theorem W2_arg14 : W2 m ρ c (Proc.devRef .tc main_arg14) = m ((c : Thread nD τ).loc main_arg14) :=
  (W2_of_ne m ρ c main_arg14 (by decide)).trans (by
    show StableHlo.after hostOps0 (W0 m ρ c) (Proc.devRef .tc main_arg14) = _
    after_results)
theorem W2_arg15 : W2 m ρ c (Proc.devRef .tc main_arg15) = m ((c : Thread nD τ).loc main_arg15) :=
  (W2_of_ne m ρ c main_arg15 (by decide)).trans (by
    show StableHlo.after hostOps0 (W0 m ρ c) (Proc.devRef .tc main_arg15) = _
    after_results)
theorem W2_arg16 : W2 m ρ c (Proc.devRef .tc main_arg16) = m ((c : Thread nD τ).loc main_arg16) :=
  (W2_of_ne m ρ c main_arg16 (by decide)).trans (by
    show StableHlo.after hostOps0 (W0 m ρ c) (Proc.devRef .tc main_arg16) = _
    after_results)

/-- The hidden array the first region leaves is what the second region reads: no host operation in between writes it. -/
theorem V3_v22_0 : V3 m ρ c main_v22_0 = W2 m ρ c (Proc.devRef .tc main_v22_0) := by
  show StableHlo.after hostOps1 (W2 m ρ c) (Proc.devRef .tc main_v22_0) = _
  after_results

/-- The column mean: the column sum over the number of rows. -/
theorem v24_row (k : Fin 256) :
    (V3 m ρ c main_v24 : S1x256.Idx → EReal) (ix2 (0 : Fin 1) k)
      = Ideal.div ((W2 m ρ c (Proc.devRef .tc main_v22_1) : S1x256.Idx → EReal) (ix2 (0 : Fin 1) k)) Cert.Spec.nW := by
  show StableHlo.after hostOps1 (W2 m ρ c) (Proc.devRef .tc main_v24) (ix2 (0 : Fin 1) k) = _
  after_results
  rfl

/-- The inverse deviation: one over the square root of (mean of squares minus squared mean, plus the regulariser). -/
theorem v31_row (k : Fin 256) :
    (V3 m ρ c main_v31 : S1x256.Idx → EReal) (ix2 (0 : Fin 1) k)
      = Ideal.rsqrt ((Ideal.div ((W2 m ρ c (Proc.devRef .tc main_v22_2) : S1x256.Idx → EReal) (ix2 (0 : Fin 1) k)) Cert.Spec.nW
          - Ideal.div ((W2 m ρ c (Proc.devRef .tc main_v22_1) : S1x256.Idx → EReal) (ix2 (0 : Fin 1) k)) Cert.Spec.nW
            * Ideal.div ((W2 m ρ c (Proc.devRef .tc main_v22_1) : S1x256.Idx → EReal) (ix2 (0 : Fin 1) k)) Cert.Spec.nW)
          + Cert.Spec.epsW) := by
  show StableHlo.after hostOps1 (W2 m ρ c) (Proc.devRef .tc main_v31) (ix2 (0 : Fin 1) k) = _
  after_results
  rfl

/-- Row %32 is the [256] argument 13 with a leading unit axis. -/
theorem v32_row (k : Fin 256) :
    (V3 m ρ c main_v32 : S1x256.Idx → EReal) (ix2 (0 : Fin 1) k)
      = (m ((c : Thread nD τ).loc main_arg13) : S256.Idx → EReal) (ix1 k) := by
  have e : (V3 m ρ c main_v32 : S1x256.Idx → EReal)
      = shapeCast S1x256 (W2 m ρ c (Proc.devRef .tc main_arg13) : S256.Idx → EReal) shapeCasts_S256_S1x256 := by
    show StableHlo.after hostOps1 (W2 m ρ c) (Proc.devRef .tc main_v32) = _
    after_results
    rfl
  rw [e, W2_arg13]
  exact shapeCast_a_1a_apply _ _ _ _

/-- Row %33 is the [256] argument 14 with a leading unit axis. -/
theorem v33_row (k : Fin 256) :
    (V3 m ρ c main_v33 : S1x256.Idx → EReal) (ix2 (0 : Fin 1) k)
      = (m ((c : Thread nD τ).loc main_arg14) : S256.Idx → EReal) (ix1 k) := by
  have e : (V3 m ρ c main_v33 : S1x256.Idx → EReal)
      = shapeCast S1x256 (W2 m ρ c (Proc.devRef .tc main_arg14) : S256.Idx → EReal) shapeCasts_S256_S1x256 := by
    show StableHlo.after hostOps1 (W2 m ρ c) (Proc.devRef .tc main_v33) = _
    after_results
    rfl
  rw [e, W2_arg14]
  exact shapeCast_a_1a_apply _ _ _ _

/-- Row %34 is the [40] argument 16 with a leading unit axis. -/
theorem v34_row (k : Fin 40) :
    (V3 m ρ c main_v34 : S1x40.Idx → EReal) (ix2 (0 : Fin 1) k)
      = (m ((c : Thread nD τ).loc main_arg16) : S40.Idx → EReal) (ix1 k) := by
  have e : (V3 m ρ c main_v34 : S1x40.Idx → EReal)
      = shapeCast S1x40 (W2 m ρ c (Proc.devRef .tc main_arg16) : S40.Idx → EReal) shapeCasts_S40_S1x40 := by
    show StableHlo.after hostOps1 (W2 m ρ c) (Proc.devRef .tc main_v34) = _
    after_results
    rfl
  rw [e, W2_arg16]
  exact shapeCast_a_1a_apply _ _ _ _

/-- The last weight matrix reaches the second region as launched. -/
theorem V3_arg15 : V3 m ρ c main_arg15 = m ((c : Thread nD τ).loc main_arg15) := by
  show StableHlo.after hostOps1 (W2 m ρ c) (Proc.devRef .tc main_arg15) = _
  after_results
  exact W2_arg15 m ρ c

end Cert.KernelIdeal.HostReads

end
-- ==== Proof.LibDotIx2.lean ====
/-
  A plain matrix product read at a row and a column, for operands of any float formats. For dimension numbers that
  contract the left operand's second axis with the right operand's first and batch nothing — stated by the four
  coordinate facts of the operand indices — the contraction at (r, c) is the finite sum over k of
  left (r, k) * right (k, c). Two readings rest on it: a matrix-unit product into the zero accumulator, and the
  host's dot_general; at the extended reals both are that sum, whatever formats the operands were rounded to on the way.
-/
import Idealize.ShloMosaic.PureOps.Ideal.Laws
import Idealize.ShloMosaic.Lib.ValueIdx

noncomputable section

open scoped BigOperators

namespace Idealize.ShloMosaic.ValueIdx

open Idealize.ShloMosaic

/-- The facts that say a dot's dimension numbers are those of a plain M x K by K x N product. -/
structure PlainDot {M K N : ℕ} (d : DotDims (⟨2, ![M, K]⟩ : Shape) (⟨2, ![K, N]⟩ : Shape) (⟨2, ![M, N]⟩ : Shape)) : Prop where
  rank : d.contr.rank = 1
  size : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

/-- The contraction of a plain product at (r, c), re-indexed by the inner position k. -/
theorem contraction_ix2 {M K N : ℕ} {d : DotDims (⟨2, ![M, K]⟩ : Shape) (⟨2, ![K, N]⟩ : Shape) (⟨2, ![M, N]⟩ : Shape)}
    (hd : PlainDot d) (lhs : (⟨2, ![M, K]⟩ : Shape).Idx → EReal) (rhs : (⟨2, ![K, N]⟩ : Shape).Idx → EReal) (r : Fin M) (c : Fin N) :
    (∑ q : d.contr.Idx, lhs (d.lhsIdx (ix2 r c) q) * rhs (d.rhsIdx (ix2 r c) q)) = ∑ k : Fin K, lhs (ix2 r k) * rhs (ix2 k c) := by
  rw [← Equiv.sum_comp (contrEquiv1 d K hd.rank hd.size).symm]
  refine Finset.sum_congr rfl fun k _ => ?_
  have hk := contrEquiv1_symm_val d K hd.rank hd.size k
  have el : d.lhsIdx (ix2 r c) ((contrEquiv1 d K hd.rank hd.size).symm k) = ix2 r k := funext fun a => Fin.ext (by
    match a with
    | ⟨0, _⟩ => exact hd.l0 _ _
    | ⟨1, _⟩ => exact (hd.l1 _ _).trans hk)
  have er : d.rhsIdx (ix2 r c) ((contrEquiv1 d K hd.rank hd.size).symm k) = ix2 k c := funext fun a => Fin.ext (by
    match a with
    | ⟨0, _⟩ => exact (hd.r0 _ _).trans hk
    | ⟨1, _⟩ => exact hd.r1 _ _)
  rw [el, er]

/-- A matrix-unit product of an M x K by a K x N array into zeros, at (r, c): the sum over the K inner positions. -/
theorem matmul_zero_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision)
    (lhs : FVec Ideal (⟨2, ![M, K]⟩ : Shape) φ₁) (rhs : FVec Ideal (⟨2, ![K, N]⟩ : Shape) φ₂) (r : Fin M) (c : Fin N) :
    FloatOps.matmul d prec lhs rhs (constant (⟨2, ![M, N]⟩ : Shape) .f32 0x00000000#32) (ix2 r c)
      = ∑ k : Fin K, (lhs (ix2 r k) : EReal) * (rhs (ix2 k c) : EReal) := by
  rw [Ideal.matmul_constant_zero_apply]
  exact contraction_ix2 hd lhs rhs r c

/-- The host's dot_general of an M x K by a K x N array, at (r, c): the same sum. -/
theorem dotGeneral_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision) (sched : HostSchedule)
    (lhs : FVec Ideal (⟨2, ![M, K]⟩ : Shape) φ₁) (rhs : FVec Ideal (⟨2, ![K, N]⟩ : Shape) φ₂) (r : Fin M) (c : Fin N) :
    FloatOps.dotGeneral d prec sched lhs rhs (ix2 r c)
      = ∑ k : Fin K, (lhs (ix2 r k) : EReal) * (rhs (ix2 k c) : EReal) := by
  rw [Ideal.dotGeneral_apply]
  exact contraction_ix2 hd lhs rhs r c

end Idealize.ShloMosaic.ValueIdx

end
-- ==== Proof.KernelPayload.lean ====
/-
  The kernel bodies' arithmetic read at an index, on the extended reals.

  A block of the first body holds 1000 rows.  Each payload is a tree of pointwise operations, row broadcasts of a
  1 x 256 bias, matrix products into a zero accumulator and, for the two running column sums, a sum over the block's
  rows.  Read at row p and column c a matrix product is the sum over the inner position k of left (p, k) * right (k, c),
  a bias broadcast is the bias at column c, a change of float format is the identity, and a column sum is the sum over
  the block's rows.  So the hidden block at (p, c) is the specification's hidden row of the block's row p, and the two
  accumulators add to what they held the block's column sums of the hidden block and of its square.
  The second body normalises a block of hidden rows and applies the last linear map.
-/
import proofs.«117861_j9285719294274_1_alg».proof.Proof.Gen.KernelIdeal.Skeleton
import proofs.«117861_j9285719294274_1_alg».proof.Proof.LibDotIx2
import proofs.«117861_j9285719294274_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Payload

open Cert.KernelIdeal Cert.KernelIdeal.Gen
open Idealize.ShloMosaic Idealize.ShloMosaic.ValueIdx

/-! ## Layout pieces -/

/-- A 1 x 256 row broadcast down 1000 rows, at (p, c): the row's entry at column c. -/
theorem rowBcast256_apply (x : FVec Ideal S1x256 .f32) (p : Fin 1000) (c : Fin 256) :
    broadcastTo S1000x256 x broadcasts_S1x256_S1000x256 (ix2 p c) = x (ix2 (0 : Fin 1) c) :=
  broadcastTo_apply x broadcasts_S1x256_S1000x256 (ix2 p c) (ix2 (0 : Fin 1) c) (fun a => by
    match a with
    | ⟨0, _⟩ => rfl
    | ⟨1, _⟩ => rfl)

/-- A 1 x 40 row broadcast down 1000 rows, at (p, j). -/
theorem rowBcast40_apply (x : FVec Ideal S1x40 .f32) (p : Fin 1000) (j : Fin 40) :
    broadcastTo S1000x40 x broadcasts_S1x40_S1000x40 (ix2 p j) = x (ix2 (0 : Fin 1) j) :=
  broadcastTo_apply x broadcasts_S1x40_S1000x40 (ix2 p j) (ix2 (0 : Fin 1) j) (fun a => by
    match a with
    | ⟨0, _⟩ => rfl
    | ⟨1, _⟩ => rfl)

theorem plain_1000_128_256 : PlainDot dot_S1000x128_S128x256_S1000x256_1_0_0_1_n_n :=
  ⟨rfl, rfl, fun _ _ => rfl, fun _ _ => rfl, fun _ _ => rfl, fun _ _ => rfl⟩
theorem plain_1000_256_256 : PlainDot dot_S1000x256_S256x256_S1000x256_1_0_0_1_n_n :=
  ⟨rfl, rfl, fun _ _ => rfl, fun _ _ => rfl, fun _ _ => rfl, fun _ _ => rfl⟩
theorem plain_1000_256_40 : PlainDot dot_S1000x256_S256x40_S1000x40_1_0_0_1_n_n :=
  ⟨rfl, rfl, fun _ _ => rfl, fun _ _ => rfl, fun _ _ => rfl, fun _ _ => rfl⟩

/-- The zero word is zero. -/
theorem zeroWord : Ideal.ofBits .f32 0x00000000#32 = 0 := Ideal.ofBits_zero_f32

/-! ## The first body -/

/-- The node features' linear map at (p, c). -/
theorem pay6_apply (v18 : Vec Ideal S1000x128 .f32) (v20 : Vec Ideal S128x256 .f32) (v23 : Vec Ideal S1x256 .f32)
    (p : Fin 1000) (c : Fin 256) :
    k0_pay6 v18 v20 v23 (ix2 p c) = (∑ k : Fin 128, v18 (ix2 p k) * v20 (ix2 k c)) + v23 (ix2 (0 : Fin 1) c) := by
  unfold k0_pay6
  simp only [addf_apply, shapeCast_self, rowBcast256_apply, matmul, matmul_zero_ix2_any plain_1000_128_256, truncf_apply]

/-- The first combination plus the node term at (p, c). -/
theorem pay7_apply (v3 : Vec Ideal S1000x256 .f32) (v5 : Vec Ideal S1x256 .f32) (v10 : Vec Ideal S256x256 .f32)
    (v13 : Vec Ideal S1x256 .f32) (v18 : Vec Ideal S1000x128 .f32) (v20 : Vec Ideal S128x256 .f32) (v23 : Vec Ideal S1x256 .f32)
    (p : Fin 1000) (c : Fin 256) :
    k0_pay7 v3 v5 v10 v13 v18 v20 v23 (ix2 p c)
      = ((v3 (ix2 p c) + v5 (ix2 (0 : Fin 1) c))
          + ((∑ k : Fin 256, (v3 (ix2 p k) + v5 (ix2 (0 : Fin 1) k)) * v10 (ix2 k c)) + v13 (ix2 (0 : Fin 1) c)))
        + k0_pay6 v18 v20 v23 (ix2 p c) := by
  unfold k0_pay7
  simp only [addf_apply, shapeCast_self, rowBcast256_apply, matmul, matmul_zero_ix2_any plain_1000_256_256, truncf_apply]

/-- The node term through the second combination's matrix at (p, c). -/
theorem pay8_apply (v18 : Vec Ideal S1000x128 .f32) (v20 : Vec Ideal S128x256 .f32) (v23 : Vec Ideal S1x256 .f32)
    (v28 : Vec Ideal S256x256 .f32) (p : Fin 1000) (c : Fin 256) :
    k0_pay8 v18 v20 v23 v28 (ix2 p c) = ∑ k : Fin 256, k0_pay6 v18 v20 v23 (ix2 p k) * v28 (ix2 k c) := by
  unfold k0_pay8
  simp only [matmul, matmul_zero_ix2_any plain_1000_256_256, truncf_apply]

/-- The second combination's bias at (p, c). -/
theorem pay9_apply (v32 : Vec Ideal S1x256 .f32) (p : Fin 1000) (c : Fin 256) :
    k0_pay9 v32 (ix2 p c) = v32 (ix2 (0 : Fin 1) c) := by
  unfold k0_pay9
  simp only [shapeCast_self, rowBcast256_apply]

/-- The hidden block at (p, c), from the three carried values. -/
theorem pay1_apply (v30 v31 v34 : FVec Ideal S1000x256 .f32) (v40 : Vec Ideal S256x256 .f32) (v43 : Vec Ideal S1x256 .f32)
    (p : Fin 1000) (c : Fin 256) :
    k0_pay1 v30 v31 v34 v40 v43 (ix2 p c)
      = max ((∑ k : Fin 256, max (v30 (ix2 p k) + (v31 (ix2 p k) + v34 (ix2 p k))) 0 * v40 (ix2 k c)) + v43 (ix2 (0 : Fin 1) c)) 0 := by
  unfold k0_pay1
  simp only [addf_apply, maximumf_apply, broadcast_apply, shapeCast_self, rowBcast256_apply, matmul,
    matmul_zero_ix2_any plain_1000_256_256, truncf_apply, Ideal.ofBits_def, zeroWord]

/-- THE HIDDEN BLOCK IS THE SPECIFICATION'S HIDDEN ROW, row by row, for any parameter record the block's weight
    and bias arrays spell. -/
theorem hidden_block_apply (P : Cert.Spec.Params)
    (v3 : Vec Ideal S1000x256 .f32) (v5 : Vec Ideal S1x256 .f32) (v10 : Vec Ideal S256x256 .f32) (v13 : Vec Ideal S1x256 .f32)
    (v18 : Vec Ideal S1000x128 .f32) (v20 : Vec Ideal S128x256 .f32) (v23 : Vec Ideal S1x256 .f32) (v28 : Vec Ideal S256x256 .f32)
    (v32 : Vec Ideal S1x256 .f32) (v40 : Vec Ideal S256x256 .f32) (v43 : Vec Ideal S1x256 .f32)
    (h5 : ∀ c, v5 (ix2 (0 : Fin 1) c) = P.bE c) (h20 : ∀ k c, v20 (ix2 k c) = P.Wn k c) (h23 : ∀ c, v23 (ix2 (0 : Fin 1) c) = P.bn c)
    (h10 : ∀ k c, v10 (ix2 k c) = P.Wc1 k c) (h13 : ∀ c, v13 (ix2 (0 : Fin 1) c) = P.bc1 c)
    (h28 : ∀ k c, v28 (ix2 k c) = P.Wc2 k c) (h32 : ∀ c, v32 (ix2 (0 : Fin 1) c) = P.bc2 c)
    (h40 : ∀ k c, v40 (ix2 k c) = P.Wf1 k c) (h43 : ∀ c, v43 (ix2 (0 : Fin 1) c) = P.bf1 c)
    (p : Fin 1000) (c : Fin 256) :
    k0_pay1 (k0_pay7 v3 v5 v10 v13 v18 v20 v23) (k0_pay8 v18 v20 v23 v28) (k0_pay9 v32) v40 v43 (ix2 p c)
      = Cert.Spec.hRow P (Cert.Spec.aRow P fun k => v3 (ix2 p k)) (fun k => v18 (ix2 p k)) c := by
  rw [pay1_apply]
  simp only [pay7_apply, pay8_apply, pay9_apply, pay6_apply, h5, h20, h23, h10, h13, h28, h32, h40, h43,
    Cert.Spec.hRow, Cert.Spec.o3, Cert.Spec.o2, Cert.Spec.o1, Cert.Spec.hx, Cert.Spec.aRow]

/-- A column sum over the block's 1000 rows, as a one-row array, at column c. -/
theorem colsum_apply (src : FVec Ideal S1000x256 .f32) (hφ : FKind.Formats FTy.f32)
    (hacc : (0x00000000#32 : BitVec 32) = 0x00000000#32) (c : Fin 256) :
    shapeCast S1x256 (multiReduction .add [0] S256 src 0x00000000#32 reduces_S1000x256_S256 hφ hacc) shapeCasts_S256_S1x256
      (ix2 (0 : Fin 1) c) = ∑ p : Fin 1000, src (ix2 p c) := by
  refine (shapeCast_apply _ shapeCasts_S256_S1x256 (ix2 (0 : Fin 1) c) (ix1 c) (by
    rewrite [Shape.rowMajor_val_two, Shape.rowMajor_val_one]; show c.val = 0 * 256 + c.val; omega)).trans ?_
  refine (Ideal.multiReduction_add_single src 0x00000000#32 reduces_S1000x256_S256 hφ hacc (ix1 c)).trans ?_
  exact Finset.sum_congr rfl fun p _ => congrArg src (funext fun a => by
    match a with
    | ⟨0, _⟩ => rfl
    | ⟨1, _⟩ => rfl)

/-- The running column sum of the hidden block: what the accumulator held plus the block's column sum. -/
theorem pay2_apply (v30 v31 v34 : FVec Ideal S1000x256 .f32) (v40 : Vec Ideal S256x256 .f32) (v43 : Vec Ideal S1x256 .f32)
    (v50 : Vec Ideal S1x256 .f32) (c : Fin 256) :
    k0_pay2 v30 v31 v34 v40 v43 v50 (ix2 (0 : Fin 1) c)
      = v50 (ix2 (0 : Fin 1) c) + ∑ p : Fin 1000, k0_pay1 v30 v31 v34 v40 v43 (ix2 p c) := by
  unfold k0_pay2
  dsimp only
  rw [addf_apply, shapeCast_self]
  exact congrArg (v50 (ix2 (0 : Fin 1) c) + ·) (colsum_apply _ _ _ c)

/-- The running column sum of the hidden block's square. -/
theorem pay3_apply (v30 v31 v34 : FVec Ideal S1000x256 .f32) (v40 : Vec Ideal S256x256 .f32) (v43 : Vec Ideal S1x256 .f32)
    (v56 : Vec Ideal S1x256 .f32) (c : Fin 256) :
    k0_pay3 v30 v31 v34 v40 v43 v56 (ix2 (0 : Fin 1) c)
      = v56 (ix2 (0 : Fin 1) c) + ∑ p : Fin 1000, k0_pay1 v30 v31 v34 v40 v43 (ix2 p c) * k0_pay1 v30 v31 v34 v40 v43 (ix2 p c) := by
  unfold k0_pay3
  dsimp only
  rw [addf_apply, shapeCast_self]
  exact congrArg (v56 (ix2 (0 : Fin 1) c) + ·) (colsum_apply _ _ _ c)

/-- The accumulators' reset value is zero. -/
theorem pay4_apply (i : S1x256.Idx) : k0_pay4 (F := Ideal) i = 0 := by
  unfold k0_pay4
  simp only [broadcast_apply, Ideal.ofBits_def, zeroWord]
theorem pay5_apply (i : S1x256.Idx) : k0_pay5 (F := Ideal) i = 0 := by
  unfold k0_pay5
  simp only [broadcast_apply, Ideal.ofBits_def, zeroWord]

/-! ## The second body -/

/-- The normalised block through the last linear map, at (p, j). -/
theorem k1_pay1_apply (v0 : Vec Ideal S1000x256 .f32) (v2 v6 v10 v14 : Vec Ideal S1x256 .f32) (v19 : Vec Ideal S256x40 .f32)
    (v22 : Vec Ideal S1x40 .f32) (p : Fin 1000) (j : Fin 40) :
    k1_pay1 v0 v2 v6 v10 v14 v19 v22 (ix2 p j)
      = (∑ k : Fin 256, (((v0 (ix2 p k) - v2 (ix2 (0 : Fin 1) k)) * v6 (ix2 (0 : Fin 1) k)) * v10 (ix2 (0 : Fin 1) k)
            + v14 (ix2 (0 : Fin 1) k)) * v19 (ix2 k j)) + v22 (ix2 (0 : Fin 1) j) := by
  unfold k1_pay1
  simp only [addf_apply, subf_apply, mulf_apply, shapeCast_self, rowBcast256_apply, rowBcast40_apply, matmul,
    matmul_zero_ix2_any plain_1000_256_40, truncf_apply]

end Cert.KernelIdeal.Payload

end
-- ==== Proof.Region1Value.lean ====
/-
  Region 1, from blocks to the whole array.

  The second body runs at 50 points.  At point t it loads block t of the hidden array (rows 1000 t … 1000 t + 999)
  and the one block of each of the mean, the inverse deviation, the scale, the shift, the last weight matrix and the
  last bias, and stores into block t of the output the normalised rows through the last linear map.  Entry (p, q)
  of that block depends on row p of the hidden block only, so it is the whole-array function G1 at row 1000 t + p and
  column q.  The 50 output blocks tile the 50000 rows, so the output array ends holding G1 of the seven arrays.
-/
import proofs.«117861_j9285719294274_1_alg».proof.Proof.Gen.KernelIdeal.Frame
import proofs.«117861_j9285719294274_1_alg».proof.Proof.KernelPayload
import Idealize.ShloMosaic.Lib.Pipeline.Value
import Idealize.ShloMosaic.Lib.ValueIdx

set_option maxRecDepth 16384

noncomputable section

namespace Cert.KernelIdeal.Region1

open Cert.KernelIdeal Cert.KernelIdeal.Gen Cert.KernelIdeal.Payload
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The whole output as one function of the seven arrays: row i 0 of the hidden array, normalised column by column
    with the given mean and inverse deviation, scaled, shifted, and sent through the last linear map. -/
def G1 (h : S50000x256.Idx → EReal) (mean inv gam bet : S1x256.Idx → EReal) (W : S256x40.Idx → EReal)
    (b : S1x40.Idx → EReal) : S50000x40.Idx → EReal :=
  fun i => (∑ k : Fin 256, (((h (ix2 (i 0) k) - mean (ix2 (0 : Fin 1) k)) * inv (ix2 (0 : Fin 1) k)) * gam (ix2 (0 : Fin 1) k)
      + bet (ix2 (0 : Fin 1) k)) * W (ix2 k (i 1))) + b (ix2 (0 : Fin 1) (i 1))

/-- The index maps over the 50 points: the hidden array's and the output's blocks are block t of rows, the other
    six windows sit at their one block. -/
theorem idx_facts : ∀ t : Fin cfg1.N, win1_0.index t (0 : Fin 2) = t.val ∧ win1_0.index t (1 : Fin 2) = 0
    ∧ win1_7.index t (0 : Fin 2) = t.val ∧ win1_7.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- What the body leaves in the output's buffer, entry by entry, from the seven blocks it loads. -/
theorem out_apply (x0 : Vec Ideal S1000x256 .f32) (x1 x2 x3 x4 : Vec Ideal S1x256 .f32) (x5 : Vec Ideal S256x40 .f32)
    (x6 : Vec Ideal S1x40 .f32) (p : Fin 1000) (q : Fin 40) :
    out1_7 x0 x1 x2 x3 x4 x5 x6 (ix2 p q)
      = (∑ k : Fin 256, (((x0 (ix2 p k) - x1 (ix2 (0 : Fin 1) k)) * x2 (ix2 (0 : Fin 1) k)) * x3 (ix2 (0 : Fin 1) k)
            + x4 (ix2 (0 : Fin 1) k)) * x5 (ix2 k q)) + x6 (ix2 (0 : Fin 1) q) := by
  unfold out1_7
  rw [View.canon_unit_zero hz]
  simp only [View.ld_unit_zero (S := S1000x256) hz, View.ld_unit_zero (S := S1x256) hz,
    View.ld_unit_zero (S := S256x40) hz, View.ld_unit_zero (S := S1x40) hz]
  rw [k1_pay1_apply]

/-- The body's result at (p, q) is the whole-array function at index i, as soon as the seven blocks hold, on row p
    and column q, what the arrays hold on row i 0 and column i 1. -/
theorem out_eq_G1 (h : S50000x256.Idx → EReal) (mean inv gam bet : S1x256.Idx → EReal) (W : S256x40.Idx → EReal)
    (b : S1x40.Idx → EReal)
    (x0 : Vec Ideal S1000x256 .f32) (x1 x2 x3 x4 : Vec Ideal S1x256 .f32) (x5 : Vec Ideal S256x40 .f32)
    (x6 : Vec Ideal S1x40 .f32) (i : S50000x40.Idx) (p : Fin 1000) (q : Fin 40)
    (h0 : ∀ k : Fin 256, x0 (ix2 p k) = h (ix2 (i 0) k))
    (h1 : ∀ k : Fin 256, x1 (ix2 (0 : Fin 1) k) = mean (ix2 (0 : Fin 1) k))
    (h2 : ∀ k : Fin 256, x2 (ix2 (0 : Fin 1) k) = inv (ix2 (0 : Fin 1) k))
    (h3 : ∀ k : Fin 256, x3 (ix2 (0 : Fin 1) k) = gam (ix2 (0 : Fin 1) k))
    (h4 : ∀ k : Fin 256, x4 (ix2 (0 : Fin 1) k) = bet (ix2 (0 : Fin 1) k))
    (h5 : ∀ k : Fin 256, x5 (ix2 k q) = W (ix2 k (i 1)))
    (h6 : x6 (ix2 (0 : Fin 1) q) = b (ix2 (0 : Fin 1) (i 1))) :
    out1_7 x0 x1 x2 x3 x4 x5 x6 (ix2 p q) = G1 h mean inv gam bet W b i := by
  rw [out_apply]
  unfold G1
  simp only [h0, h1, h2, h3, h4, h5, h6]

/-- Row p of the hidden array's block t is row 1000 t + p of the array. -/
theorem win0_apply (c : Dev nD) (t : Fin cfg1.N) (p : Fin 1000) (k : Fin 256) (r : Fin 50000)
    (hr : r.val = t.val * 1000 + p.val) :
    iblk1 V c 0 t (ix2 p k) = (V c (Pipeline.arrRef spec1 0) : S50000x256.Idx → EReal) (ix2 r k) := by
  obtain ⟨e00, e01, e70, e71, e10, e11, e20, e21, e30, e31, e40, e41, e50, e51, e60, e61⟩ := idx_facts t
  show V c (Pipeline.arrRef spec1 0) (((cfg1.win 0).blk t).view.emb (ix2 p k)) = _
  congr 1
  funext a; apply Fin.ext
  match a with
  | ⟨0, _⟩ => show win1_0.index t (0 : Fin 2) * 1000 + 1 * p.val = r.val; omega
  | ⟨1, _⟩ => show win1_0.index t (1 : Fin 2) * 256 + 1 * k.val = k.val; omega

/-- Window 1's one block is the whole one-row array (the mean). -/
theorem win1_apply (c : Dev nD) (t : Fin cfg1.N) (k : Fin 256) :
    iblk1 V c 1 t (ix2 (0 : Fin 1) k) = (V c (Pipeline.arrRef spec1 1) : S1x256.Idx → EReal) (ix2 (0 : Fin 1) k) := by
  obtain ⟨e00, e01, e70, e71, e10, e11, e20, e21, e30, e31, e40, e41, e50, e51, e60, e61⟩ := idx_facts t
  show V c (Pipeline.arrRef spec1 1) (((cfg1.win 1).blk t).view.emb (ix2 (0 : Fin 1) k)) = _
  congr 1
  funext a; apply Fin.ext
  match a with
  | ⟨0, _⟩ => show win1_1.index t (0 : Fin 2) * 1 + 1 * 0 = 0; omega
  | ⟨1, _⟩ => show win1_1.index t (1 : Fin 2) * 256 + 1 * k.val = k.val; omega

/-- Window 2's one block is the whole one-row array (the inverse deviation). -/
theorem win2_apply (c : Dev nD) (t : Fin cfg1.N) (k : Fin 256) :
    iblk1 V c 2 t (ix2 (0 : Fin 1) k) = (V c (Pipeline.arrRef spec1 2) : S1x256.Idx → EReal) (ix2 (0 : Fin 1) k) := by
  obtain ⟨e00, e01, e70, e71, e10, e11, e20, e21, e30, e31, e40, e41, e50, e51, e60, e61⟩ := idx_facts t
  show V c (Pipeline.arrRef spec1 2) (((cfg1.win 2).blk t).view.emb (ix2 (0 : Fin 1) k)) = _
  congr 1
  funext a; apply Fin.ext
  match a with
  | ⟨0, _⟩ => show win1_2.index t (0 : Fin 2) * 1 + 1 * 0 = 0; omega
  | ⟨1, _⟩ => show win1_2.index t (1 : Fin 2) * 256 + 1 * k.val = k.val; omega

/-- Window 3's one block is the whole one-row array (the scale). -/
theorem win3_apply (c : Dev nD) (t : Fin cfg1.N) (k : Fin 256) :
    iblk1 V c 3 t (ix2 (0 : Fin 1) k) = (V c (Pipeline.arrRef spec1 3) : S1x256.Idx → EReal) (ix2 (0 : Fin 1) k) := by
  obtain ⟨e00, e01, e70, e71, e10, e11, e20, e21, e30, e31, e40, e41, e50, e51, e60, e61⟩ := idx_facts t
  show V c (Pipeline.arrRef spec1 3) (((cfg1.win 3).blk t).view.emb (ix2 (0 : Fin 1) k)) = _
  congr 1
  funext a; apply Fin.ext
  match a with
  | ⟨0, _⟩ => show win1_3.index t (0 : Fin 2) * 1 + 1 * 0 = 0; omega
  | ⟨1, _⟩ => show win1_3.index t (1 : Fin 2) * 256 + 1 * k.val = k.val; omega

/-- Window 4's one block is the whole one-row array (the shift). -/
theorem win4_apply (c : Dev nD) (t : Fin cfg1.N) (k : Fin 256) :
    iblk1 V c 4 t (ix2 (0 : Fin 1) k) = (V c (Pipeline.arrRef spec1 4) : S1x256.Idx → EReal) (ix2 (0 : Fin 1) k) := by
  obtain ⟨e00, e01, e70, e71, e10, e11, e20, e21, e30, e31, e40, e41, e50, e51, e60, e61⟩ := idx_facts t
  show V c (Pipeline.arrRef spec1 4) (((cfg1.win 4).blk t).view.emb (ix2 (0 : Fin 1) k)) = _
  congr 1
  funext a; apply Fin.ext
  match a with
  | ⟨0, _⟩ => show win1_4.index t (0 : Fin 2) * 1 + 1 * 0 = 0; omega
  | ⟨1, _⟩ => show win1_4.index t (1 : Fin 2) * 256 + 1 * k.val = k.val; omega

/-- Window 5's one block is the whole weight matrix. -/
theorem win5_apply (c : Dev nD) (t : Fin cfg1.N) (k : Fin 256) (q : Fin 40) :
    iblk1 V c 5 t (ix2 k q) = (V c (Pipeline.arrRef spec1 5) : S256x40.Idx → EReal) (ix2 k q) := by
  obtain ⟨e00, e01, e70, e71, e10, e11, e20, e21, e30, e31, e40, e41, e50, e51, e60, e61⟩ := idx_facts t
  show V c (Pipeline.arrRef spec1 5) (((cfg1.win 5).blk t).view.emb (ix2 k q)) = _
  congr 1
  funext a; apply Fin.ext
  match a with
  | ⟨0, _⟩ => show win1_5.index t (0 : Fin 2) * 256 + 1 * k.val = k.val; omega
  | ⟨1, _⟩ => show win1_5.index t (1 : Fin 2) * 40 + 1 * q.val = q.val; omega

/-- Window 6's one block is the whole bias row. -/
theorem win6_apply (c : Dev nD) (t : Fin cfg1.N) (q : Fin 40) :
    iblk1 V c 6 t (ix2 (0 : Fin 1) q) = (V c (Pipeline.arrRef spec1 6) : S1x40.Idx → EReal) (ix2 (0 : Fin 1) q) := by
  obtain ⟨e00, e01, e70, e71, e10, e11, e20, e21, e30, e31, e40, e41, e50, e51, e60, e61⟩ := idx_facts t
  show V c (Pipeline.arrRef spec1 6) (((cfg1.win 6).blk t).view.emb (ix2 (0 : Fin 1) q)) = _
  congr 1
  funext a; apply Fin.ext
  match a with
  | ⟨0, _⟩ => show win1_6.index t (0 : Fin 2) * 1 + 1 * 0 = 0; omega
  | ⟨1, _⟩ => show win1_6.index t (1 : Fin 2) * 40 + 1 * q.val = q.val; omega

/-- Entry (p, q) of the output's block t sits at row 1000 t + p and column q of the output array. -/
theorem emb7_apply (t : Fin cfg1.N) (p : Fin 1000) (q : Fin 40) :
    ∃ r : Fin 50000, r.val = t.val * 1000 + p.val
      ∧ (((cfg1.win 7).blk t).view.emb (ix2 p q) : S50000x40.Idx) = ix2 r q := by
  obtain ⟨e00, e01, e70, e71, e10, e11, e20, e21, e30, e31, e40, e41, e50, e51, e60, e61⟩ := idx_facts t
  refine ⟨((cfg1.win 7).blk t).view.emb (ix2 p q) (0 : Fin 2), ?_, ?_⟩
  · show win1_7.index t (0 : Fin 2) * 1000 + 1 * p.val = _; omega
  · funext a; apply Fin.ext
    match a with
    | ⟨0, _⟩ => rfl
    | ⟨1, _⟩ => show win1_7.index t (1 : Fin 2) * 40 + 1 * q.val = q.val; omega

/-- What point t writes back is block t of the whole-array function of the arrays as the region finds them. -/
theorem flushed_eq (c : Dev nD) (t : Fin cfg1.N) :
    (dat1 (F := Ideal) V c).flushed 7 t = ((cfg1.win 7).blk t).view.read (Elt Ideal)
      (G1 (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))
        (V c (Pipeline.arrRef spec1 6))) := by
  show (cfg1.win 7).cut (grid1.coords t) ((dat1 V c).after 7 t) = _
  rw [after1_7]
  funext j
  obtain ⟨p, q, rfl⟩ : ∃ (p : Fin 1000) (q : Fin 40), j = ix2 p q := ⟨j 0, j 1, eq_ix2 j⟩
  obtain ⟨r, hr, he⟩ := emb7_apply t p q
  show out1_7 (iblk1 V c 0 t) (iblk1 V c 1 t) (iblk1 V c 2 t) (iblk1 V c 3 t) (iblk1 V c 4 t) (iblk1 V c 5 t)
      (iblk1 V c 6 t) (ix2 p q)
    = G1 (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))
        (V c (Pipeline.arrRef spec1 6)) (((cfg1.win 7).blk t).view.emb (ix2 p q))
  rw [he]
  exact out_eq_G1 (V c (Pipeline.arrRef spec1 0)) (V c (Pipeline.arrRef spec1 1)) (V c (Pipeline.arrRef spec1 2))
    (V c (Pipeline.arrRef spec1 3)) (V c (Pipeline.arrRef spec1 4)) (V c (Pipeline.arrRef spec1 5))
    (V c (Pipeline.arrRef spec1 6)) (iblk1 V c 0 t) (iblk1 V c 1 t) (iblk1 V c 2 t) (iblk1 V c 3 t) (iblk1 V c 4 t)
    (iblk1 V c 5 t) (iblk1 V c 6 t) (ix2 r q) p q
    (fun k => win0_apply V c t p k r hr) (fun k => win1_apply V c t k) (fun k => win2_apply V c t k)
    (fun k => win3_apply V c t k) (fun k => win4_apply V c t k) (fun k => win5_apply V c t k q)
    (win6_apply V c t q)

/-- Every block row of the output is some point's. -/
theorem idx_onto : ∀ q0 : Fin 50, ∃ t : Fin cfg1.N, win1_7.index t = ![q0.val, 0] :=
  (by decide +kernel : ∀ q0 : Fin 50, ∃ t : Fin grid1.N, win1_7.index t = ![q0.val, 0])

/-- An index of the output array is in point t's block iff each coordinate is in the block's range on its axis. -/
theorem mem_blk (t : Fin cfg1.N) (i : S50000x40.Idx) :
    i ∈ ((cfg1.win 7).blk t).view.set ↔ ∀ a : Fin 2, win1_7.index t a * S1000x40.size a ≤ (i a).val
      ∧ (i a).val < win1_7.index t a * S1000x40.size a + S1000x40.size a := by
  show i ∈ ((View.whole main_v35).slice (win1_7.rect t)).set ↔ _
  rw [View.set_slice_whole, Rect.mem_set_unit]
  exact Iff.rfl

/-- The 50 blocks of 1000 rows cover the 50000 rows: row r is in the block of point r / 1000, which writes back. -/
theorem cover (i : S50000x40.Idx) :
    ∃ t : Fin cfg1.N, (cfg1.win 7).flush t = true ∧ i ∈ ((cfg1.win 7).blk t).view.set := by
  have hi0 : (i 0).val < 50000 := (i 0).isLt
  have hi1 : (i 1).val < 40 := (i 1).isLt
  obtain ⟨t, ht⟩ := idx_onto ⟨(i 0).val / 1000, by omega⟩
  have q0 : win1_7.index t (0 : Fin 2) = (i 0).val / 1000 := congrFun ht 0
  have q1 : win1_7.index t (1 : Fin 2) = 0 := congrFun ht 1
  refine ⟨t, flush1_7 t, ?_⟩
  rw [mem_blk]
  intro a
  match a with
  | ⟨0, _⟩ => show win1_7.index t (0 : Fin 2) * 1000 ≤ (i 0).val ∧ (i 0).val < win1_7.index t (0 : Fin 2) * 1000 + 1000; omega
  | ⟨1, _⟩ => show win1_7.index t (1 : Fin 2) * 40 ≤ (i 1).val ∧ (i 1).val < win1_7.index t (1 : Fin 2) * 40 + 40; omega

/-- THE OUTPUT ARRAY after the region: the whole-array function of the seven arrays as the region finds them. -/
theorem final1 (c : Dev nD) :
    (dat1 (F := Ideal) V c).arrAt 7 cfg1.N
      = G1 (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))
        (V c (Pipeline.arrRef spec1 6)) :=
  (dat1 V c).arrAt_eq_of_cover 7 _ (fun t _ => flushed_eq V c t) cover

end Cert.KernelIdeal.Region1

end
-- ==== Proof.Region0Pieces.lean ====
/-
  What one run of the first body leaves in its three output buffers, as payloads of the blocks it loaded.

  The body stores the hidden block once, and adds to each of the two running column sums what it computes from that
  block.  At the first grid point it first resets the two sums to zero and reads the reset back; at every later point
  it reads what the previous point left.  So in both cases the three buffers end at the skeleton's payloads: the hidden
  block of the loaded blocks, and for each sum the previous contents (zero at the first point) plus the block's
  column sum.
-/
import proofs.«117861_j9285719294274_1_alg».proof.Proof.Gen.KernelIdeal.Frame
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz : (![0, 0] : Fin 2 → Nat) = fun _ => 0 := funext fun a => by fin_cases a <;> rfl

theorem piece_A_11 (c : Dev nD) (i : grid0.Coords) (arg1 : Memref sig .tc .vmem S1000x256 .f32) (harg1 : arg1.IsWhole) (arg2 : Memref sig .tc .vmem S1000x128 .f32) (harg2 : arg2.IsWhole) (arg3 : Memref sig .tc .vmem S1x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S1000x256 .f32) (harg12 : arg12.IsWhole) (arg13 : Memref sig .tc .vmem S1x256 .f32) (harg13 : arg13.IsWhole) (arg14 : Memref sig .tc .vmem S1x256 .f32) (harg14 : arg14.IsWhole) (hc0 : cond0_0 i) (x0 : Vec F S1000x256 .f32) (x1 : Vec F S1000x128 .f32) (x2 : Vec F S1x256 .f32) (x3 : Vec F S128x256 .f32) (x4 : Vec F S1x256 .f32) (x5 : Vec F S256x256 .f32) (x6 : Vec F S1x256 .f32) (x7 : Vec F S256x256 .f32) (x8 : Vec F S1x256 .f32) (x9 : Vec F S256x256 .f32) (x10 : Vec F S1x256 .f32) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 = k0_pay1 (k0_pay7 x0 x2 x5 x6 x1 x3 x4) (k0_pay8 x1 x3 x4 x7) (k0_pay9 x8) x9 x10 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10)]
  unfold kernelRun0_A
  dsimp only
  sl_unfold_words
  rw [View.canon_unit_zero hz]
  simp only [View.readAt_eq_ld, harg1.read_unread, harg2.read_unread, harg3.read_unread, harg4.read_unread, harg5.read_unread,
    harg6.read_unread, harg7.read_unread, harg8.read_unread, harg9.read_unread, harg10.read_unread, harg11.read_unread,
    harg13.read_unread, harg14.read_unread,
    View.ld_unit_zero (S := S1000x256) hz, View.ld_unit_zero (S := S1000x128) hz, View.ld_unit_zero (S := S1x256) hz,
    View.ld_unit_zero (S := S128x256) hz, View.ld_unit_zero (S := S256x256) hz]

theorem piece_A_12 (c : Dev nD) (i : grid0.Coords) (arg1 : Memref sig .tc .vmem S1000x256 .f32) (harg1 : arg1.IsWhole) (arg2 : Memref sig .tc .vmem S1000x128 .f32) (harg2 : arg2.IsWhole) (arg3 : Memref sig .tc .vmem S1x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S1000x256 .f32) (harg12 : arg12.IsWhole) (arg13 : Memref sig .tc .vmem S1x256 .f32) (harg13 : arg13.IsWhole) (arg14 : Memref sig .tc .vmem S1x256 .f32) (harg14 : arg14.IsWhole) (hc0 : cond0_0 i) (x0 : Vec F S1000x256 .f32) (x1 : Vec F S1000x128 .f32) (x2 : Vec F S1x256 .f32) (x3 : Vec F S128x256 .f32) (x4 : Vec F S1x256 .f32) (x5 : Vec F S256x256 .f32) (x6 : Vec F S1x256 .f32) (x7 : Vec F S256x256 .f32) (x8 : Vec F S1x256 .f32) (x9 : Vec F S256x256 .f32) (x10 : Vec F S1x256 .f32) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 = k0_pay2 (k0_pay7 x0 x2 x5 x6 x1 x3 x4) (k0_pay8 x1 x3 x4 x7) (k0_pay9 x8) x9 x10 k0_pay4 := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10)]
  unfold kernelRun0_A
  dsimp only
  sl_unfold_words
  rw [View.canon_cons_unit_zero (S := S1x256) hz, View.readCov_unit_zero (S := S1x256) _ hz]
  simp only [View.readAt_eq_ld, harg1.read_unread, harg2.read_unread, harg3.read_unread, harg4.read_unread, harg5.read_unread,
    harg6.read_unread, harg7.read_unread, harg8.read_unread, harg9.read_unread, harg10.read_unread, harg11.read_unread,
    harg13.read_unread, harg14.read_unread,
    View.ld_unit_zero (S := S1000x256) hz, View.ld_unit_zero (S := S1000x128) hz, View.ld_unit_zero (S := S1x256) hz,
    View.ld_unit_zero (S := S128x256) hz, View.ld_unit_zero (S := S256x256) hz]

theorem piece_A_13 (c : Dev nD) (i : grid0.Coords) (arg1 : Memref sig .tc .vmem S1000x256 .f32) (harg1 : arg1.IsWhole) (arg2 : Memref sig .tc .vmem S1000x128 .f32) (harg2 : arg2.IsWhole) (arg3 : Memref sig .tc .vmem S1x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S1000x256 .f32) (harg12 : arg12.IsWhole) (arg13 : Memref sig .tc .vmem S1x256 .f32) (harg13 : arg13.IsWhole) (arg14 : Memref sig .tc .vmem S1x256 .f32) (harg14 : arg14.IsWhole) (hc0 : cond0_0 i) (x0 : Vec F S1000x256 .f32) (x1 : Vec F S1000x128 .f32) (x2 : Vec F S1x256 .f32) (x3 : Vec F S128x256 .f32) (x4 : Vec F S1x256 .f32) (x5 : Vec F S256x256 .f32) (x6 : Vec F S1x256 .f32) (x7 : Vec F S256x256 .f32) (x8 : Vec F S1x256 .f32) (x9 : Vec F S256x256 .f32) (x10 : Vec F S1x256 .f32) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 = k0_pay3 (k0_pay7 x0 x2 x5 x6 x1 x3 x4) (k0_pay8 x1 x3 x4 x7) (k0_pay9 x8) x9 x10 k0_pay5 := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10)]
  unfold kernelRun0_A
  dsimp only
  sl_unfold_words
  rw [View.canon_cons_unit_zero (S := S1x256) hz, View.readCov_unit_zero (S := S1x256) _ hz]
  simp only [View.readAt_eq_ld, harg1.read_unread, harg2.read_unread, harg3.read_unread, harg4.read_unread, harg5.read_unread,
    harg6.read_unread, harg7.read_unread, harg8.read_unread, harg9.read_unread, harg10.read_unread, harg11.read_unread,
    harg13.read_unread, harg14.read_unread,
    View.ld_unit_zero (S := S1000x256) hz, View.ld_unit_zero (S := S1000x128) hz, View.ld_unit_zero (S := S1x256) hz,
    View.ld_unit_zero (S := S128x256) hz, View.ld_unit_zero (S := S256x256) hz]

theorem piece_B_11 (c : Dev nD) (i : grid0.Coords) (arg1 : Memref sig .tc .vmem S1000x256 .f32) (harg1 : arg1.IsWhole) (arg2 : Memref sig .tc .vmem S1000x128 .f32) (harg2 : arg2.IsWhole) (arg3 : Memref sig .tc .vmem S1x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S1000x256 .f32) (harg12 : arg12.IsWhole) (arg13 : Memref sig .tc .vmem S1x256 .f32) (harg13 : arg13.IsWhole) (arg14 : Memref sig .tc .vmem S1x256 .f32) (harg14 : arg14.IsWhole) (hc0 : ¬cond0_0 i) (x0 : Vec F S1000x256 .f32) (x1 : Vec F S1000x128 .f32) (x2 : Vec F S1x256 .f32) (x3 : Vec F S128x256 .f32) (x4 : Vec F S1x256 .f32) (x5 : Vec F S256x256 .f32) (x6 : Vec F S1x256 .f32) (x7 : Vec F S256x256 .f32) (x8 : Vec F S1x256 .f32) (x9 : Vec F S256x256 .f32) (x10 : Vec F S1x256 .f32) (xo12 xo13 : Vec F S1x256 .f32) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xo12 xo13 = k0_pay1 (k0_pay7 x0 x2 x5 x6 x1 x3 x4) (k0_pay8 x1 x3 x4 x7) (k0_pay9 x8) x9 x10 := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xo12 xo13)]
  unfold kernelRun0_B
  dsimp only
  sl_unfold_words
  rw [View.canon_unit_zero hz]
  simp only [View.readAt_eq_ld, harg1.read_unread, harg2.read_unread, harg3.read_unread, harg4.read_unread, harg5.read_unread,
    harg6.read_unread, harg7.read_unread, harg8.read_unread, harg9.read_unread, harg10.read_unread, harg11.read_unread,
    harg13.read_unread, harg14.read_unread,
    View.ld_unit_zero (S := S1000x256) hz, View.ld_unit_zero (S := S1000x128) hz, View.ld_unit_zero (S := S1x256) hz,
    View.ld_unit_zero (S := S128x256) hz, View.ld_unit_zero (S := S256x256) hz]

theorem piece_B_12 (c : Dev nD) (i : grid0.Coords) (arg1 : Memref sig .tc .vmem S1000x256 .f32) (harg1 : arg1.IsWhole) (arg2 : Memref sig .tc .vmem S1000x128 .f32) (harg2 : arg2.IsWhole) (arg3 : Memref sig .tc .vmem S1x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S1000x256 .f32) (harg12 : arg12.IsWhole) (arg13 : Memref sig .tc .vmem S1x256 .f32) (harg13 : arg13.IsWhole) (arg14 : Memref sig .tc .vmem S1x256 .f32) (harg14 : arg14.IsWhole) (hc0 : ¬cond0_0 i) (x0 : Vec F S1000x256 .f32) (x1 : Vec F S1000x128 .f32) (x2 : Vec F S1x256 .f32) (x3 : Vec F S128x256 .f32) (x4 : Vec F S1x256 .f32) (x5 : Vec F S256x256 .f32) (x6 : Vec F S1x256 .f32) (x7 : Vec F S256x256 .f32) (x8 : Vec F S1x256 .f32) (x9 : Vec F S256x256 .f32) (x10 : Vec F S1x256 .f32) (xo12 xo13 : Vec F S1x256 .f32) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xo12 xo13 = k0_pay2 (k0_pay7 x0 x2 x5 x6 x1 x3 x4) (k0_pay8 x1 x3 x4 x7) (k0_pay9 x8) x9 x10 xo12 := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xo12 xo13)]
  unfold kernelRun0_B
  dsimp only
  sl_unfold_words
  rw [View.canon_unit_zero hz]
  simp only [View.readAt_eq_ld, harg1.read_unread, harg2.read_unread, harg3.read_unread, harg4.read_unread, harg5.read_unread,
    harg6.read_unread, harg7.read_unread, harg8.read_unread, harg9.read_unread, harg10.read_unread, harg11.read_unread,
    harg13.read_unread, harg14.read_unread,
    View.ld_unit_zero (S := S1000x256) hz, View.ld_unit_zero (S := S1000x128) hz, View.ld_unit_zero (S := S1x256) hz,
    View.ld_unit_zero (S := S128x256) hz, View.ld_unit_zero (S := S256x256) hz]

theorem piece_B_13 (c : Dev nD) (i : grid0.Coords) (arg1 : Memref sig .tc .vmem S1000x256 .f32) (harg1 : arg1.IsWhole) (arg2 : Memref sig .tc .vmem S1000x128 .f32) (harg2 : arg2.IsWhole) (arg3 : Memref sig .tc .vmem S1x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S1000x256 .f32) (harg12 : arg12.IsWhole) (arg13 : Memref sig .tc .vmem S1x256 .f32) (harg13 : arg13.IsWhole) (arg14 : Memref sig .tc .vmem S1x256 .f32) (harg14 : arg14.IsWhole) (hc0 : ¬cond0_0 i) (x0 : Vec F S1000x256 .f32) (x1 : Vec F S1000x128 .f32) (x2 : Vec F S1x256 .f32) (x3 : Vec F S128x256 .f32) (x4 : Vec F S1x256 .f32) (x5 : Vec F S256x256 .f32) (x6 : Vec F S1x256 .f32) (x7 : Vec F S256x256 .f32) (x8 : Vec F S1x256 .f32) (x9 : Vec F S256x256 .f32) (x10 : Vec F S1x256 .f32) (xo12 xo13 : Vec F S1x256 .f32) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xo12 xo13 = k0_pay3 (k0_pay7 x0 x2 x5 x6 x1 x3 x4) (k0_pay8 x1 x3 x4 x7) (k0_pay9 x8) x9 x10 xo13 := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xo12 xo13)]
  unfold kernelRun0_B
  dsimp only
  sl_unfold_words
  rw [View.canon_unit_zero hz]
  simp only [View.readAt_eq_ld, harg1.read_unread, harg2.read_unread, harg3.read_unread, harg4.read_unread, harg5.read_unread,
    harg6.read_unread, harg7.read_unread, harg8.read_unread, harg9.read_unread, harg10.read_unread, harg11.read_unread,
    harg13.read_unread, harg14.read_unread,
    View.ld_unit_zero (S := S1000x256) hz, View.ld_unit_zero (S := S1000x128) hz, View.ld_unit_zero (S := S1x256) hz,
    View.ld_unit_zero (S := S128x256) hz, View.ld_unit_zero (S := S256x256) hz]

end Cert.KernelIdeal.Region0

end
-- ==== Proof.Region0Points.lean ====
/-
  Region 0 point by point: what its three output buffers hold after each grid point.

  After point t the first buffer holds the hidden block of point t's input blocks.  The other two hold running column
  sums: at point 0 the reset value plus point 0's column sum (of the hidden block, and of its square), and at point
  t + 1 what point t left plus point t + 1's column sum.  This is proved by induction on the point from the two cases
  of the body, never by enumerating the grid.
-/
import proofs.«117861_j9285719294274_1_alg».proof.Proof.Region0Pieces

set_option maxRecDepth 16384

noncomputable section

namespace Cert.KernelIdeal.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- The hidden block of point `t`'s input blocks. -/
def hblk (c : Dev nD) (t : Fin cfg0.N) : Vec F S1000x256 .f32 :=
  k0_pay1 (k0_pay7 (iblk0 V c 0 t) (iblk0 V c 2 t) (iblk0 V c 5 t) (iblk0 V c 6 t) (iblk0 V c 1 t) (iblk0 V c 3 t) (iblk0 V c 4 t)) (k0_pay8 (iblk0 V c 1 t) (iblk0 V c 3 t) (iblk0 V c 4 t) (iblk0 V c 7 t)) (k0_pay9 (iblk0 V c 8 t)) (iblk0 V c 9 t) (iblk0 V c 10 t)

/-- One step of the running column sum of the hidden block: the previous contents plus point `t`'s column sum. -/
def step12 (c : Dev nD) (t : Fin cfg0.N) (prev : Vec F S1x256 .f32) : Vec F S1x256 .f32 :=
  k0_pay2 (k0_pay7 (iblk0 V c 0 t) (iblk0 V c 2 t) (iblk0 V c 5 t) (iblk0 V c 6 t) (iblk0 V c 1 t) (iblk0 V c 3 t) (iblk0 V c 4 t)) (k0_pay8 (iblk0 V c 1 t) (iblk0 V c 3 t) (iblk0 V c 4 t) (iblk0 V c 7 t)) (k0_pay9 (iblk0 V c 8 t)) (iblk0 V c 9 t) (iblk0 V c 10 t) prev

/-- One step of the running column sum of the hidden block's square. -/
def step13 (c : Dev nD) (t : Fin cfg0.N) (prev : Vec F S1x256 .f32) : Vec F S1x256 .f32 :=
  k0_pay3 (k0_pay7 (iblk0 V c 0 t) (iblk0 V c 2 t) (iblk0 V c 5 t) (iblk0 V c 6 t) (iblk0 V c 1 t) (iblk0 V c 3 t) (iblk0 V c 4 t)) (k0_pay8 (iblk0 V c 1 t) (iblk0 V c 3 t) (iblk0 V c 4 t) (iblk0 V c 7 t)) (k0_pay9 (iblk0 V c 8 t)) (iblk0 V c 9 t) (iblk0 V c 10 t) prev

/-- The running column sum after point `n`. -/
def acc12 (c : Dev nD) : (n : ℕ) → n < cfg0.N → Vec F S1x256 .f32
  | 0, h => step12 V c ⟨0, h⟩ k0_pay4
  | n + 1, h => step12 V c ⟨n + 1, h⟩ (acc12 c n (Nat.lt_of_succ_lt h))

/-- The running column sum of squares after point `n`. -/
def acc13 (c : Dev nD) : (n : ℕ) → n < cfg0.N → Vec F S1x256 .f32
  | 0, h => step13 V c ⟨0, h⟩ k0_pay5
  | n + 1, h => step13 V c ⟨n + 1, h⟩ (acc13 c n (Nat.lt_of_succ_lt h))

/-- What the three output buffers hold after point `n`. -/
theorem outsAt_eq (c : Dev nD) : ∀ (n : ℕ) (h : n < cfg0.N),
    outsAt0 V c n h = (hblk V c ⟨n, h⟩, acc12 V c n h, acc13 V c n h)
  | 0, h => by
    rw [outsAt0_A V c ⟨0, h⟩ rfl, piece_A_11, piece_A_12, piece_A_13]
    rfl
  | n + 1, h => by
    have hN : cfg0.N = 50 := N_0
    have hB : ¬(⟨n + 1, h⟩ : Fin cfg0.N).val % 50 = 0 := by dsimp only; omega
    have ih := outsAt_eq c n (Nat.lt_of_succ_lt h)
    rw [outsAt0_B V c ⟨n + 1, h⟩ hB, piece_B_11, piece_B_12, piece_B_13]
    show (hblk V c ⟨n + 1, h⟩, step12 V c ⟨n + 1, h⟩ (outsAt0 V c n _).2.1, step13 V c ⟨n + 1, h⟩ (outsAt0 V c n _).2.2) = _
    rw [ih]
    rfl

theorem after11_eq (c : Dev nD) (t : Fin cfg0.N) : (dat0 V c).after 11 t = hblk V c t := by
  rw [after0_11, outsAt_eq]
theorem after12_eq (c : Dev nD) (t : Fin cfg0.N) : (dat0 V c).after 12 t = acc12 V c t.val t.isLt := by
  rw [after0_12, outsAt_eq]
theorem after13_eq (c : Dev nD) (t : Fin cfg0.N) : (dat0 V c).after 13 t = acc13 V c t.val t.isLt := by
  rw [after0_13, outsAt_eq]

end Cert.KernelIdeal.Region0

end
-- ==== Proof.SpecLaws.lean ====
/-
  Laws of the specification's arithmetic on the extended reals.

  The column variance is spelled in two ways: the mean of the squares minus the square of the mean, and the
  mean of the squared deviations from the mean.  On the extended reals the two agree as soon as every entry of
  the column is a real number, because then every sum, product and quotient by 50000 is the real one and the
  identity  Σ (h - μ)² = Σ h² - N μ²  (with μ = Σ h / N) is the textbook one.  This file proves that the hidden
  array is real when the inputs are, the identity, and the regrouping of a sum over 50000 rows into 50 blocks
  of 1000 rows.
-/
import proofs.«117861_j9285719294274_1_alg».proof.Proof.Spec

noncomputable section

namespace Cert.Spec

open Idealize.ShloMosaic

/-! ### The row count -/

/-- The pattern of the row count denotes the real number 50000: exponent 15, significand 12800000 / 2^23. -/
theorem nW_eq : nW = ((50000 : ℝ) : EReal) := by
  unfold nW
  simp [Ideal.ofBits, Ideal.ieee, -EReal.coe_mul]; norm_num

/-! ### Real extended reals are closed under the ring operations, maxima and finite sums -/

theorem IsReal.coe (y : ℝ) : IsReal (y : EReal) := ⟨y, rfl⟩

theorem IsReal.zero : IsReal 0 := ⟨0, EReal.coe_zero.symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  obtain ⟨a, rfl⟩ := hx; obtain ⟨b, rfl⟩ := hy; exact ⟨Max.max a b, (EReal.coe_strictMono.monotone.map_max (a := a) (b := b)).symm⟩

/-- The coercion of a finite sum of reals is the sum of the coercions. -/
theorem coe_finset_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

theorem IsReal.sum {ι : Type*} (s : Finset ι) (f : ι → EReal) (hf : ∀ i ∈ s, IsReal (f i)) :
    IsReal (∑ i ∈ s, f i) := by
  classical
  induction s using Finset.induction_on with
  | empty => simpa using IsReal.zero
  | insert a s ha ih =>
    rw [Finset.sum_insert ha]
    exact IsReal.add (hf a (Finset.mem_insert_self a s))
      (ih (fun i hi => hf i (Finset.mem_insert_of_mem hi)))

/-! ### The hidden array is real when the parameters and the inputs are -/

/-- Every entry of every weight and bias is a real number. -/
structure Params.IsReal (P : Params) : Prop where
  bE : ∀ c, Cert.Spec.IsReal (P.bE c)
  Wn : ∀ k c, Cert.Spec.IsReal (P.Wn k c)
  bn : ∀ c, Cert.Spec.IsReal (P.bn c)
  Wc1 : ∀ k c, Cert.Spec.IsReal (P.Wc1 k c)
  bc1 : ∀ c, Cert.Spec.IsReal (P.bc1 c)
  Wc2 : ∀ k c, Cert.Spec.IsReal (P.Wc2 k c)
  bc2 : ∀ c, Cert.Spec.IsReal (P.bc2 c)
  Wf1 : ∀ k c, Cert.Spec.IsReal (P.Wf1 k c)
  bf1 : ∀ c, Cert.Spec.IsReal (P.bf1 c)
  γ : ∀ c, Cert.Spec.IsReal (P.γ c)
  β : ∀ c, Cert.Spec.IsReal (P.β c)
  Wf2 : ∀ c j, Cert.Spec.IsReal (P.Wf2 c j)
  bf2 : ∀ j, Cert.Spec.IsReal (P.bf2 j)

section Real

variable (P : Params) (hP : P.IsReal)
include hP

theorem aRow_isReal (A : Fin 256 → EReal) (hA : ∀ c, IsReal (A c)) (c : Fin 256) : IsReal (aRow P A c) :=
  (hA c).add (hP.bE c)

theorem o1_isReal (a : Fin 256 → EReal) (ha : ∀ c, IsReal (a c)) (c : Fin 256) : IsReal (o1 P a c) :=
  (ha c).add ((IsReal.sum _ _ (fun k _ => (ha k).mul (hP.Wc1 k c))).add (hP.bc1 c))

theorem hx_isReal (x : Fin 128 → EReal) (hx' : ∀ k, IsReal (x k)) (c : Fin 256) : IsReal (hx P x c) :=
  (IsReal.sum _ _ (fun k _ => (hx' k).mul (hP.Wn k c))).add (hP.bn c)

theorem o2_isReal (a : Fin 256 → EReal) (x : Fin 128 → EReal) (ha : ∀ c, IsReal (a c)) (hx' : ∀ k, IsReal (x k))
    (c : Fin 256) : IsReal (o2 P a x c) :=
  ((o1_isReal P hP a ha c).add (hx_isReal P hP x hx' c)).add
    ((IsReal.sum _ _ (fun k _ => (hx_isReal P hP x hx' k).mul (hP.Wc2 k c))).add (hP.bc2 c))

theorem o3_isReal (a : Fin 256 → EReal) (x : Fin 128 → EReal) (ha : ∀ c, IsReal (a c)) (hx' : ∀ k, IsReal (x k))
    (c : Fin 256) : IsReal (o3 P a x c) :=
  (o2_isReal P hP a x ha hx' c).max IsReal.zero

theorem hRow_isReal (a : Fin 256 → EReal) (x : Fin 128 → EReal) (ha : ∀ c, IsReal (a c)) (hx' : ∀ k, IsReal (x k))
    (c : Fin 256) : IsReal (hRow P a x c) :=
  ((IsReal.sum _ _ (fun k _ => (o3_isReal P hP a x ha hx' k).mul (hP.Wf1 k c))).add (hP.bf1 c)).max IsReal.zero

/-- The hidden array of real parameters, real aggregated messages and real features is real. -/
theorem H_isReal (A : Fin 50000 → Fin 256 → EReal) (X : Fin 50000 → Fin 128 → EReal)
    (hA : ∀ r c, IsReal (A r c)) (hX : ∀ r k, IsReal (X r k)) : ∀ r c, IsReal (H P A X r c) :=
  fun r c => hRow_isReal P hP _ _ (aRow_isReal P hP (A r) (hA r)) (hX r) c

end Real

/-! ### The two spellings of the mean and of the variance -/

theorem meanK_eq_muR (h : Fin 50000 → Fin 256 → EReal) : meanK h = muR h := by
  funext c
  rw [meanK, muR, zero_add]

/-- The textbook identity: the mean of the squares minus the square of the mean is the mean of the squared
    deviations.  With S = Σ g and m = S / N:  Σ (g - m)² = Σ g² - 2 m S + N m² = Σ g² - N m². -/
theorem real_var (g : Fin 50000 → ℝ) :
    (∑ r, g r * g r) * (1 / 50000) - ((∑ r, g r) * (1 / 50000)) * ((∑ r, g r) * (1 / 50000))
      = (∑ r, (g r - (∑ r, g r) * (1 / 50000)) * (g r - (∑ r, g r) * (1 / 50000))) * (1 / 50000) := by
  generalize hS : (∑ r, g r) = S
  generalize hm : S * (1 / 50000) = m
  have hexp : ∀ r, (g r - m) * (g r - m) = g r * g r - 2 * m * g r + m * m := fun r => by ring
  have hsum : (∑ r, (g r - m) * (g r - m)) = (∑ r, g r * g r) - 2 * m * S + 50000 * (m * m) := by
    simp only [hexp]
    rw [Finset.sum_add_distrib, Finset.sum_sub_distrib, ← Finset.mul_sum, hS, Finset.sum_const,
      Finset.card_univ, Fintype.card_fin, nsmul_eq_mul]
    norm_num
  rw [hsum, ← hm]
  ring

theorem varK_eq_varR (h : Fin 50000 → Fin 256 → EReal) (hh : ∀ r c, IsReal (h r c)) : varK h = varR h := by
  funext c
  choose g hg using hh
  have h50 : (50000 : ℝ) ≠ 0 := by norm_num
  have hsum : (∑ r : Fin 50000, h r c) = ((∑ r, g r c : ℝ) : EReal) := by
    rw [coe_finset_sum]; exact Finset.sum_congr rfl (fun r _ => hg r c)
  have hsq : (∑ r : Fin 50000, h r c * h r c) = ((∑ r, g r c * g r c : ℝ) : EReal) := by
    rw [coe_finset_sum]
    exact Finset.sum_congr rfl (fun r _ => by rw [hg r c, EReal.coe_mul])
  have hmean : meanK h c = (((∑ r, g r c) * (1 / 50000) : ℝ) : EReal) := by
    rw [meanK, hsum, nW_eq, Ideal.div_coe h50, ← EReal.coe_mul]
  have hmu : muR h c = (((∑ r, g r c) * (1 / 50000) : ℝ) : EReal) := by
    rw [← meanK_eq_muR]; exact hmean
  have hdev : (∑ r : Fin 50000, (h r c - muR h c) * (h r c - muR h c))
      = ((∑ r, (g r c - (∑ r, g r c) * (1 / 50000)) * (g r c - (∑ r, g r c) * (1 / 50000)) : ℝ) : EReal) := by
    rw [coe_finset_sum]
    exact Finset.sum_congr rfl (fun r _ => by rw [hg r c, hmu, ← EReal.coe_sub, ← EReal.coe_mul])
  rw [varK, varR, hmean, hsq, zero_add, hdev, nW_eq, Ideal.div_coe h50, Ideal.div_coe h50,
    ← EReal.coe_mul, ← EReal.coe_mul, ← EReal.coe_mul, ← EReal.coe_sub, real_var]

theorem outK_eq_outR (P : Params) (h : Fin 50000 → Fin 256 → EReal) (hh : ∀ r c, IsReal (h r c)) :
    outK P h = outR P h := by
  have hinv : invK h = invR h := by
    funext c
    rw [invK, invR, varK_eq_varR h hh]
  rw [outK, outR, meanK_eq_muR, hinv]

/-! ### Sums over the rows, block by block -/

/-- Row 1000 t + p is row p of block t: the 50 blocks of 1000 rows enumerate the 50000 rows once each. -/
def blockEquiv : Fin 50 × Fin 1000 ≃ Fin 50000 where
  toFun x := ⟨1000 * x.1.val + x.2.val, by omega⟩
  invFun r := (⟨r.val / 1000, by omega⟩, ⟨r.val % 1000, by omega⟩)
  left_inv := by
    rintro ⟨⟨a, ha⟩, ⟨b, hb⟩⟩
    ext <;> simp <;> omega
  right_inv := by
    rintro ⟨r, hr⟩
    ext; simp; omega

theorem sum_blocks {M : Type*} [AddCommMonoid M] (f : Fin 50000 → M) :
    (∑ t : Fin 50, ∑ p : Fin 1000, f ⟨1000 * t.val + p.val, by omega⟩) = ∑ r : Fin 50000, f r := by
  rw [← Finset.sum_product', Finset.univ_product_univ]
  exact Fintype.sum_equiv blockEquiv _ _ (fun _ => rfl)

/-- A running sum started at zero plus the first term is the sum of the terms so far. -/
theorem acc_blocks (g : ℕ → EReal) (acc : ℕ → EReal) (h0 : acc 0 = 0 + g 0)
    (hs : ∀ t, acc (t + 1) = acc t + g (t + 1)) (n : ℕ) : acc n = ∑ t ∈ Finset.range (n + 1), g t := by
  induction n with
  | zero => rw [h0, zero_add, Finset.sum_range_one]
  | succ n ih => rw [hs, ih, Finset.sum_range_succ _ (n + 1)]

end Cert.Spec

end
-- ==== Proof.Region0Hidden.lean ====
/-
  Region 0's three output arrays as whole-array functions of the arrays the region finds.

  The hidden array: point t writes back rows 1000 t .. 1000 t + 999, and row p of its block is the specification's
  hidden row of row 1000 t + p of the aggregated messages and of the features, the weights and biases being resident
  blocks read whole.  The 50 blocks cover the 50000 rows, so the array ends at the specification's hidden array.
  The two running sums are written back once, after the last point, and their one block is the whole 1 x 256 array:
  it holds the sum over the 50 points of the blocks' column sums, which re-indexed by the row 1000 t + p is the sum over
  all 50000 rows of the hidden array's column, and of its square.
-/
import proofs.«117861_j9285719294274_1_alg».proof.Proof.Region0Points
import proofs.«117861_j9285719294274_1_alg».proof.Proof.KernelPayload
import proofs.«117861_j9285719294274_1_alg».proof.Proof.SpecLaws
import proofs.«117861_j9285719294274_1_alg».proof.Proof.SpecArrays

set_option maxRecDepth 16384

noncomputable section

namespace Cert.KernelIdeal.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

/-- The printed index maps, decided once over the grid: the two streamed inputs and the hidden output move one block
    of rows per point; every other window stays at its one block. -/
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = t.val ∧ win0_11.index t (1 : Fin 2) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)
theorem idx13 : ∀ t : Fin cfg0.N, win0_13.index t (0 : Fin 2) = 0 ∧ win0_13.index t (1 : Fin 2) = 0 :=
  (by decide +kernel : ∀ t : Fin grid0.N, _)

/-- The region's resident weight and bias arrays spell the parameter record `P`. -/
structure Spells (c : Dev nD) (P : Cert.Spec.Params) : Prop where
  bE : ∀ k : Fin 256, (V c (Pipeline.arrRef spec0 2)) (ix2 (0 : Fin 1) k) = P.bE k
  Wn : ∀ (k : Fin 128) (j : Fin 256), (V c (Pipeline.arrRef spec0 3)) (ix2 k j) = P.Wn k j
  bn : ∀ k : Fin 256, (V c (Pipeline.arrRef spec0 4)) (ix2 (0 : Fin 1) k) = P.bn k
  Wc1 : ∀ (k : Fin 256) (j : Fin 256), (V c (Pipeline.arrRef spec0 5)) (ix2 k j) = P.Wc1 k j
  bc1 : ∀ k : Fin 256, (V c (Pipeline.arrRef spec0 6)) (ix2 (0 : Fin 1) k) = P.bc1 k
  Wc2 : ∀ (k : Fin 256) (j : Fin 256), (V c (Pipeline.arrRef spec0 7)) (ix2 k j) = P.Wc2 k j
  bc2 : ∀ k : Fin 256, (V c (Pipeline.arrRef spec0 8)) (ix2 (0 : Fin 1) k) = P.bc2 k
  Wf1 : ∀ (k : Fin 256) (j : Fin 256), (V c (Pipeline.arrRef spec0 9)) (ix2 k j) = P.Wf1 k j
  bf1 : ∀ k : Fin 256, (V c (Pipeline.arrRef spec0 10)) (ix2 (0 : Fin 1) k) = P.bf1 k

/-- The specification's hidden array of the arrays the region finds. -/
def Hof (c : Dev nD) (P : Cert.Spec.Params) : Fin 50000 → Fin 256 → EReal :=
  Cert.Spec.H P (Cert.Spec.mat (V c (Pipeline.arrRef spec0 0))) (Cert.Spec.mat (V c (Pipeline.arrRef spec0 1)))

/-! ## The input blocks read where the arrays hold them -/

theorem read0 (c : Dev nD) (t : Fin cfg0.N) (p : Fin 1000) (k' : Fin 256) (r : Fin 50000) (hr : r.val = 1000 * t.val + p.val) :
    iblk0 V c 0 t (ix2 p k') = (V c (Pipeline.arrRef spec0 0)) (ix2 r k') := by
  obtain ⟨h0, h1⟩ := idx0 t
  show (V c (Pipeline.arrRef spec0 0)) (((cfg0.win 0).blk t).view.emb (ix2 p k')) = _
  refine congrArg _ (funext fun a => Fin.ext ?_)
  match a with
  | ⟨0, _⟩ => show win0_0.index t (0 : Fin 2) * 1000 + 1 * p.val = r.val; omega
  | ⟨1, _⟩ => show win0_0.index t (1 : Fin 2) * 256 + 1 * k'.val = k'.val; omega

theorem read1 (c : Dev nD) (t : Fin cfg0.N) (p : Fin 1000) (k' : Fin 128) (r : Fin 50000) (hr : r.val = 1000 * t.val + p.val) :
    iblk0 V c 1 t (ix2 p k') = (V c (Pipeline.arrRef spec0 1)) (ix2 r k') := by
  obtain ⟨h0, h1⟩ := idx1 t
  show (V c (Pipeline.arrRef spec0 1)) (((cfg0.win 1).blk t).view.emb (ix2 p k')) = _
  refine congrArg _ (funext fun a => Fin.ext ?_)
  match a with
  | ⟨0, _⟩ => show win0_1.index t (0 : Fin 2) * 1000 + 1 * p.val = r.val; omega
  | ⟨1, _⟩ => show win0_1.index t (1 : Fin 2) * 128 + 1 * k'.val = k'.val; omega

theorem read2 (c : Dev nD) (t : Fin cfg0.N) (k' : Fin 256) :
    iblk0 V c 2 t (ix2 (0 : Fin 1) k') = (V c (Pipeline.arrRef spec0 2)) (ix2 (0 : Fin 1) k') := by
  obtain ⟨h0, h1⟩ := idx2 t
  show (V c (Pipeline.arrRef spec0 2)) (((cfg0.win 2).blk t).view.emb (ix2 (0 : Fin 1) k')) = _
  refine congrArg _ (funext fun a => Fin.ext ?_)
  match a with
  | ⟨0, _⟩ => show win0_2.index t (0 : Fin 2) * 1 + 1 * 0 = 0; omega
  | ⟨1, _⟩ => show win0_2.index t (1 : Fin 2) * 256 + 1 * k'.val = k'.val; omega

theorem read3 (c : Dev nD) (t : Fin cfg0.N) (k' : Fin 128) (j : Fin 256) :
    iblk0 V c 3 t (ix2 k' j) = (V c (Pipeline.arrRef spec0 3)) (ix2 k' j) := by
  obtain ⟨h0, h1⟩ := idx3 t
  show (V c (Pipeline.arrRef spec0 3)) (((cfg0.win 3).blk t).view.emb (ix2 k' j)) = _
  refine congrArg _ (funext fun a => Fin.ext ?_)
  match a with
  | ⟨0, _⟩ => show win0_3.index t (0 : Fin 2) * 128 + 1 * k'.val = k'.val; omega
  | ⟨1, _⟩ => show win0_3.index t (1 : Fin 2) * 256 + 1 * j.val = j.val; omega

theorem read4 (c : Dev nD) (t : Fin cfg0.N) (k' : Fin 256) :
    iblk0 V c 4 t (ix2 (0 : Fin 1) k') = (V c (Pipeline.arrRef spec0 4)) (ix2 (0 : Fin 1) k') := by
  obtain ⟨h0, h1⟩ := idx4 t
  show (V c (Pipeline.arrRef spec0 4)) (((cfg0.win 4).blk t).view.emb (ix2 (0 : Fin 1) k')) = _
  refine congrArg _ (funext fun a => Fin.ext ?_)
  match a with
  | ⟨0, _⟩ => show win0_4.index t (0 : Fin 2) * 1 + 1 * 0 = 0; omega
  | ⟨1, _⟩ => show win0_4.index t (1 : Fin 2) * 256 + 1 * k'.val = k'.val; omega

theorem read5 (c : Dev nD) (t : Fin cfg0.N) (k' : Fin 256) (j : Fin 256) :
    iblk0 V c 5 t (ix2 k' j) = (V c (Pipeline.arrRef spec0 5)) (ix2 k' j) := by
  obtain ⟨h0, h1⟩ := idx5 t
  show (V c (Pipeline.arrRef spec0 5)) (((cfg0.win 5).blk t).view.emb (ix2 k' j)) = _
  refine congrArg _ (funext fun a => Fin.ext ?_)
  match a with
  | ⟨0, _⟩ => show win0_5.index t (0 : Fin 2) * 256 + 1 * k'.val = k'.val; omega
  | ⟨1, _⟩ => show win0_5.index t (1 : Fin 2) * 256 + 1 * j.val = j.val; omega

theorem read6 (c : Dev nD) (t : Fin cfg0.N) (k' : Fin 256) :
    iblk0 V c 6 t (ix2 (0 : Fin 1) k') = (V c (Pipeline.arrRef spec0 6)) (ix2 (0 : Fin 1) k') := by
  obtain ⟨h0, h1⟩ := idx6 t
  show (V c (Pipeline.arrRef spec0 6)) (((cfg0.win 6).blk t).view.emb (ix2 (0 : Fin 1) k')) = _
  refine congrArg _ (funext fun a => Fin.ext ?_)
  match a with
  | ⟨0, _⟩ => show win0_6.index t (0 : Fin 2) * 1 + 1 * 0 = 0; omega
  | ⟨1, _⟩ => show win0_6.index t (1 : Fin 2) * 256 + 1 * k'.val = k'.val; omega

theorem read7 (c : Dev nD) (t : Fin cfg0.N) (k' : Fin 256) (j : Fin 256) :
    iblk0 V c 7 t (ix2 k' j) = (V c (Pipeline.arrRef spec0 7)) (ix2 k' j) := by
  obtain ⟨h0, h1⟩ := idx7 t
  show (V c (Pipeline.arrRef spec0 7)) (((cfg0.win 7).blk t).view.emb (ix2 k' j)) = _
  refine congrArg _ (funext fun a => Fin.ext ?_)
  match a with
  | ⟨0, _⟩ => show win0_7.index t (0 : Fin 2) * 256 + 1 * k'.val = k'.val; omega
  | ⟨1, _⟩ => show win0_7.index t (1 : Fin 2) * 256 + 1 * j.val = j.val; omega

theorem read8 (c : Dev nD) (t : Fin cfg0.N) (k' : Fin 256) :
    iblk0 V c 8 t (ix2 (0 : Fin 1) k') = (V c (Pipeline.arrRef spec0 8)) (ix2 (0 : Fin 1) k') := by
  obtain ⟨h0, h1⟩ := idx8 t
  show (V c (Pipeline.arrRef spec0 8)) (((cfg0.win 8).blk t).view.emb (ix2 (0 : Fin 1) k')) = _
  refine congrArg _ (funext fun a => Fin.ext ?_)
  match a with
  | ⟨0, _⟩ => show win0_8.index t (0 : Fin 2) * 1 + 1 * 0 = 0; omega
  | ⟨1, _⟩ => show win0_8.index t (1 : Fin 2) * 256 + 1 * k'.val = k'.val; omega

theorem read9 (c : Dev nD) (t : Fin cfg0.N) (k' : Fin 256) (j : Fin 256) :
    iblk0 V c 9 t (ix2 k' j) = (V c (Pipeline.arrRef spec0 9)) (ix2 k' j) := by
  obtain ⟨h0, h1⟩ := idx9 t
  show (V c (Pipeline.arrRef spec0 9)) (((cfg0.win 9).blk t).view.emb (ix2 k' j)) = _
  refine congrArg _ (funext fun a => Fin.ext ?_)
  match a with
  | ⟨0, _⟩ => show win0_9.index t (0 : Fin 2) * 256 + 1 * k'.val = k'.val; omega
  | ⟨1, _⟩ => show win0_9.index t (1 : Fin 2) * 256 + 1 * j.val = j.val; omega

theorem read10 (c : Dev nD) (t : Fin cfg0.N) (k' : Fin 256) :
    iblk0 V c 10 t (ix2 (0 : Fin 1) k') = (V c (Pipeline.arrRef spec0 10)) (ix2 (0 : Fin 1) k') := by
  obtain ⟨h0, h1⟩ := idx10 t
  show (V c (Pipeline.arrRef spec0 10)) (((cfg0.win 10).blk t).view.emb (ix2 (0 : Fin 1) k')) = _
  refine congrArg _ (funext fun a => Fin.ext ?_)
  match a with
  | ⟨0, _⟩ => show win0_10.index t (0 : Fin 2) * 1 + 1 * 0 = 0; omega
  | ⟨1, _⟩ => show win0_10.index t (1 : Fin 2) * 256 + 1 * k'.val = k'.val; omega

/-- Row p of point t's hidden block is the hidden array's row 1000 t + p. -/
theorem hblk_apply (c : Dev nD) (P : Cert.Spec.Params) (hS : Spells V c P) (t : Fin cfg0.N) (p : Fin 1000) (k : Fin 256)
    (r : Fin 50000) (hr : r.val = 1000 * t.val + p.val) :
    hblk V c t (ix2 p k) = Hof V c P r k := by
  unfold hblk
  refine (Payload.hidden_block_apply P (iblk0 V c 0 t) (iblk0 V c 2 t) (iblk0 V c 5 t) (iblk0 V c 6 t) (iblk0 V c 1 t) (iblk0 V c 3 t) (iblk0 V c 4 t) (iblk0 V c 7 t) (iblk0 V c 8 t) (iblk0 V c 9 t) (iblk0 V c 10 t)
    (fun k' => (read2 V c t k').trans (hS.bE k')) (fun k' j => (read3 V c t k' j).trans (hS.Wn k' j))
    (fun k' => (read4 V c t k').trans (hS.bn k')) (fun k' j => (read5 V c t k' j).trans (hS.Wc1 k' j))
    (fun k' => (read6 V c t k').trans (hS.bc1 k')) (fun k' j => (read7 V c t k' j).trans (hS.Wc2 k' j))
    (fun k' => (read8 V c t k').trans (hS.bc2 k')) (fun k' j => (read9 V c t k' j).trans (hS.Wf1 k' j))
    (fun k' => (read10 V c t k').trans (hS.bf1 k')) p k).trans ?_
  have e0 : (fun k' : Fin 256 => iblk0 V c 0 t (ix2 p k')) = Cert.Spec.mat (V c (Pipeline.arrRef spec0 0)) r :=
    funext fun k' => read0 V c t p k' r hr
  have e1 : (fun k' : Fin 128 => iblk0 V c 1 t (ix2 p k')) = Cert.Spec.mat (V c (Pipeline.arrRef spec0 1)) r :=
    funext fun k' => read1 V c t p k' r hr
  rw [e0, e1]
  rfl

/-! ## The hidden array -/

/-- The hidden array as a function of the array index. -/
def Harr (c : Dev nD) (P : Cert.Spec.Params) : S50000x256.Idx → EReal := fun i => Hof V c P (i 0) (i 1)

theorem flushed11_eq (c : Dev nD) (P : Cert.Spec.Params) (hS : Spells V c P) (t : Fin cfg0.N) :
    (dat0 (F := Ideal) V c).flushed 11 t = ((cfg0.win 11).blk t).view.read (Elt Ideal) (Harr V c P) := by
  show (cfg0.win 11).cut (grid0.coords t) ((dat0 V c).after 11 t) = _
  rw [after11_eq]
  obtain ⟨e11_0, e11_1⟩ := idx11 t
  have hN : cfg0.N = 50 := N_0
  have ht : t.val < 50 := by have := t.isLt; omega
  funext j
  obtain ⟨p, q, rfl⟩ : ∃ (p : Fin 1000) (q : Fin 256), j = ix2 p q := ⟨j 0, j 1, eq_ix2 j⟩
  show hblk V c t (ix2 p q) = Harr V c P (((cfg0.win 11).blk t).view.emb (ix2 p q))
  rw [hblk_apply V c P hS t p q ⟨1000 * t.val + p.val, by have := p.isLt; omega⟩ rfl]
  unfold Harr
  congr 1
  · apply Fin.ext
    show 1000 * t.val + p.val = win0_11.index t (0 : Fin 2) * 1000 + 1 * p.val
    omega
  · apply Fin.ext
    show q.val = win0_11.index t (1 : Fin 2) * 256 + 1 * q.val
    omega

theorem idx_onto11 : ∀ q0 : Fin 50, ∃ t : Fin cfg0.N, win0_11.index t = ![q0.val, 0] :=
  (by decide +kernel : ∀ q0 : Fin 50, ∃ t : Fin grid0.N, win0_11.index t = ![q0.val, 0])

theorem mem_blk11 (t : Fin cfg0.N) (i : S50000x256.Idx) :
    i ∈ ((cfg0.win 11).blk t).view.set ↔ ∀ a : Fin 2, win0_11.index t a * S1000x256.size a ≤ (i a).val
      ∧ (i a).val < win0_11.index t a * S1000x256.size a + S1000x256.size a := by
  show i ∈ ((View.whole main_v22_0).slice (win0_11.rect t)).set ↔ _
  rw [View.set_slice_whole, Rect.mem_set_unit]
  exact Iff.rfl

theorem cover11 (i : S50000x256.Idx) :
    ∃ t : Fin cfg0.N, (cfg0.win 11).flush t = true ∧ i ∈ ((cfg0.win 11).blk t).view.set := by
  have hi0 : (i 0).val < 50000 := (i 0).isLt
  have hi1 : (i 1).val < 256 := (i 1).isLt
  obtain ⟨t, ht⟩ := idx_onto11 ⟨(i 0).val / 1000, by omega⟩
  have q0 : win0_11.index t (0 : Fin 2) = (i 0).val / 1000 := congrFun ht 0
  have q1 : win0_11.index t (1 : Fin 2) = 0 := congrFun ht 1
  refine ⟨t, flush0_11 t, ?_⟩
  rw [mem_blk11]
  intro a
  match a with
  | ⟨0, _⟩ => show win0_11.index t (0 : Fin 2) * 1000 ≤ (i 0).val ∧ (i 0).val < win0_11.index t (0 : Fin 2) * 1000 + 1000; omega
  | ⟨1, _⟩ => show win0_11.index t (1 : Fin 2) * 256 ≤ (i 1).val ∧ (i 1).val < win0_11.index t (1 : Fin 2) * 256 + 256; omega

/-- THE HIDDEN ARRAY after the region. -/
theorem final11 (c : Dev nD) (P : Cert.Spec.Params) (hS : Spells V c P) :
    (dat0 (F := Ideal) V c).arrAt 11 cfg0.N = Harr V c P :=
  (dat0 V c).arrAt_eq_of_cover 11 _ (fun t _ => flushed11_eq V c P hS t) cover11

end Cert.KernelIdeal.Region0

end
-- ==== Proof.Region0Sums.lean ====
/-
  Region 0's two running column sums as whole arrays.

  Each is written back once, after the last grid point, and its one block is the whole 1 x 256 array.  At column k it
  holds zero plus the sum over the 50 points of the point's block column sum; re-indexing the pair (point t, row p of
  the block) by the row 1000 t + p of the hidden array, that is the sum over all 50000 rows of the hidden array's
  column k, respectively of its square.
-/
import proofs.«117861_j9285719294274_1_alg».proof.Proof.Region0Hidden

set_option maxRecDepth 16384

noncomputable section

namespace Cert.KernelIdeal.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

/-- The sum of a function of the rows over block `t`'s 1000 rows (zero past the last row). -/
def blockSum (f : Fin 50000 → EReal) (t : ℕ) : EReal :=
  ∑ p : Fin 1000, if h : 1000 * t + p.val < 50000 then f ⟨1000 * t + p.val, h⟩ else 0

/-- The 50 block sums add up to the sum over all rows. -/
theorem total_blocks (f : Fin 50000 → EReal) : ∑ t ∈ Finset.range 50, blockSum f t = ∑ r : Fin 50000, f r := by
  rw [Finset.sum_range, ← Cert.Spec.sum_blocks f]
  refine Finset.sum_congr rfl fun t _ => ?_
  unfold blockSum
  refine Finset.sum_congr rfl fun p _ => ?_
  have ht := t.isLt
  have hp := p.isLt
  rw [dif_pos (by omega)]

/-! ## The column sums of the hidden array -/

theorem acc12_apply (c : Dev nD) (P : Cert.Spec.Params) (hS : Spells V c P) (k : Fin 256) :
    ∀ (n : ℕ) (h : n < cfg0.N), acc12 V c n h (ix2 (0 : Fin 1) k)
      = ∑ t ∈ Finset.range (n + 1), blockSum (fun r => Hof V c P r k) t
  | 0, h => by
    have hN : cfg0.N = 50 := N_0
    show step12 V c ⟨0, h⟩ (k0_pay4 (F := Ideal)) (ix2 (0 : Fin 1) k) = _
    unfold step12
    rw [Payload.pay2_apply, Payload.pay4_apply, zero_add, Finset.sum_range_one]
    unfold blockSum
    refine Finset.sum_congr rfl fun p _ => ?_
    have hp := p.isLt
    rw [dif_pos (by omega)]
    exact hblk_apply V c P hS ⟨0, h⟩ p k _ rfl
  | n + 1, h => by
    have hN : cfg0.N = 50 := N_0
    show step12 V c ⟨n + 1, h⟩ (acc12 V c n (Nat.lt_of_succ_lt h)) (ix2 (0 : Fin 1) k) = _
    unfold step12
    rw [Payload.pay2_apply, acc12_apply c P hS k n (Nat.lt_of_succ_lt h), Finset.sum_range_succ _ (n + 1)]
    congr 1
    unfold blockSum
    refine Finset.sum_congr rfl fun p _ => ?_
    have hp := p.isLt
    rw [dif_pos (by omega)]
    exact hblk_apply V c P hS ⟨n + 1, h⟩ p k _ rfl

/-- The array the sum ends at. -/
def Sarr (c : Dev nD) (P : Cert.Spec.Params) : S1x256.Idx → EReal := fun i => ∑ r : Fin 50000, Hof V c P r (i 1)

/-- The array at column k. -/
theorem Sarr_apply (c : Dev nD) (P : Cert.Spec.Params) (k : Fin 256) :
    Sarr V c P (ix2 (0 : Fin 1) k) = ∑ r : Fin 50000, Hof V c P r k := by
  unfold Sarr
  rfl

/-- The window's one block read at column k is the array at column k, whatever the array. -/
theorem read_whole12 (t : Fin cfg0.N) (G : S1x256.Idx → EReal) (k : Fin 256) :
    ((cfg0.win 12).blk t).view.read (Elt Ideal) G (ix2 (0 : Fin 1) k) = G (ix2 (0 : Fin 1) k) := by
  obtain ⟨e0, e1⟩ := idx12 t
  show G (((cfg0.win 12).blk t).view.emb (ix2 (0 : Fin 1) k)) = _
  refine congrArg G (funext fun a => Fin.ext ?_)
  match a with
  | ⟨0, _⟩ => show win0_12.index t (0 : Fin 2) * 1 + 1 * 0 = 0; omega
  | ⟨1, _⟩ => show win0_12.index t (1 : Fin 2) * 256 + 1 * k.val = k.val; omega

/-- The window's block is the whole 1 x 256 array: cutting a block's contents to it changes nothing. -/
theorem cut12_apply (t : Fin cfg0.N) (v : Vec Ideal S1x256 .f32) : (cfg0.win 12).cut (grid0.coords t) v = v := rfl

theorem flushed12_eq (c : Dev nD) (P : Cert.Spec.Params) (hS : Spells V c P) (t : Fin cfg0.N) (hf : (cfg0.win 12).flush t = true) :
    (dat0 (F := Ideal) V c).flushed 12 t = ((cfg0.win 12).blk t).view.read (Elt Ideal) (Sarr V c P) := by
  have hN : cfg0.N = 50 := N_0
  have h49 : t.val = 49 := by have := (flush0_12 t).mp hf; have := t.isLt; omega
  obtain ⟨e12_0, e12_1⟩ := idx12 t
  show (cfg0.win 12).cut (grid0.coords t) ((dat0 V c).after 12 t) = _
  rw [after12_eq, cut12_apply]
  funext j
  obtain ⟨z, k, rfl⟩ : ∃ (z : Fin 1) (k : Fin 256), j = ix2 z k := ⟨j 0, j 1, eq_ix2 j⟩
  obtain rfl : z = 0 := Subsingleton.elim _ _
  refine (acc12_apply V c P hS k t.val t.isLt).trans ?_
  rw [h49]
  refine (total_blocks fun r => Hof V c P r k).trans ?_
  exact ((read_whole12 t (Sarr V c P) k).trans (Sarr_apply V c P k)).symm

theorem mem_blk12 (t : Fin cfg0.N) (i : S1x256.Idx) :
    i ∈ ((cfg0.win 12).blk t).view.set ↔ ∀ a : Fin 2, win0_12.index t a * S1x256.size a ≤ (i a).val
      ∧ (i a).val < win0_12.index t a * S1x256.size a + S1x256.size a := by
  show i ∈ ((View.whole main_v22_1).slice (win0_12.rect t)).set ↔ _
  rw [View.set_slice_whole, Rect.mem_set_unit]
  exact Iff.rfl

theorem cover12 (i : S1x256.Idx) :
    ∃ t : Fin cfg0.N, (cfg0.win 12).flush t = true ∧ i ∈ ((cfg0.win 12).blk t).view.set := by
  have hN : cfg0.N = 50 := N_0
  have hi0 : (i 0).val < 1 := (i 0).isLt
  have hi1 : (i 1).val < 256 := (i 1).isLt
  refine ⟨⟨49, by omega⟩, (flush0_12 _).mpr rfl, ?_⟩
  obtain ⟨e12_0, e12_1⟩ := idx12 (⟨49, by omega⟩ : Fin cfg0.N)
  rw [mem_blk12]
  intro a
  match a with
  | ⟨0, _⟩ => show win0_12.index _ (0 : Fin 2) * 1 ≤ (i 0).val ∧ (i 0).val < win0_12.index _ (0 : Fin 2) * 1 + 1; omega
  | ⟨1, _⟩ => show win0_12.index _ (1 : Fin 2) * 256 ≤ (i 1).val ∧ (i 1).val < win0_12.index _ (1 : Fin 2) * 256 + 256; omega

theorem final12 (c : Dev nD) (P : Cert.Spec.Params) (hS : Spells V c P) :
    (dat0 (F := Ideal) V c).arrAt 12 cfg0.N = Sarr V c P :=
  (dat0 V c).arrAt_eq_of_cover 12 _ (fun t hf => flushed12_eq V c P hS t hf) cover12

/-! ## The column sums of the hidden array's square -/

theorem acc13_apply (c : Dev nD) (P : Cert.Spec.Params) (hS : Spells V c P) (k : Fin 256) :
    ∀ (n : ℕ) (h : n < cfg0.N), acc13 V c n h (ix2 (0 : Fin 1) k)
      = ∑ t ∈ Finset.range (n + 1), blockSum (fun r => Hof V c P r k * Hof V c P r k) t
  | 0, h => by
    have hN : cfg0.N = 50 := N_0
    show step13 V c ⟨0, h⟩ (k0_pay5 (F := Ideal)) (ix2 (0 : Fin 1) k) = _
    unfold step13
    rw [Payload.pay3_apply, Payload.pay5_apply, zero_add, Finset.sum_range_one]
    unfold blockSum
    refine Finset.sum_congr rfl fun p _ => ?_
    have hp := p.isLt
    rw [dif_pos (by omega)]
    exact congrArg (fun x => x * x) (hblk_apply V c P hS ⟨0, h⟩ p k _ rfl)
  | n + 1, h => by
    have hN : cfg0.N = 50 := N_0
    show step13 V c ⟨n + 1, h⟩ (acc13 V c n (Nat.lt_of_succ_lt h)) (ix2 (0 : Fin 1) k) = _
    unfold step13
    rw [Payload.pay3_apply, acc13_apply c P hS k n (Nat.lt_of_succ_lt h), Finset.sum_range_succ _ (n + 1)]
    congr 1
    unfold blockSum
    refine Finset.sum_congr rfl fun p _ => ?_
    have hp := p.isLt
    rw [dif_pos (by omega)]
    exact congrArg (fun x => x * x) (hblk_apply V c P hS ⟨n + 1, h⟩ p k _ rfl)

/-- The array the sum ends at. -/
def Qarr (c : Dev nD) (P : Cert.Spec.Params) : S1x256.Idx → EReal := fun i => ∑ r : Fin 50000, Hof V c P r (i 1) * Hof V c P r (i 1)

/-- The array at column k. -/
theorem Qarr_apply (c : Dev nD) (P : Cert.Spec.Params) (k : Fin 256) :
    Qarr V c P (ix2 (0 : Fin 1) k) = ∑ r : Fin 50000, Hof V c P r k * Hof V c P r k := by
  unfold Qarr
  rfl

/-- The window's one block read at column k is the array at column k, whatever the array. -/
theorem read_whole13 (t : Fin cfg0.N) (G : S1x256.Idx → EReal) (k : Fin 256) :
    ((cfg0.win 13).blk t).view.read (Elt Ideal) G (ix2 (0 : Fin 1) k) = G (ix2 (0 : Fin 1) k) := by
  obtain ⟨e0, e1⟩ := idx13 t
  show G (((cfg0.win 13).blk t).view.emb (ix2 (0 : Fin 1) k)) = _
  refine congrArg G (funext fun a => Fin.ext ?_)
  match a with
  | ⟨0, _⟩ => show win0_13.index t (0 : Fin 2) * 1 + 1 * 0 = 0; omega
  | ⟨1, _⟩ => show win0_13.index t (1 : Fin 2) * 256 + 1 * k.val = k.val; omega

/-- The window's block is the whole 1 x 256 array: cutting a block's contents to it changes nothing. -/
theorem cut13_apply (t : Fin cfg0.N) (v : Vec Ideal S1x256 .f32) : (cfg0.win 13).cut (grid0.coords t) v = v := rfl

theorem flushed13_eq (c : Dev nD) (P : Cert.Spec.Params) (hS : Spells V c P) (t : Fin cfg0.N) (hf : (cfg0.win 13).flush t = true) :
    (dat0 (F := Ideal) V c).flushed 13 t = ((cfg0.win 13).blk t).view.read (Elt Ideal) (Qarr V c P) := by
  have hN : cfg0.N = 50 := N_0
  have h49 : t.val = 49 := by have := (flush0_13 t).mp hf; have := t.isLt; omega
  obtain ⟨e13_0, e13_1⟩ := idx13 t
  show (cfg0.win 13).cut (grid0.coords t) ((dat0 V c).after 13 t) = _
  rw [after13_eq, cut13_apply]
  funext j
  obtain ⟨z, k, rfl⟩ : ∃ (z : Fin 1) (k : Fin 256), j = ix2 z k := ⟨j 0, j 1, eq_ix2 j⟩
  obtain rfl : z = 0 := Subsingleton.elim _ _
  refine (acc13_apply V c P hS k t.val t.isLt).trans ?_
  rw [h49]
  refine (total_blocks fun r => Hof V c P r k * Hof V c P r k).trans ?_
  exact ((read_whole13 t (Qarr V c P) k).trans (Qarr_apply V c P k)).symm

theorem mem_blk13 (t : Fin cfg0.N) (i : S1x256.Idx) :
    i ∈ ((cfg0.win 13).blk t).view.set ↔ ∀ a : Fin 2, win0_13.index t a * S1x256.size a ≤ (i a).val
      ∧ (i a).val < win0_13.index t a * S1x256.size a + S1x256.size a := by
  show i ∈ ((View.whole main_v22_2).slice (win0_13.rect t)).set ↔ _
  rw [View.set_slice_whole, Rect.mem_set_unit]
  exact Iff.rfl

theorem cover13 (i : S1x256.Idx) :
    ∃ t : Fin cfg0.N, (cfg0.win 13).flush t = true ∧ i ∈ ((cfg0.win 13).blk t).view.set := by
  have hN : cfg0.N = 50 := N_0
  have hi0 : (i 0).val < 1 := (i 0).isLt
  have hi1 : (i 1).val < 256 := (i 1).isLt
  refine ⟨⟨49, by omega⟩, (flush0_13 _).mpr rfl, ?_⟩
  obtain ⟨e13_0, e13_1⟩ := idx13 (⟨49, by omega⟩ : Fin cfg0.N)
  rw [mem_blk13]
  intro a
  match a with
  | ⟨0, _⟩ => show win0_13.index _ (0 : Fin 2) * 1 ≤ (i 0).val ∧ (i 0).val < win0_13.index _ (0 : Fin 2) * 1 + 1; omega
  | ⟨1, _⟩ => show win0_13.index _ (1 : Fin 2) * 256 ≤ (i 1).val ∧ (i 1).val < win0_13.index _ (1 : Fin 2) * 256 + 256; omega

theorem final13 (c : Dev nD) (P : Cert.Spec.Params) (hS : Spells V c P) :
    (dat0 (F := Ideal) V c).arrAt 13 cfg0.N = Qarr V c P :=
  (dat0 V c).arrAt_eq_of_cover 13 _ (fun t hf => flushed13_eq V c P hS t hf) cover13

end Cert.KernelIdeal.Region0

end
-- ==== Proof.KernelValue.lean ====
/-
  The kernel's result array is the specification's.

  The first region reads the aggregated edge messages A (the host forms them exactly as the reference does), the features
  and nine weight and bias arrays, and leaves the hidden array h = H(A, X), its column sums s and the column sums q of its
  squares. The host turns s and q into the column mean s / n and the inverse deviation 1 / sqrt (q / n - (s / n)² + eps),
  which are the specification's meanK h and invK h. The second region normalises h with them, scales, shifts and applies
  the last linear map: the specification's outK h, entry by entry.
-/
import proofs.«117861_j9285719294274_1_alg».proof.Proof.Gen.KernelIdeal.Frame
import proofs.«117861_j9285719294274_1_alg».proof.Proof.Gen.ReferenceIdeal.Read
import proofs.«117861_j9285719294274_1_alg».proof.Proof.SpecArrays
import proofs.«117861_j9285719294274_1_alg».proof.Proof.HostReads
import proofs.«117861_j9285719294274_1_alg».proof.Proof.Region1Value
import proofs.«117861_j9285719294274_1_alg».proof.Proof.Region0Sums
import Idealize.ShloMosaic.Lib.ValueIdx

set_option maxRecDepth 16384

noncomputable section

namespace Cert.KernelIdeal.KernelValue

open Cert.KernelIdeal Cert.KernelIdeal.Gen Cert.KernelIdeal.HostReads
open Idealize.ShloMosaic Idealize.ShloMosaic.TcCoe Idealize.SL.Sem Idealize.ShloMosaic.ValueIdx
open Cert.Spec

variable (m : (ℓ : Loc nD τ sig) → Buf (Elt Ideal) ℓ) (ρ : Dev nD → PrngReg) (c : Dev nD)

/-- The parameter record of the launch memory's thirteen weight and bias arrays. -/
abbrev Pm : Cert.Spec.Params :=
  paramsOf (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10)) (m ((c : Thread nD τ).loc main_arg11)) (m ((c : Thread nD τ).loc main_arg12))
    (m ((c : Thread nD τ).loc main_arg13)) (m ((c : Thread nD τ).loc main_arg14)) (m ((c : Thread nD τ).loc main_arg15))
    (m ((c : Thread nD τ).loc main_arg16))

/-- The aggregated edge messages of the launch memory's edge arrays. -/
abbrev Am : Arr2 50000 256 :=
  Cert.ReferenceIdeal.Read.val_main_v16 (F := Ideal) (m ((c : Thread nD τ).loc main_arg1))
    (m ((c : Thread nD τ).loc main_arg2)) (m ((c : Thread nD τ).loc main_arg3))

/-- The hidden array of the launch memory. -/
abbrev Hm : Fin 50000 → Fin 256 → EReal := Cert.Spec.hidden (Pm m c) (Am m c) (m ((c : Thread nD τ).loc main_arg0))

/-- The first region finds the parameter record in its resident arrays. -/
theorem spells : Region0.Spells (V1 m ρ) c (Pm m c) where
  bE := fun k => v17_row m ρ c k
  Wn := fun k j => by
    show (V1 m ρ c main_arg5 : S128x256.Idx → EReal) (ix2 k j) = _
    rw [V1_arg5]; rfl
  bn := fun k => v18_row m ρ c k
  Wc1 := fun k j => by
    show (V1 m ρ c main_arg7 : S256x256.Idx → EReal) (ix2 k j) = _
    rw [V1_arg7]; rfl
  bc1 := fun k => v19_row m ρ c k
  Wc2 := fun k j => by
    show (V1 m ρ c main_arg9 : S256x256.Idx → EReal) (ix2 k j) = _
    rw [V1_arg9]; rfl
  bc2 := fun k => v20_row m ρ c k
  Wf1 := fun k j => by
    show (V1 m ρ c main_arg11 : S256x256.Idx → EReal) (ix2 k j) = _
    rw [V1_arg11]; rfl
  bf1 := fun k => v21_row m ρ c k

/-- The hidden array of the arrays the first region finds is the launch memory's. -/
theorem Hof_eq : Region0.Hof (V1 m ρ) c (Pm m c) = Hm m c := by
  have e16 := v16_eq m ρ c
  have e0 := V1_arg0 m ρ c
  show H (Pm m c) (mat (V1 m ρ c main_v16 : S50000x256.Idx → EReal)) (mat (V1 m ρ c main_arg0 : S50000x128.Idx → EReal))
    = H (Pm m c) (mat (Am m c)) (mat (m ((c : Thread nD τ).loc main_arg0)))
  rw [e16, e0]

/-- What the first region leaves in its three outputs. -/
theorem h_eq : W2 m ρ c (Proc.devRef .tc main_v22_0) = Region0.Harr (V1 m ρ) c (Pm m c) :=
  (W2_arr m ρ c 11).trans (Region0.final11 (V1 m ρ) c (Pm m c) (spells m ρ c))
theorem s_eq : W2 m ρ c (Proc.devRef .tc main_v22_1) = Region0.Sarr (V1 m ρ) c (Pm m c) :=
  (W2_arr m ρ c 12).trans (Region0.final12 (V1 m ρ) c (Pm m c) (spells m ρ c))
theorem q_eq : W2 m ρ c (Proc.devRef .tc main_v22_2) = Region0.Qarr (V1 m ρ) c (Pm m c) :=
  (W2_arr m ρ c 13).trans (Region0.final13 (V1 m ρ) c (Pm m c) (spells m ρ c))

/-- The second region's seven arrays, entry by entry. -/
theorem h_at (r : Fin 50000) (k : Fin 256) :
    (V3 m ρ c main_v22_0 : S50000x256.Idx → EReal) (ix2 r k) = Hm m c r k := by
  rw [V3_v22_0, h_eq, ← Hof_eq m ρ c]
  rfl

theorem mean_at (k : Fin 256) :
    (V3 m ρ c main_v24 : S1x256.Idx → EReal) (ix2 (0 : Fin 1) k) = meanK (Hm m c) k := by
  rw [v24_row, s_eq, ← Hof_eq m ρ c]
  rfl

theorem inv_at (k : Fin 256) :
    (V3 m ρ c main_v31 : S1x256.Idx → EReal) (ix2 (0 : Fin 1) k) = invK (Hm m c) k := by
  rw [v31_row, s_eq, q_eq, ← Hof_eq m ρ c]
  rfl

theorem gam_at (k : Fin 256) : (V3 m ρ c main_v32 : S1x256.Idx → EReal) (ix2 (0 : Fin 1) k) = (Pm m c).γ k :=
  v32_row m ρ c k
theorem bet_at (k : Fin 256) : (V3 m ρ c main_v33 : S1x256.Idx → EReal) (ix2 (0 : Fin 1) k) = (Pm m c).β k :=
  v33_row m ρ c k
theorem bf2_at (j : Fin 40) : (V3 m ρ c main_v34 : S1x40.Idx → EReal) (ix2 (0 : Fin 1) j) = (Pm m c).bf2 j :=
  v34_row m ρ c j
theorem Wf2_at (k : Fin 256) (j : Fin 40) : (V3 m ρ c main_arg15 : S256x40.Idx → EReal) (ix2 k j) = (Pm m c).Wf2 k j := by
  rw [V3_arg15]; rfl

/-- The second region's output as the whole-array function of its seven arrays. -/
theorem out_eq : W4 m ρ c (Proc.devRef .tc main_v35)
    = Region1.G1 (V3 m ρ c main_v22_0) (V3 m ρ c main_v24) (V3 m ρ c main_v31) (V3 m ρ c main_v32) (V3 m ρ c main_v33)
        (V3 m ρ c main_arg15) (V3 m ρ c main_v34) :=
  (W4_arr m ρ c 7).trans (Region1.final1 (V3 m ρ) c)

/-- The specification's result at an index, written out. -/
theorem resultK_apply (i : (⟨2, ![50000, 40]⟩ : Shape).Idx) :
    Cert.Spec.resultK (Pm m c) (Am m c) (m ((c : Thread nD τ).loc main_arg0)) i
      = (∑ k : Fin 256, (((Hm m c (i 0) k - meanK (Hm m c) k) * invK (Hm m c) k) * (Pm m c).γ k + (Pm m c).β k)
          * (Pm m c).Wf2 k (i 1)) + (Pm m c).bf2 (i 1) := rfl

/-- THE KERNEL'S RESULT is the specification's, variance as mean of squares minus squared mean. -/
theorem result_eq : W4 m ρ c (Proc.devRef .tc main_v35)
    = Cert.Spec.resultK (Pm m c) (Am m c) (m ((c : Thread nD τ).loc main_arg0)) := by
  rw [out_eq]
  funext i
  rw [resultK_apply]
  unfold Region1.G1
  rw [bf2_at m ρ c (i 1)]
  refine congrArg (· + (Pm m c).bf2 (i 1)) (Finset.sum_congr rfl fun k _ => ?_)
  rw [h_at m ρ c (i 0) k, mean_at m ρ c k, inv_at m ρ c k, gam_at m ρ c k, bet_at m ρ c k, Wf2_at m ρ c k (i 1)]

end Cert.KernelIdeal.KernelValue

end
-- ==== Proof.RefValue.lean ====
/-
  The reference program's result array, read index by index, is the specification's result array.

  Every host operation of the reference is read at an index given by its coordinates: a broadcast row of biases is
  the bias at the column, a contraction is a sum over the contracted coordinate, a column reduction is zero plus the
  sum over the rows.  Stage by stage the reference's intermediate arrays are the specification's row functions:
  the aggregated messages plus their bias, the two residual layers, the two rectified layers, then the column
  mean, the column variance as the mean of the squared deviations, its inverse square root, and the last
  linear map.  The aggregated messages themselves (the scatter of the gathered, weighted rows) are kept as one
  array, never opened.
-/
import proofs.«117861_j9285719294274_1_alg».proof.Proof.Gen.ReferenceIdeal.Read
import proofs.«117861_j9285719294274_1_alg».proof.Proof.SpecArrays
import Idealize.ShloMosaic.Lib.ValueIdx

noncomputable section

namespace Cert.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx
open scoped BigOperators

/-- Two indices of rank two agree when their coordinates do. -/
local macro "idx2" : tactic =>
  `(tactic| exact funext fun a => by match a with | ⟨0, _⟩ => rfl | ⟨1, _⟩ => rfl)
/-- Two indices of rank one agree when their coordinate does. -/
local macro "idx1" : tactic =>
  `(tactic| exact funext fun a => by match a with | ⟨0, _⟩ => rfl)

/-- The zero the first rectifier compares with. -/
theorem zero0 (i : S50000x256.Idx) : val_main_call0_v0 (F := Ideal) i = (0 : EReal) := by
  rw [val_main_call0_v0_apply, val_main_call0_cst_apply, Ideal.ofBits_def, Ideal.ofBits_zero_f32]
/-- The zero the second rectifier compares with. -/
theorem zero1 (i : S50000x256.Idx) : val_main_call1_v0 (F := Ideal) i = (0 : EReal) := by
  rw [val_main_call1_v0_apply, val_main_call1_cst_apply, Ideal.ofBits_def, Ideal.ofBits_zero_f32]

section Stages

variable (x0 : (⟨S50000x128, .f32⟩ : BufTy).Contents (Elt Ideal))
  (x1 : (⟨S2x800000, .i32⟩ : BufTy).Contents (Elt Ideal))
  (x2 : (⟨S800000, .f32⟩ : BufTy).Contents (Elt Ideal))
  (x3 : (⟨S50000x256, .f32⟩ : BufTy).Contents (Elt Ideal))
  (x4 : (⟨S256, .f32⟩ : BufTy).Contents (Elt Ideal))
  (x5 : (⟨S128x256, .f32⟩ : BufTy).Contents (Elt Ideal))
  (x6 : (⟨S256, .f32⟩ : BufTy).Contents (Elt Ideal))
  (x7 : (⟨S256x256, .f32⟩ : BufTy).Contents (Elt Ideal))
  (x8 : (⟨S256, .f32⟩ : BufTy).Contents (Elt Ideal))
  (x9 : (⟨S256x256, .f32⟩ : BufTy).Contents (Elt Ideal))
  (x10 : (⟨S256, .f32⟩ : BufTy).Contents (Elt Ideal))
  (x11 : (⟨S256x256, .f32⟩ : BufTy).Contents (Elt Ideal))
  (x12 x13 x14 : (⟨S256, .f32⟩ : BufTy).Contents (Elt Ideal))
  (x15 : (⟨S256x40, .f32⟩ : BufTy).Contents (Elt Ideal))
  (x16 : (⟨S40, .f32⟩ : BufTy).Contents (Elt Ideal))
include x0 x1 x2 x3 x4 x5 x6 x7 x8 x9 x10 x11 x12 x13 x14 x15 x16

/-- The aggregated messages: one array, never opened. -/
local notation "Aa" => val_main_v16 (F := Ideal) x1 x2 x3
/-- The parameter record of the thirteen weight and bias arrays. -/
local notation "Pp" => Cert.Spec.paramsOf x4 x5 x6 x7 x8 x9 x10 x11 x12 x13 x14 x15 x16
/-- The hidden array. -/
local notation "Hh" => Cert.Spec.hidden Pp Aa x0
/-- Row `r` of the aggregated messages with the bias added. -/
local notation "aR(" r ")" => Cert.Spec.aRow Pp (Cert.Spec.mat Aa r)
/-- Row `r` of the features. -/
local notation "xR(" r ")" => Cert.Spec.mat x0 r
/-- A stage lemma at all seventeen arguments. -/
local notation "ALL[" t "]" => t x0 x1 x2 x3 x4 x5 x6 x7 x8 x9 x10 x11 x12 x13 x14 x15 x16

/-! ### The broadcast rows of biases and scales -/

theorem v18_at (r : Fin 50000) (c : Fin 256) : val_main_v18 (F := Ideal) x4 (ix2 r c) = x4 (ix1 c) := by
  rw [val_main_v18_apply, val_main_v17_apply]
  exact congrArg x4 (by idx1)

theorem v22_at (r : Fin 50000) (c : Fin 256) : val_main_v22 (F := Ideal) x8 (ix2 r c) = x8 (ix1 c) := by
  rw [val_main_v22_apply, val_main_v21_apply]
  exact congrArg x8 (by idx1)

theorem v27_at (r : Fin 50000) (c : Fin 256) : val_main_v27 (F := Ideal) x6 (ix2 r c) = x6 (ix1 c) := by
  rw [val_main_v27_apply, val_main_v26_apply]
  exact congrArg x6 (by idx1)

theorem v32_at (r : Fin 50000) (c : Fin 256) : val_main_v32 (F := Ideal) x10 (ix2 r c) = x10 (ix1 c) := by
  rw [val_main_v32_apply, val_main_v31_apply]
  exact congrArg x10 (by idx1)

theorem v38_at (r : Fin 50000) (c : Fin 256) : val_main_v38 (F := Ideal) x12 (ix2 r c) = x12 (ix1 c) := by
  rw [val_main_v38_apply, val_main_v37_apply]
  exact congrArg x12 (by idx1)

theorem v61_at (r : Fin 50000) (c : Fin 256) : val_main_v61 (F := Ideal) x13 (ix2 r c) = x13 (ix1 c) := by
  rw [val_main_v61_apply, val_main_v60_apply]
  exact congrArg x13 (by idx1)

theorem v64_at (r : Fin 50000) (c : Fin 256) : val_main_v64 (F := Ideal) x14 (ix2 r c) = x14 (ix1 c) := by
  rw [val_main_v64_apply, val_main_v63_apply]
  exact congrArg x14 (by idx1)

theorem v68_at (r : Fin 50000) (c : Fin 40) : val_main_v68 (F := Ideal) x16 (ix2 r c) = x16 (ix1 c) := by
  rw [val_main_v68_apply, val_main_v67_apply]
  exact congrArg x16 (by idx1)

/-! ### The parameter record's fields are the argument arrays at coordinates -/
theorem p_bE (c : Fin 256) : (Pp).bE c = x4 (ix1 c) := rfl
theorem p_Wn (k : Fin 128) (c : Fin 256) : (Pp).Wn k c = x5 (ix2 k c) := rfl
theorem p_bn (c : Fin 256) : (Pp).bn c = x6 (ix1 c) := rfl
theorem p_Wc1 (k : Fin 256) (c : Fin 256) : (Pp).Wc1 k c = x7 (ix2 k c) := rfl
theorem p_bc1 (c : Fin 256) : (Pp).bc1 c = x8 (ix1 c) := rfl
theorem p_Wc2 (k : Fin 256) (c : Fin 256) : (Pp).Wc2 k c = x9 (ix2 k c) := rfl
theorem p_bc2 (c : Fin 256) : (Pp).bc2 c = x10 (ix1 c) := rfl
theorem p_Wf1 (k : Fin 256) (c : Fin 256) : (Pp).Wf1 k c = x11 (ix2 k c) := rfl
theorem p_bf1 (c : Fin 256) : (Pp).bf1 c = x12 (ix1 c) := rfl
theorem p_γ (c : Fin 256) : (Pp).γ c = x13 (ix1 c) := rfl
theorem p_β (c : Fin 256) : (Pp).β c = x14 (ix1 c) := rfl
theorem p_Wf2 (k : Fin 256) (c : Fin 40) : (Pp).Wf2 k c = x15 (ix2 k c) := rfl
theorem p_bf2 (c : Fin 40) : (Pp).bf2 c = x16 (ix1 c) := rfl

/-! ### The hidden array -/

theorem v19_at (r : Fin 50000) (c : Fin 256) :
    val_main_v19 (F := Ideal) x1 x2 x3 x4 (ix2 r c) = aR(r) c := by
  rw [val_main_v19_apply, ALL[v18_at]]
  rw [Cert.Spec.aRow, Cert.Spec.mat, ALL[p_bE], Ideal.addf_def]

theorem v20_at (r : Fin 50000) (c : Fin 256) :
    val_main_v20 (F := Ideal) x1 x2 x3 x4 x7 (ix2 r c) = ∑ k : Fin 256, aR(r) k * (Pp).Wc1 k c := by
  rw [val_main_v20_apply]
  refine Finset.sum_congr rfl fun k _ => ?_
  have el : lidx_main_v20 (ix2 r c) k = ix2 r k := by idx2
  have er : ridx_main_v20 (ix2 r c) k = ix2 k c := by idx2
  rw [el, er, ALL[v19_at], ALL[p_Wc1]]

theorem v23_at (r : Fin 50000) (c : Fin 256) :
    val_main_v23 (F := Ideal) x1 x2 x3 x4 x7 x8 (ix2 r c) = (∑ k : Fin 256, aR(r) k * (Pp).Wc1 k c) + (Pp).bc1 c := by
  rw [val_main_v23_apply, ALL[v20_at], ALL[v22_at]]
  rw [ALL[p_bc1], Ideal.addf_def]

theorem v24_at (r : Fin 50000) (c : Fin 256) :
    val_main_v24 (F := Ideal) x1 x2 x3 x4 x7 x8 (ix2 r c) = Cert.Spec.o1 Pp aR(r) c := by
  rw [val_main_v24_apply, ALL[v19_at], ALL[v23_at]]
  rw [Cert.Spec.o1, Ideal.addf_def]

theorem v25_at (r : Fin 50000) (c : Fin 256) :
    val_main_v25 (F := Ideal) x0 x5 (ix2 r c) = ∑ k : Fin 128, xR(r) k * (Pp).Wn k c := by
  rw [val_main_v25_apply]
  refine Finset.sum_congr rfl fun k _ => ?_
  have el : lidx_main_v25 (ix2 r c) k = ix2 r k := by idx2
  have er : ridx_main_v25 (ix2 r c) k = ix2 k c := by idx2
  rw [el, er, ALL[p_Wn], Cert.Spec.mat]

theorem v28_at (r : Fin 50000) (c : Fin 256) :
    val_main_v28 (F := Ideal) x0 x5 x6 (ix2 r c) = Cert.Spec.hx Pp xR(r) c := by
  rw [val_main_v28_apply, ALL[v25_at], ALL[v27_at]]
  rw [Cert.Spec.hx, ALL[p_bn], Ideal.addf_def]

theorem v29_at (r : Fin 50000) (c : Fin 256) :
    val_main_v29 (F := Ideal) x0 x1 x2 x3 x4 x5 x6 x7 x8 (ix2 r c) = Cert.Spec.o1 Pp aR(r) c + Cert.Spec.hx Pp xR(r) c := by
  rw [val_main_v29_apply, ALL[v24_at], ALL[v28_at]]
  rw [Ideal.addf_def]

theorem v30_at (r : Fin 50000) (c : Fin 256) :
    val_main_v30 (F := Ideal) x0 x5 x6 x9 (ix2 r c) = ∑ k : Fin 256, Cert.Spec.hx Pp xR(r) k * (Pp).Wc2 k c := by
  rw [val_main_v30_apply]
  refine Finset.sum_congr rfl fun k _ => ?_
  have el : lidx_main_v30 (ix2 r c) k = ix2 r k := by idx2
  have er : ridx_main_v30 (ix2 r c) k = ix2 k c := by idx2
  rw [el, er, ALL[v28_at], ALL[p_Wc2]]

theorem v33_at (r : Fin 50000) (c : Fin 256) :
    val_main_v33 (F := Ideal) x0 x5 x6 x9 x10 (ix2 r c) = (∑ k : Fin 256, Cert.Spec.hx Pp xR(r) k * (Pp).Wc2 k c) + (Pp).bc2 c := by
  rw [val_main_v33_apply, ALL[v30_at], ALL[v32_at]]
  rw [ALL[p_bc2], Ideal.addf_def]

theorem v34_at (r : Fin 50000) (c : Fin 256) :
    val_main_v34 (F := Ideal) x0 x1 x2 x3 x4 x5 x6 x7 x8 x9 x10 (ix2 r c) = Cert.Spec.o2 Pp aR(r) xR(r) c := by
  rw [val_main_v34_apply, ALL[v29_at], ALL[v33_at]]
  rw [Cert.Spec.o2, Ideal.addf_def]

theorem v35_at (r : Fin 50000) (c : Fin 256) :
    val_main_v35 (F := Ideal) x0 x1 x2 x3 x4 x5 x6 x7 x8 x9 x10 (ix2 r c) = Cert.Spec.o3 Pp aR(r) xR(r) c := by
  rw [val_main_v35_apply, ALL[v34_at], zero0]
  rw [Cert.Spec.o3, Ideal.maximumf_def]

theorem v36_at (r : Fin 50000) (c : Fin 256) :
    val_main_v36 (F := Ideal) x0 x1 x2 x3 x4 x5 x6 x7 x8 x9 x10 x11 (ix2 r c) = ∑ k : Fin 256, Cert.Spec.o3 Pp aR(r) xR(r) k * (Pp).Wf1 k c := by
  rw [val_main_v36_apply]
  refine Finset.sum_congr rfl fun k _ => ?_
  have el : lidx_main_v36 (ix2 r c) k = ix2 r k := by idx2
  have er : ridx_main_v36 (ix2 r c) k = ix2 k c := by idx2
  rw [el, er, ALL[v35_at], ALL[p_Wf1]]

theorem v39_at (r : Fin 50000) (c : Fin 256) :
    val_main_v39 (F := Ideal) x0 x1 x2 x3 x4 x5 x6 x7 x8 x9 x10 x11 x12 (ix2 r c) = (∑ k : Fin 256, Cert.Spec.o3 Pp aR(r) xR(r) k * (Pp).Wf1 k c) + (Pp).bf1 c := by
  rw [val_main_v39_apply, ALL[v36_at], ALL[v38_at]]
  rw [ALL[p_bf1], Ideal.addf_def]

theorem v40_at (r : Fin 50000) (c : Fin 256) :
    val_main_v40 (F := Ideal) x0 x1 x2 x3 x4 x5 x6 x7 x8 x9 x10 x11 x12 (ix2 r c) = Hh r c := by
  rw [val_main_v40_apply, ALL[v39_at], zero1]
  rw [Cert.Spec.hidden, Cert.Spec.H, Cert.Spec.hRow, Ideal.maximumf_def]

/-! ### The column statistics -/

theorem v41_at (c : Fin 256) :
    val_main_v41 (F := Ideal) x0 x1 x2 x3 x4 x5 x6 x7 x8 x9 x10 x11 x12 (ix1 c) = 0 + ∑ r : Fin 50000, Hh r c := by
  rw [val_main_v41_apply, val_main_cst_1_apply, Ideal.ofBits_def, Ideal.ofBits_zero_f32]
  refine congrArg (fun s => (0 : EReal) + s) (Finset.sum_congr rfl fun k _ => ?_)
  have e : idx_main_v41 (ix1 c) k = ix2 k c := by idx2
  rw [e, ALL[v40_at]]

theorem v43_at (c : Fin 256) :
    val_main_v43 (F := Ideal) x0 x1 x2 x3 x4 x5 x6 x7 x8 x9 x10 x11 x12 (ix1 c) = Cert.Spec.muR Hh c := by
  rw [val_main_v43_apply, ALL[v41_at], val_main_v42_apply, val_main_cst_2_apply]
  rw [Cert.Spec.muR, Cert.Spec.nW, Ideal.hostDivf_def, Ideal.ofBits_def]

theorem v45_at (r : Fin 50000) (c : Fin 256) :
    val_main_v45 (F := Ideal) x0 x1 x2 x3 x4 x5 x6 x7 x8 x9 x10 x11 x12 (ix2 r c) = Cert.Spec.muR Hh c := by
  rw [val_main_v45_apply, val_main_v44_apply]
  have e : idx_main_v44 (idx_main_v45 (ix2 r c)) = ix1 c := by idx1
  rw [e, ALL[v43_at]]

theorem v46_at (r : Fin 50000) (c : Fin 256) :
    val_main_v46 (F := Ideal) x0 x1 x2 x3 x4 x5 x6 x7 x8 x9 x10 x11 x12 (ix2 r c) = Hh r c - Cert.Spec.muR Hh c := by
  rw [val_main_v46_apply, ALL[v40_at], ALL[v45_at]]
  rw [Ideal.subf_def]

theorem v47_at (r : Fin 50000) (c : Fin 256) :
    val_main_v47 (F := Ideal) x0 x1 x2 x3 x4 x5 x6 x7 x8 x9 x10 x11 x12 (ix2 r c) = (Hh r c - Cert.Spec.muR Hh c) * (Hh r c - Cert.Spec.muR Hh c) := by
  rw [val_main_v47_apply, ALL[v46_at]]
  rw [Ideal.mulf_def]

theorem v48_at (c : Fin 256) :
    val_main_v48 (F := Ideal) x0 x1 x2 x3 x4 x5 x6 x7 x8 x9 x10 x11 x12 (ix1 c) = 0 + ∑ r : Fin 50000, (Hh r c - Cert.Spec.muR Hh c) * (Hh r c - Cert.Spec.muR Hh c) := by
  rw [val_main_v48_apply, val_main_cst_3_apply, Ideal.ofBits_def, Ideal.ofBits_zero_f32]
  refine congrArg (fun s => (0 : EReal) + s) (Finset.sum_congr rfl fun k _ => ?_)
  have e : idx_main_v48 (ix1 c) k = ix2 k c := by idx2
  rw [e, ALL[v47_at]]

theorem v50_at (c : Fin 256) :
    val_main_v50 (F := Ideal) x0 x1 x2 x3 x4 x5 x6 x7 x8 x9 x10 x11 x12 (ix1 c) = Cert.Spec.varR Hh c := by
  rw [val_main_v50_apply, ALL[v48_at], val_main_v49_apply, val_main_cst_4_apply]
  rw [Cert.Spec.varR, Cert.Spec.nW, Ideal.hostDivf_def, Ideal.ofBits_def]

theorem v55_at (c : Fin 256) :
    val_main_v55 (F := Ideal) x0 x1 x2 x3 x4 x5 x6 x7 x8 x9 x10 x11 x12 (ix1 c) = Cert.Spec.varR Hh c + Cert.Spec.epsW := by
  rw [val_main_v55_apply, ALL[v50_at], val_main_v54_apply, val_main_cst_5_apply]
  rw [Cert.Spec.epsW, Ideal.addf_def, Ideal.ofBits_def]

theorem v56_at (c : Fin 256) :
    val_main_v56 (F := Ideal) x0 x1 x2 x3 x4 x5 x6 x7 x8 x9 x10 x11 x12 (ix1 c) = Cert.Spec.invR Hh c := by
  rw [val_main_v56_apply, ALL[v55_at]]
  rw [Cert.Spec.invR, Ideal.hostUnary_rsqrt_def]

/-! ### The normalised, scaled and shifted array, and the last linear map -/

theorem v52_at (r : Fin 50000) (c : Fin 256) :
    val_main_v52 (F := Ideal) x0 x1 x2 x3 x4 x5 x6 x7 x8 x9 x10 x11 x12 (ix2 r c) = Cert.Spec.muR Hh c := by
  rw [val_main_v52_apply, val_main_v51_apply]
  have e : idx_main_v51 (idx_main_v52 (ix2 r c)) = ix1 c := by idx1
  rw [e, ALL[v43_at]]

theorem v53_at (r : Fin 50000) (c : Fin 256) :
    val_main_v53 (F := Ideal) x0 x1 x2 x3 x4 x5 x6 x7 x8 x9 x10 x11 x12 (ix2 r c) = Hh r c - Cert.Spec.muR Hh c := by
  rw [val_main_v53_apply, ALL[v40_at], ALL[v52_at]]
  rw [Ideal.subf_def]

theorem v58_at (r : Fin 50000) (c : Fin 256) :
    val_main_v58 (F := Ideal) x0 x1 x2 x3 x4 x5 x6 x7 x8 x9 x10 x11 x12 (ix2 r c) = Cert.Spec.invR Hh c := by
  rw [val_main_v58_apply, val_main_v57_apply]
  have e : idx_main_v57 (idx_main_v58 (ix2 r c)) = ix1 c := by idx1
  rw [e, ALL[v56_at]]

theorem v59_at (r : Fin 50000) (c : Fin 256) :
    val_main_v59 (F := Ideal) x0 x1 x2 x3 x4 x5 x6 x7 x8 x9 x10 x11 x12 (ix2 r c) = (Hh r c - Cert.Spec.muR Hh c) * Cert.Spec.invR Hh c := by
  rw [val_main_v59_apply, ALL[v53_at], ALL[v58_at]]
  rw [Ideal.mulf_def]

theorem v62_at (r : Fin 50000) (c : Fin 256) :
    val_main_v62 (F := Ideal) x0 x1 x2 x3 x4 x5 x6 x7 x8 x9 x10 x11 x12 x13 (ix2 r c) = ((Hh r c - Cert.Spec.muR Hh c) * Cert.Spec.invR Hh c) * (Pp).γ c := by
  rw [val_main_v62_apply, ALL[v59_at], ALL[v61_at]]
  rw [ALL[p_γ], Ideal.mulf_def]

theorem v65_at (r : Fin 50000) (c : Fin 256) :
    val_main_v65 (F := Ideal) x0 x1 x2 x3 x4 x5 x6 x7 x8 x9 x10 x11 x12 x13 x14 (ix2 r c) = (((Hh r c - Cert.Spec.muR Hh c) * Cert.Spec.invR Hh c) * (Pp).γ c + (Pp).β c) := by
  rw [val_main_v65_apply, ALL[v62_at], ALL[v64_at]]
  rw [ALL[p_β], Ideal.addf_def]

theorem v66_at (r : Fin 50000) (j : Fin 40) :
    val_main_v66 (F := Ideal) x0 x1 x2 x3 x4 x5 x6 x7 x8 x9 x10 x11 x12 x13 x14 x15 (ix2 r j) = ∑ k : Fin 256, (((Hh r k - Cert.Spec.muR Hh k) * Cert.Spec.invR Hh k) * (Pp).γ k + (Pp).β k) * (Pp).Wf2 k j := by
  rw [val_main_v66_apply]
  refine Finset.sum_congr rfl fun k _ => ?_
  have el : lidx_main_v66 (ix2 r j) k = ix2 r k := by idx2
  have er : ridx_main_v66 (ix2 r j) k = ix2 k j := by idx2
  rw [el, er, ALL[v65_at], ALL[p_Wf2]]

theorem v69_at (r : Fin 50000) (j : Fin 40) :
    val_main_v69 (F := Ideal) x0 x1 x2 x3 x4 x5 x6 x7 x8 x9 x10 x11 x12 x13 x14 x15 x16 (ix2 r j) = Cert.Spec.outR Pp Hh r j := by
  rw [val_main_v69_apply, ALL[v66_at], ALL[v68_at]]
  rw [Cert.Spec.outR, Cert.Spec.outOf, ALL[p_bf2], Ideal.addf_def]

end Stages

/-- THE REFERENCE'S RESULT IS THE SPECIFICATION'S, variance as the mean of the squared deviations, at the aggregated
    messages the reference computes. -/
theorem ref_result (x0 : (⟨S50000x128, .f32⟩ : BufTy).Contents (Elt Ideal)) (x1 : (⟨S2x800000, .i32⟩ : BufTy).Contents (Elt Ideal))
    (x2 : (⟨S800000, .f32⟩ : BufTy).Contents (Elt Ideal)) (x3 : (⟨S50000x256, .f32⟩ : BufTy).Contents (Elt Ideal))
    (x4 : (⟨S256, .f32⟩ : BufTy).Contents (Elt Ideal)) (x5 : (⟨S128x256, .f32⟩ : BufTy).Contents (Elt Ideal))
    (x6 : (⟨S256, .f32⟩ : BufTy).Contents (Elt Ideal)) (x7 : (⟨S256x256, .f32⟩ : BufTy).Contents (Elt Ideal))
    (x8 : (⟨S256, .f32⟩ : BufTy).Contents (Elt Ideal)) (x9 : (⟨S256x256, .f32⟩ : BufTy).Contents (Elt Ideal))
    (x10 : (⟨S256, .f32⟩ : BufTy).Contents (Elt Ideal)) (x11 : (⟨S256x256, .f32⟩ : BufTy).Contents (Elt Ideal))
    (x12 x13 x14 : (⟨S256, .f32⟩ : BufTy).Contents (Elt Ideal)) (x15 : (⟨S256x40, .f32⟩ : BufTy).Contents (Elt Ideal))
    (x16 : (⟨S40, .f32⟩ : BufTy).Contents (Elt Ideal)) :
    Cert.ReferenceIdeal.Read.val_main_v69 (F := Ideal) x0 x1 x2 x3 x4 x5 x6 x7 x8 x9 x10 x11 x12 x13 x14 x15 x16
      = Cert.Spec.resultR (Cert.Spec.paramsOf x4 x5 x6 x7 x8 x9 x10 x11 x12 x13 x14 x15 x16)
          (Cert.ReferenceIdeal.Read.val_main_v16 (F := Ideal) x1 x2 x3) x0 := by
  funext i
  obtain ⟨r, j, rfl⟩ : ∃ (r : Fin 50000) (j : Fin 40), i = ix2 r j := ⟨i 0, i 1, eq_ix2 i⟩
  rw [v69_at x0 x1 x2 x3 x4 x5 x6 x7 x8 x9 x10 x11 x12 x13 x14 x15 x16 r j, Cert.Spec.resultR]

end Cert.RefValue

end
-- ==== Proof.FiniteInputs.lean ====
/-
  The precondition read back: every float input is an array of real numbers.

  The precondition is the conjunction, over the sixteen float inputs, of the test "every entry x has |x| < +∞". On the
  extended reals |x| is max x (-x), which is +∞ at both infinities, so the test at an entry says the entry is neither
  infinity: it is a real number. A conjunction of one-bit words that is 1 has every conjunct 1, and an and-reduction over
  all axes that is 1 has met a 1 at every index.
-/
import proofs.«117861_j9285719294274_1_alg».proof.Defs
import proofs.«117861_j9285719294274_1_alg».proof.Proof.Spec
import Idealize.ShloMosaic.Lib.ReduceAll

noncomputable section

namespace Cert.Finite

open Idealize.ShloMosaic Cert.Pre_finite_inputs Cert.Spec

/-- The shape with no axes has one index. -/
instance : Subsingleton (⟨0, ![]⟩ : Shape).Idx := ⟨fun a b => funext fun d => d.elim0⟩

theorem ofBool_eq_one (b : Bool) : BitVec.ofBool b = 1#1 ↔ b = true := by cases b <;> decide

/-- The pattern 0x7F800000 denotes +∞. -/
theorem inf_pattern : Ideal.ofBits .f32 0x7F800000#32 = (⊤ : EReal) := by
  simp [Ideal.ofBits, Ideal.ieee]

/-- An extended real whose absolute value max x (-x) is below +∞ is a real number: at -∞ and at +∞ the maximum is +∞. -/
theorem isReal_of_abs_lt_top (x : EReal) (h : max x (-x) < (⊤ : EReal)) : IsReal x := by
  induction x using EReal.rec with
  | bot => simp at h
  | top => simp at h
  | coe r => exact ⟨r, rfl⟩

/-- The test |x| < +∞ at one entry, as the programs spell it, gives a real entry. -/
theorem elem_real (x : EReal)
    (h : FloatOps.cmpf (F := Ideal) (φ := .f32) .olt (FloatOps.hostAbsf (F := Ideal) (φ := .f32) x)
      (FloatOps.ofBits (F := Ideal) .f32 0x7F800000#32) = 1#1) :
    IsReal x := by
  rw [Ideal.cmpf_def, Ideal.hostAbsf_def, Ideal.absf_def, Ideal.ofBits_def, inf_pattern] at h
  simp only [Ideal.cmp, ofBool_eq_one, decide_eq_true_eq] at h
  exact isReal_of_abs_lt_top x h

/-- The all-entries test of an array of any shape: if "every |x i| < +∞", reduced by and over all axes, is 1, then every
    entry is a real number. -/
theorem all_finite_real {s : Shape} {axes : List (Fin s.rank)} (x : FVec Ideal s .f32)
    (bc : S_.BroadcastsInDim s (![] : Fin 0 → Fin s.rank)) (hr : s.ReducesTo axes S_) (hu : 0 < S_.numel) (j : S_.Idx)
    (h : Host.reduce IntOp.andi (cmpf .olt (Host.absf x) (broadcastInDim s ![] bc (constant S_ .f32 0x7F800000#32)))
      (constantI S_ 1 1#1) hr hu j = 1#1) : ∀ i, IsReal (x i) := by
  intro i
  have e := Host.reduce_andi_all _ _ hr hu j h i
  exact elem_real (x i) e

/-- An and of two arrays of one-bit words that is 1 at an index has both 1 there. -/
theorem vandi_split {s : Shape} (x y : IVec s 1) (j : s.Idx) (h : andi x y j = 1#1) : x j = 1#1 ∧ y j = 1#1 :=
  IntOp.andi_eq_one.1 h

/-- THE PRECONDITION DECODED: each of the sixteen float inputs is an array of real numbers. -/
theorem inputs_real [Cert.Pre_finite_inputs.Facts]
    (a0 : FVec Ideal S50000x128 .f32) (a1 : IVec S2x800000 32) (a2 : FVec Ideal S800000 .f32)
    (a3 : FVec Ideal S50000x256 .f32) (a4 : FVec Ideal S256 .f32) (a5 : FVec Ideal S128x256 .f32)
    (a6 : FVec Ideal S256 .f32) (a7 : FVec Ideal S256x256 .f32) (a8 : FVec Ideal S256 .f32)
    (a9 : FVec Ideal S256x256 .f32) (a10 : FVec Ideal S256 .f32) (a11 : FVec Ideal S256x256 .f32)
    (a12 : FVec Ideal S256 .f32) (a13 : FVec Ideal S256 .f32) (a14 : FVec Ideal S256 .f32)
    (a15 : FVec Ideal S256x40 .f32) (a16 : FVec Ideal S40 .f32)
    (h : Cert.Pre_finite_inputs.fn (F := Ideal) a0 a1 a2 a3 a4 a5 a6 a7 a8 a9 a10 a11 a12 a13 a14 a15 a16 = (fun _ => 1#1)) :
    (∀ i, IsReal (a0 i)) ∧ (∀ i, IsReal (a2 i)) ∧ (∀ i, IsReal (a3 i)) ∧ (∀ i, IsReal (a4 i)) ∧ (∀ i, IsReal (a5 i))
    ∧ (∀ i, IsReal (a6 i)) ∧ (∀ i, IsReal (a7 i)) ∧ (∀ i, IsReal (a8 i)) ∧ (∀ i, IsReal (a9 i)) ∧ (∀ i, IsReal (a10 i))
    ∧ (∀ i, IsReal (a11 i)) ∧ (∀ i, IsReal (a12 i)) ∧ (∀ i, IsReal (a13 i)) ∧ (∀ i, IsReal (a14 i))
    ∧ (∀ i, IsReal (a15 i)) ∧ (∀ i, IsReal (a16 i)) := by
  have e := congrFun h (fun d => d.elim0)
  dsimp only [fn, fn_part1, fn_part2, fn_part3, fn_part4] at e
  obtain ⟨e, h16⟩ := vandi_split _ _ _ e
  obtain ⟨e, h15⟩ := vandi_split _ _ _ e
  obtain ⟨e, h14⟩ := vandi_split _ _ _ e
  obtain ⟨e, h13⟩ := vandi_split _ _ _ e
  obtain ⟨e, h12⟩ := vandi_split _ _ _ e
  obtain ⟨e, h11⟩ := vandi_split _ _ _ e
  obtain ⟨e, h10⟩ := vandi_split _ _ _ e
  obtain ⟨e, h9⟩ := vandi_split _ _ _ e
  obtain ⟨e, h8⟩ := vandi_split _ _ _ e
  obtain ⟨e, h7⟩ := vandi_split _ _ _ e
  obtain ⟨e, h6⟩ := vandi_split _ _ _ e
  obtain ⟨e, h5⟩ := vandi_split _ _ _ e
  obtain ⟨e, h4⟩ := vandi_split _ _ _ e
  obtain ⟨e, h3⟩ := vandi_split _ _ _ e
  obtain ⟨h0, h2⟩ := vandi_split _ _ _ e
  exact ⟨all_finite_real a0 _ _ _ _ h0, all_finite_real a2 _ _ _ _ h2, all_finite_real a3 _ _ _ _ h3,
    all_finite_real a4 _ _ _ _ h4, all_finite_real a5 _ _ _ _ h5, all_finite_real a6 _ _ _ _ h6,
    all_finite_real a7 _ _ _ _ h7, all_finite_real a8 _ _ _ _ h8, all_finite_real a9 _ _ _ _ h9,
    all_finite_real a10 _ _ _ _ h10, all_finite_real a11 _ _ _ _ h11, all_finite_real a12 _ _ _ _ h12,
    all_finite_real a13 _ _ _ _ h13, all_finite_real a14 _ _ _ _ h14, all_finite_real a15 _ _ _ _ h15,
    all_finite_real a16 _ _ _ _ h16⟩

end Cert.Finite

end
-- ==== Proof.MessagesReal.lean ====
/-
  The aggregated edge messages are real numbers.

  The entry at (r, c) of the aggregated messages is 0 plus a finite sum, over some set of edges e, of the products
  (weight of edge e) × (an entry of the edge table). Every weight and every entry of the table is a real number, a
  product of two reals is real, a finite sum of reals is real, and 0 is real; which edges and which entries take part
  does not matter.
-/
import proofs.«117861_j9285719294274_1_alg».proof.Proof.Gen.ReferenceIdeal.Read
import proofs.«117861_j9285719294274_1_alg».proof.Proof.Spec

noncomputable section

namespace Cert.Finite

open Idealize.ShloMosaic Idealize.ShloMosaic.ValueIdx Cert.ReferenceIdeal Cert.ReferenceIdeal.Gen Cert.ReferenceIdeal.Read Cert.Spec
open scoped BigOperators

private theorem isReal_zero' : IsReal 0 := ⟨0, by simp⟩
private theorem isReal_add' {a b : EReal} (ha : IsReal a) (hb : IsReal b) : IsReal (a + b) := by
  obtain ⟨x, rfl⟩ := ha; obtain ⟨y, rfl⟩ := hb; exact ⟨x + y, by rw [EReal.coe_add]⟩
private theorem isReal_mul' {a b : EReal} (ha : IsReal a) (hb : IsReal b) : IsReal (a * b) := by
  obtain ⟨x, rfl⟩ := ha; obtain ⟨y, rfl⟩ := hb; exact ⟨x * y, by rw [EReal.coe_mul]⟩
private theorem isReal_sum' {ι : Type*} (s : Finset ι) (f : ι → EReal) (h : ∀ i ∈ s, IsReal (f i)) :
    IsReal (∑ i ∈ s, f i) := by
  classical
  induction s using Finset.induction_on with
  | empty => rw [Finset.sum_empty]; exact isReal_zero'
  | insert i s hi ih =>
    rw [Finset.sum_insert hi]
    exact isReal_add' (h i (Finset.mem_insert_self i s)) (ih fun j hj => h j (Finset.mem_insert_of_mem hj))

/-- An accumulating scatter of real updates into a real table is a real table, whatever the index array: each entry is
    the table's entry plus a finite sum of updates. -/
theorem scatterAdd_real {s si su : Shape} {w : Nat} (d : ScatterDims s si su) (x : FVec Ideal s .f32) (idx : IVec si w)
    (upd : FVec Ideal su .f32) (hx : ∀ i, IsReal (x i)) (hu : ∀ j, IsReal (upd j)) :
    ∀ i, IsReal (Host.scatterAdd d x idx upd i) := by
  intro i
  unfold Host.scatterAdd
  rw [Ideal.hostScatterAdd_def]
  unfold Ideal.hostScatterAdd
  exact isReal_add' (hx i) (isReal_sum' _ _ fun j _ => hu j)

/-- A gather from a real table is real, whatever the index array: each entry is an entry of the table. -/
theorem gather_real {s si t : Shape} {w : Nat} (d : GatherDims s si t) (x : FVec Ideal s .f32) (idx : IVec si w)
    (hx : ∀ i, IsReal (x i)) : ∀ j, IsReal (Host.gather d x idx j) := by
  intro j
  unfold Host.gather
  exact hx _

/-- The pattern of all zero bits denotes the real number 0. -/
theorem ofBits_zero_real : IsReal (FloatOps.ofBits (F := Ideal) .f32 0x00000000#32) := by
  rw [Ideal.ofBits_def, Ideal.ofBits_zero_f32]; exact isReal_zero'

/-- Each weighted message, the edge's weight times a gathered entry of the edge table, is real. -/
theorem weighted_real (x1 : (⟨S2x800000, .i32⟩ : BufTy).Contents (Elt Ideal))
    (x2 : (⟨S800000, .f32⟩ : BufTy).Contents (Elt Ideal)) (x3 : (⟨S50000x256, .f32⟩ : BufTy).Contents (Elt Ideal))
    (h2 : ∀ i, IsReal (x2 i)) (h3 : ∀ i, IsReal (x3 i)) :
    ∀ j, IsReal (val_main_v13 (F := Ideal) x1 x2 x3 j) := by
  intro j
  rw [val_main_v13_apply, val_main_v12_apply, val_main_v4_apply, Ideal.mulf_def]
  exact isReal_mul' (h2 _) (gather_real _ x3 _ h3 j)

/-- THE AGGREGATED MESSAGES ARE REAL at every index. -/
theorem messages_real_all (x1 : (⟨S2x800000, .i32⟩ : BufTy).Contents (Elt Ideal))
    (x2 : (⟨S800000, .f32⟩ : BufTy).Contents (Elt Ideal)) (x3 : (⟨S50000x256, .f32⟩ : BufTy).Contents (Elt Ideal))
    (h2 : ∀ i, IsReal (x2 i)) (h3 : ∀ i, IsReal (x3 i)) :
    ∀ i, IsReal (val_main_v16 (F := Ideal) x1 x2 x3 i) := by
  unfold val_main_v16
  refine scatterAdd_real _ _ _ _ (fun i => ?_) (weighted_real x1 x2 x3 h2 h3)
  rw [val_main_v14_apply, val_main_cst_apply]
  exact ofBits_zero_real

/-- THE AGGREGATED MESSAGES ARE REAL, by row and column. -/
theorem messages_real (x1 : (⟨S2x800000, .i32⟩ : BufTy).Contents (Elt Ideal))
    (x2 : (⟨S800000, .f32⟩ : BufTy).Contents (Elt Ideal)) (x3 : (⟨S50000x256, .f32⟩ : BufTy).Contents (Elt Ideal))
    (h2 : ∀ i, IsReal (x2 i)) (h3 : ∀ i, IsReal (x3 i)) :
    ∀ (r : Fin 50000) (c : Fin 256), IsReal (val_main_v16 (F := Ideal) x1 x2 x3 (ValueIdx.ix2 r c)) :=
  fun r c => messages_real_all x1 x2 x3 h2 h3 (ValueIdx.ix2 r c)

end Cert.Finite

end
-- ==== Proof.Bridge.lean ====
/-
  The two spellings of the result agree on real data.

  The result array is the batch normalisation of the hidden array followed by the last linear map; its two spellings
  differ only in the column variance (mean of squares minus squared mean, against mean of squared deviations).  When
  the thirteen weight and bias arrays, the aggregated messages and the features are arrays of real numbers, the hidden
  array is real, so the two variances agree column by column and the two result arrays are one function.
-/
import proofs.«117861_j9285719294274_1_alg».proof.Proof.SpecArrays
import proofs.«117861_j9285719294274_1_alg».proof.Proof.SpecLaws

noncomputable section

namespace Cert.Spec

open Idealize.ShloMosaic Idealize.ShloMosaic.ValueIdx

/-- The parameter record of thirteen real arrays is real, field by field. -/
theorem paramsOf_isReal (x4 : Arr1 256) (x5 : Arr2 128 256) (x6 : Arr1 256) (x7 : Arr2 256 256) (x8 : Arr1 256)
    (x9 : Arr2 256 256) (x10 : Arr1 256) (x11 : Arr2 256 256) (x12 : Arr1 256) (x13 : Arr1 256) (x14 : Arr1 256)
    (x15 : Arr2 256 40) (x16 : Arr1 40)
    (h4 : ∀ i, IsReal (x4 i)) (h5 : ∀ i, IsReal (x5 i)) (h6 : ∀ i, IsReal (x6 i)) (h7 : ∀ i, IsReal (x7 i))
    (h8 : ∀ i, IsReal (x8 i)) (h9 : ∀ i, IsReal (x9 i)) (h10 : ∀ i, IsReal (x10 i)) (h11 : ∀ i, IsReal (x11 i))
    (h12 : ∀ i, IsReal (x12 i)) (h13 : ∀ i, IsReal (x13 i)) (h14 : ∀ i, IsReal (x14 i)) (h15 : ∀ i, IsReal (x15 i))
    (h16 : ∀ i, IsReal (x16 i)) :
    (paramsOf x4 x5 x6 x7 x8 x9 x10 x11 x12 x13 x14 x15 x16).IsReal where
  bE := fun c => h4 (ix1 c)
  Wn := fun k c => h5 (ix2 k c)
  bn := fun c => h6 (ix1 c)
  Wc1 := fun k c => h7 (ix2 k c)
  bc1 := fun c => h8 (ix1 c)
  Wc2 := fun k c => h9 (ix2 k c)
  bc2 := fun c => h10 (ix1 c)
  Wf1 := fun k c => h11 (ix2 k c)
  bf1 := fun c => h12 (ix1 c)
  γ := fun c => h13 (ix1 c)
  β := fun c => h14 (ix1 c)
  Wf2 := fun k j => h15 (ix2 k j)
  bf2 := fun j => h16 (ix1 j)

/-- The hidden array of real parameters, real aggregated messages and real features is real. -/
theorem hidden_isReal (P : Params) (hP : P.IsReal) (A : Arr2 50000 256) (x0 : Arr2 50000 128)
    (hA : ∀ (r : Fin 50000) (c : Fin 256), IsReal (A (ix2 r c))) (hX : ∀ i, IsReal (x0 i)) :
    ∀ r c, IsReal (hidden P A x0 r c) :=
  H_isReal P hP (mat A) (mat x0) hA (fun r k => hX (ix2 r k))

/-- On real data the result with the variance as mean of squares minus squared mean is the result with the variance
    as mean of squared deviations. -/
theorem resultK_eq_resultR (P : Params) (hP : P.IsReal) (A : Arr2 50000 256) (x0 : Arr2 50000 128)
    (hA : ∀ (r : Fin 50000) (c : Fin 256), IsReal (A (ix2 r c))) (hX : ∀ i, IsReal (x0 i)) :
    resultK P A x0 = resultR P A x0 := by
  funext i
  unfold resultK resultR
  rw [outK_eq_outR P (hidden P A x0) (hidden_isReal P hP A x0 hA hX)]

end Cert.Spec

end
-- ==== Proof.lean ====
/-
  The claim: the kernel, its idealization and the reference each run to the end and leave their seventeen argument
  arrays unchanged, and at the ideal instance (floats as extended reals, every operation exact) the idealized kernel
  and the reference, started from memories that agree on the arguments, end with the same result array.

  Both programs compute, for a graph of 50000 nodes: the aggregated edge messages A (a scatter-add of weighted
  gathered rows); the hidden array h, row r a fixed function of A r plus the edge bias and of the feature row X r;
  the batch normalisation of h over the rows; and a last linear map.  The kernel accumulates the column sums of h and
  of h * h block by block and takes the column variance as mean(h * h) - mean(h) * mean(h); the reference takes it as
  mean((h - mean(h)) * (h - mean(h))).  On the extended reals the two agree when every entry of h is a real number.
  The precondition says every float input is finite, hence real; reals are closed under the sums, products and
  maxima that build A and h; so the common result is the specification's, variance as the mean of squared deviations.
-/
import proofs.«117861_j9285719294274_1_alg».proof.Defs
import proofs.«117861_j9285719294274_1_alg».proof.Proof.Gen.Kernel
import proofs.«117861_j9285719294274_1_alg».proof.Proof.Gen.Kernel.Skeleton
import proofs.«117861_j9285719294274_1_alg».proof.Proof.Gen.Kernel.Launch
import proofs.«117861_j9285719294274_1_alg».proof.Proof.Gen.Kernel.Points
import proofs.«117861_j9285719294274_1_alg».proof.Proof.Gen.Kernel.Frame
import proofs.«117861_j9285719294274_1_alg».proof.Proof.Gen.KernelIdeal
import proofs.«117861_j9285719294274_1_alg».proof.Proof.Gen.KernelIdeal.Skeleton
import proofs.«117861_j9285719294274_1_alg».proof.Proof.Gen.KernelIdeal.Launch
import proofs.«117861_j9285719294274_1_alg».proof.Proof.Gen.KernelIdeal.Points
import proofs.«117861_j9285719294274_1_alg».proof.Proof.Gen.KernelIdeal.Frame
import proofs.«117861_j9285719294274_1_alg».proof.Proof.Gen.ReferenceIdeal
import proofs.«117861_j9285719294274_1_alg».proof.Proof.Gen.Pre_finite_inputs
import proofs.«117861_j9285719294274_1_alg».proof.Proof.Gen.ReferenceIdeal.Run
import proofs.«117861_j9285719294274_1_alg».proof.Proof.Gen.ReferenceIdeal.Read
import Idealize.ShloMosaic.Adequacy
import Idealize.ShloMosaic.Init
import proofs.«117861_j9285719294274_1_alg».proof.Proof.KernelRun
import proofs.«117861_j9285719294274_1_alg».proof.Proof.KernelValue
import proofs.«117861_j9285719294274_1_alg».proof.Proof.RefValue
import proofs.«117861_j9285719294274_1_alg».proof.Proof.FiniteInputs
import proofs.«117861_j9285719294274_1_alg».proof.Proof.MessagesReal
import proofs.«117861_j9285719294274_1_alg».proof.Proof.Bridge

noncomputable section

namespace Cert.Proof

open Idealize.ShloMosaic Idealize.ShloMosaic.TcCoe Idealize.SL.Sem

theorem frame_Kernel [Cert.Kernel.Facts] [Cert.Pre_finite_inputs.Facts] : Cert.frame_Kernel :=
  fun m ρ _ => Cert.Kernel.Gen.frame m ρ

theorem frame_KernelIdeal [Cert.KernelIdeal.Facts] [Cert.Pre_finite_inputs.Facts] : Cert.frame_KernelIdeal :=
  fun m ρ _ => Cert.KernelIdeal.Gen.frame m ρ

theorem frame_ReferenceIdeal [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

theorem preserves : Cert.preserves_Kernel_KernelIdeal := trivial

/-- On real inputs the kernel's result buffer ends at the specification's result, variance as the mean of the squared
    deviations: the kernel computes the other spelling, and the two agree on real data. -/
theorem kernel_value [Cert.Pre_finite_inputs.Facts]
    (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) (c : Dev Cert.KernelIdeal.nD) :
    Cert.KernelIdeal.Gen.W4 m ρ c (Proc.devRef .tc Cert.KernelIdeal.main_v35)
      = Cert.Spec.resultR (Cert.Spec.paramsOf (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) (Cert.ReferenceIdeal.Read.val_main_v16 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) (m ((c.tc : Thread Cert.KernelIdeal.nD Cert.KernelIdeal.τ).loc Cert.KernelIdeal.main_arg0)) := by
  obtain ⟨h0, h2, h3, h4, h5, h6, h7, h8, h9, h10, h11, h12, h13, h14, h15, h16⟩ :=
    Cert.Finite.inputs_real _ _ _ _ _ _ _ _ _ _ _ _ _ _ _ _ _ (hpre c)
  have hA := Cert.Finite.messages_real (m ((c.tc : Thread Cert.KernelIdeal.nD Cert.KernelIdeal.τ).loc Cert.KernelIdeal.main_arg1)) _ _ h2 h3
  have key : Cert.KernelIdeal.Gen.W4 m ρ c (Proc.devRef .tc Cert.KernelIdeal.main_v35)
      = Cert.Spec.resultK (Cert.Spec.paramsOf (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) (Cert.ReferenceIdeal.Read.val_main_v16 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) (m ((c.tc : Thread Cert.KernelIdeal.nD Cert.KernelIdeal.τ).loc Cert.KernelIdeal.main_arg0)) :=
    Cert.KernelIdeal.KernelValue.result_eq m ρ c
  generalize Cert.ReferenceIdeal.Read.val_main_v16 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) = A at hA key ⊢
  exact key.trans (Cert.Spec.resultK_eq_resultR _
    (Cert.Spec.paramsOf_isReal _ _ _ _ _ _ _ _ _ _ _ _ _ h4 h5 h6 h7 h8 h9 h10 h11 h12 h13 h14 h15 h16) A _ hA h0)

/-- The reference's result term at arrays equal to the kernel's arguments is the specification's result of those. -/
theorem ref_subst (x0 : (⟨Cert.ReferenceIdeal.S50000x128, .f32⟩ : BufTy).Contents (Elt Ideal)) (x1 : (⟨Cert.ReferenceIdeal.S2x800000, .i32⟩ : BufTy).Contents (Elt Ideal)) (x2 : (⟨Cert.ReferenceIdeal.S800000, .f32⟩ : BufTy).Contents (Elt Ideal)) (x3 : (⟨Cert.ReferenceIdeal.S50000x256, .f32⟩ : BufTy).Contents (Elt Ideal)) (x4 : (⟨Cert.ReferenceIdeal.S256, .f32⟩ : BufTy).Contents (Elt Ideal)) (x5 : (⟨Cert.ReferenceIdeal.S128x256, .f32⟩ : BufTy).Contents (Elt Ideal)) (x6 : (⟨Cert.ReferenceIdeal.S256, .f32⟩ : BufTy).Contents (Elt Ideal)) (x7 : (⟨Cert.ReferenceIdeal.S256x256, .f32⟩ : BufTy).Contents (Elt Ideal)) (x8 : (⟨Cert.ReferenceIdeal.S256, .f32⟩ : BufTy).Contents (Elt Ideal)) (x9 : (⟨Cert.ReferenceIdeal.S256x256, .f32⟩ : BufTy).Contents (Elt Ideal)) (x10 : (⟨Cert.ReferenceIdeal.S256, .f32⟩ : BufTy).Contents (Elt Ideal)) (x11 : (⟨Cert.ReferenceIdeal.S256x256, .f32⟩ : BufTy).Contents (Elt Ideal)) (x12 : (⟨Cert.ReferenceIdeal.S256, .f32⟩ : BufTy).Contents (Elt Ideal)) (x13 : (⟨Cert.ReferenceIdeal.S256, .f32⟩ : BufTy).Contents (Elt Ideal)) (x14 : (⟨Cert.ReferenceIdeal.S256, .f32⟩ : BufTy).Contents (Elt Ideal)) (x15 : (⟨Cert.ReferenceIdeal.S256x40, .f32⟩ : BufTy).Contents (Elt Ideal)) (x16 : (⟨Cert.ReferenceIdeal.S40, .f32⟩ : BufTy).Contents (Elt Ideal))
    (y0 : (⟨Cert.ReferenceIdeal.S50000x128, .f32⟩ : BufTy).Contents (Elt Ideal)) (y1 : (⟨Cert.ReferenceIdeal.S2x800000, .i32⟩ : BufTy).Contents (Elt Ideal)) (y2 : (⟨Cert.ReferenceIdeal.S800000, .f32⟩ : BufTy).Contents (Elt Ideal)) (y3 : (⟨Cert.ReferenceIdeal.S50000x256, .f32⟩ : BufTy).Contents (Elt Ideal)) (y4 : (⟨Cert.ReferenceIdeal.S256, .f32⟩ : BufTy).Contents (Elt Ideal)) (y5 : (⟨Cert.ReferenceIdeal.S128x256, .f32⟩ : BufTy).Contents (Elt Ideal)) (y6 : (⟨Cert.ReferenceIdeal.S256, .f32⟩ : BufTy).Contents (Elt Ideal)) (y7 : (⟨Cert.ReferenceIdeal.S256x256, .f32⟩ : BufTy).Contents (Elt Ideal)) (y8 : (⟨Cert.ReferenceIdeal.S256, .f32⟩ : BufTy).Contents (Elt Ideal)) (y9 : (⟨Cert.ReferenceIdeal.S256x256, .f32⟩ : BufTy).Contents (Elt Ideal)) (y10 : (⟨Cert.ReferenceIdeal.S256, .f32⟩ : BufTy).Contents (Elt Ideal)) (y11 : (⟨Cert.ReferenceIdeal.S256x256, .f32⟩ : BufTy).Contents (Elt Ideal)) (y12 : (⟨Cert.ReferenceIdeal.S256, .f32⟩ : BufTy).Contents (Elt Ideal)) (y13 : (⟨Cert.ReferenceIdeal.S256, .f32⟩ : BufTy).Contents (Elt Ideal)) (y14 : (⟨Cert.ReferenceIdeal.S256, .f32⟩ : BufTy).Contents (Elt Ideal)) (y15 : (⟨Cert.ReferenceIdeal.S256x40, .f32⟩ : BufTy).Contents (Elt Ideal)) (y16 : (⟨Cert.ReferenceIdeal.S40, .f32⟩ : BufTy).Contents (Elt Ideal))
    (e0 : x0 = y0) (e1 : x1 = y1) (e2 : x2 = y2) (e3 : x3 = y3) (e4 : x4 = y4) (e5 : x5 = y5) (e6 : x6 = y6) (e7 : x7 = y7) (e8 : x8 = y8) (e9 : x9 = y9) (e10 : x10 = y10) (e11 : x11 = y11) (e12 : x12 = y12) (e13 : x13 = y13) (e14 : x14 = y14) (e15 : x15 = y15) (e16 : x16 = y16) :
    Cert.ReferenceIdeal.Read.val_main_v69 (F := Ideal) x0 x1 x2 x3 x4 x5 x6 x7 x8 x9 x10 x11 x12 x13 x14 x15 x16
      = Cert.Spec.resultR (Cert.Spec.paramsOf y4 y5 y6 y7 y8 y9 y10 y11 y12 y13 y14 y15 y16)
          (Cert.ReferenceIdeal.Read.val_main_v16 (F := Ideal) y1 y2 y3) y0 := by
  subst e0 e1 e2 e3 e4 e5 e6 e7 e8 e9 e10 e11 e12 e13 e14 e15 e16
  exact Cert.RefValue.ref_result x0 x1 x2 x3 x4 x5 x6 x7 x8 x9 x10 x11 x12 x13 x14 x15 x16

/-- At the ideal instance, from memories agreeing on the seventeen arguments, both programs end with the result at
    the specification's result array of the arguments, and with the arguments unchanged. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.Spec.resultR (Cert.Spec.paramsOf (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) (Cert.ReferenceIdeal.Read.val_main_v16 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) (m ((c.tc : Thread Cert.KernelIdeal.nD Cert.KernelIdeal.τ).loc Cert.KernelIdeal.main_arg0)), ?_, ?_⟩
  · exact (θ_run Cert.KernelIdeal.defs _ _).mono
      (fun r h c => ⟨(h c).1.trans (kernel_value m ρ hpre c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12, e13, e14, e15, e16⟩ := hagree c
    exact (Cert.ReferenceIdeal.Read.val_main_v69_eq m' c).trans
      (ref_subst _ _ _ _ _ _ _ _ _ _ _ _ _ _ _ _ _ _ _ _ _ _ _ _ _ _ _ _ _ _ _ _ _ _ e0 e1 e2 e3 e4 e5 e6 e7 e8 e9 e10 e11 e12 e13 e14 e15 e16)

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, preserves, algebraic⟩

end Cert.Proof

end
